-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x8 : Shape := ⟨2, ![4096, 8]⟩
abbrev S8x5632x2048 : Shape := ⟨3, ![8, 5632, 2048]⟩
abbrev S8x2048x5632 : Shape := ⟨3, ![8, 2048, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S8x5632x2048 : S_.BroadcastsInDim S8x5632x2048 (![] : Fin 0 → Fin S8x5632x2048.rank)
  reducesTo_S8x5632x2048_S_d0_1_2 : S8x5632x2048.ReducesTo [0, 1, 2] S_
  bcast_S_S8x2048x5632 : S_.BroadcastsInDim S8x2048x5632 (![] : Fin 0 → Fin S8x2048x5632.rank)
  reducesTo_S8x2048x5632_S_d0_1_2 : S8x2048x5632.ReducesTo [0, 1, 2] S_

variable [Facts]

def fn_part1 {F : FTy → Type} [FloatOps F] (main_arg1 : IVec S4096x8 32) (main_arg5 : FVec F S8x5632x2048 .f32) (main_v13 : IVec S_ 1) (main_v16 : IVec S8x2048x5632 1) : IVec S_ 1 :=
  let main_c_5 : IVec S_ 1 := constantI S_ 1 1#1
  let main_v17 : IVec S_ 1 := (fun x v => Host.reduce IntOp.andi x v reducesTo_S8x2048x5632_S_d0_1_2 h_S_) main_v16 main_c_5
  let main_v18 : IVec S_ 1 := andi main_v13 main_v17
  let main_v19 : FVec F S8x5632x2048 .f32 := Host.absf main_arg5
  let main_cst_6 : FVec F S_ .f32 := constant S_ .f32 0x7F800000#32
  let main_v20 : FVec F S8x5632x2048 .f32 := broadcastInDim S8x5632x2048 ![] bcast_S_S8x5632x2048 main_cst_6
  let main_v21 : IVec S8x5632x2048 1 := cmpf .olt main_v19 main_v20
  let main_c_7 : IVec S_ 1 := constantI S_ 1 1#1
  let main_v22 : IVec S_ 1 := (fun x v => Host.reduce IntOp.andi x v reducesTo_S8x5632x2048_S_d0_1_2 h_S_) main_v21 main_c_7
  let main_v23 : IVec S_ 1 := andi main_v18 main_v22
  let main_c_8 : IVec S_ 32 := constantI S_ 32 0#32
  let main_v24 : IVec S4096x8 32 := broadcastInDim S4096x8 ![] bcast_S_S4096x8 main_c_8
  let main_v25 : IVec S4096x8 1 := cmpi .eq main_arg1 main_v24
  let main_c_9 : IVec S_ 32 := constantI S_ 32 1#32
  let main_v26 : IVec S4096x8 32 := broadcastInDim S4096x8 ![] bcast_S_S4096x8 main_c_9
  let main_v27 : IVec S4096x8 1 := cmpi .eq main_arg1 main_v26
  let main_v28 : IVec S4096x8 1 := ori main_v25 main_v27
  let main_c_10 : IVec S_ 1 := constantI S_ 1 1#1
  let main_v29 : IVec S_ 1 := (fun x v => Host.reduce IntOp.andi x v reducesTo_S4096x8_S_d0_1 h_S_) main_v28 main_c_10
  let main_v30 : IVec S_ 1 := andi main_v23 main_v29
  main_v30

def fn {F : FTy → Type} [FloatOps F] (main_arg0 : FVec F S4096x2048 .f32) (main_arg1 : IVec S4096x8 32) (main_arg2 : FVec F S4096x8 .f32) (main_arg3 : FVec F S8x5632x2048 .f32) (main_arg4 : FVec F S8x2048x5632 .f32) (main_arg5 : FVec F S8x5632x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x8 .f32 := Host.absf main_arg2
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S8x5632x2048 .f32 := Host.absf main_arg3
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  let main_v14 : FVec F S8x2048x5632 .f32 := Host.absf main_arg4
  let main_cst_4 : FVec F S_ .f32 := constant S_ .f32 0x7F800000#32
  let main_v15 : FVec F S8x2048x5632 .f32 := broadcastInDim S8x2048x5632 ![] bcast_S_S8x2048x5632 main_cst_4
  let main_v16 : IVec S8x2048x5632 1 := cmpf .olt main_v14 main_v15
  fn_part1 (F := F) main_arg1 main_arg5 main_v13 main_v16
-- ==== Kernel.lean ====
abbrev S4096x2048 : Shape := ⟨2, ![4096, 2048]⟩
abbrev S4096x8 : Shape := ⟨2, ![4096, 8]⟩
abbrev S8x5632x2048 : Shape := ⟨3, ![8, 5632, 2048]⟩
abbrev S8x2048x5632 : Shape := ⟨3, ![8, 2048, 5632]⟩
abbrev S_ : Shape := ⟨0, ![]⟩
abbrev S8x4096 : Shape := ⟨2, ![8, 4096]⟩
abbrev S8x4096x1 : Shape := ⟨3, ![8, 4096, 1]⟩
abbrev S1024x2048 : Shape := ⟨2, ![1024, 2048]⟩
abbrev S1x128x2048 : Shape := ⟨3, ![1, 128, 2048]⟩
abbrev S1x2048x128 : Shape := ⟨3, ![1, 2048, 128]⟩
abbrev S1x1024x1 : Shape := ⟨3, ![1, 1024, 1]⟩
abbrev S128x2048 : Shape := ⟨2, ![128, 2048]⟩
abbrev S2048x128 : Shape := ⟨2, ![2048, 128]⟩
abbrev S1024x1 : Shape := ⟨2, ![1024, 1]⟩
abbrev S1024x128 : Shape := ⟨2, ![1024, 128]⟩

abbrev nBuf : Space → Nat
  | .hbm => 20
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x8, .i32⟩
  | .hbm, ⟨2, _⟩ => ⟨S4096x8, .f32⟩
  | .hbm, ⟨3, _⟩ => ⟨S8x5632x2048, .f32⟩
  | .hbm, ⟨4, _⟩ => ⟨S8x2048x5632, .f32⟩
  | .hbm, ⟨5, _⟩ => ⟨S8x5632x2048, .f32⟩
  | .hbm, ⟨6, _⟩ => ⟨S_, .i32⟩
  | .hbm, ⟨7, _⟩ => ⟨S4096x8, .i32⟩
  | .hbm, ⟨8, _⟩ => ⟨S4096x8, .i1⟩
  | .hbm, ⟨9, _⟩ => ⟨S_, .f32⟩
  | .hbm, ⟨10, _⟩ => ⟨S_, .f32⟩
  | .hbm, ⟨11, _⟩ => ⟨S4096x8, .f32⟩
  | .hbm, ⟨12, _⟩ => ⟨S4096x8, .f32⟩
  | .hbm, ⟨13, _⟩ => ⟨S8x4096, .f32⟩
  | .hbm, ⟨14, _⟩ => ⟨S8x4096x1, .f32⟩
  | .hbm, ⟨15, _⟩ => ⟨S4096x2048, .bf16⟩
  | .hbm, ⟨16, _⟩ => ⟨S8x5632x2048, .bf16⟩
  | .hbm, ⟨17, _⟩ => ⟨S8x2048x5632, .bf16⟩
  | .hbm, ⟨18, _⟩ => ⟨S8x5632x2048, .bf16⟩
  | .hbm, ⟨19, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x2048, .f32⟩
  | .local _ .vmem, ⟨11, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 44], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S4096x8 : S_.BroadcastsInDim S4096x8 (![] : Fin 0 → Fin S4096x8.rank)
  transposes_S4096x8_S8x4096_1_0 : S4096x8.Transposes [1, 0] S8x4096
  bcast_S8x4096_S8x4096x1_0_1 : S8x4096.BroadcastsInDim S8x4096x1 (![0, 1] : Fin 2 → Fin S8x4096x1.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x128 : S1024x1.Broadcasts S1024x128
  dot_S1024x2048_S128x2048_S1024x128_1_1_0_0_n_n_wf : DotDims.WF S1024x2048 S128x2048 S1024x128 [1] [1] [0] [0] [] []
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S8x5632x2048.size a
  hwx0_1 : ∀ i : grid0.Coords, EltTy.bits .bf16 = 32 ∨ (Rect.block (s := S8x5632x2048) S1x128x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S8x5632x2048.size a
  hwx0_2 : ∀ i : grid0.Coords, EltTy.bits .bf16 = 32 ∨ (Rect.block (s := S8x5632x2048) S1x128x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x5632.size a
  hwx0_3 : ∀ i : grid0.Coords, EltTy.bits .bf16 = 32 ∨ (Rect.block (s := S8x2048x5632) S1x2048x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S8x4096x1.size a
  hwx0_4 : ∀ i : grid0.Coords, EltTy.bits .f32 = 32 ∨ (Rect.block (s := S8x4096x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S4096x2048.size a
  hwx0_5 : ∀ i : grid0.Coords, EltTy.bits .f32 = 32 ∨ (Rect.block (s := S4096x2048) S1024x2048.size (cc0_transform_5 i) (hinb0_5 i)).WholeWords (EltTy.packing .f32)

variable [Facts₀]

def dot_S1024x2048_S128x2048_S1024x128_1_1_0_0_n_n : DotDims S1024x2048 S128x2048 S1024x128 where
  lhsContracting := [1]
  rhsContracting := [1]
  lhsNonContracting := [0]
  rhsNonContracting := [0]
  lhsBatch := []
  rhsBatch := []
  wf := dot_S1024x2048_S128x2048_S1024x128_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v5) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x8 : Shape := ⟨2, ![4096, 8]⟩
abbrev S8x5632x2048 : Shape := ⟨3, ![8, 5632, 2048]⟩
abbrev S8x2048x5632 : Shape := ⟨3, ![8, 2048, 5632]⟩
abbrev S_ : Shape := ⟨0, ![]⟩
abbrev S1x5632x2048 : Shape := ⟨3, ![1, 5632, 2048]⟩
abbrev S5632x2048 : Shape := ⟨2, ![5632, 2048]⟩
abbrev S2048x5632 : Shape := ⟨2, ![2048, 5632]⟩
abbrev S4096x5632 : Shape := ⟨2, ![4096, 5632]⟩
abbrev S1x2048x5632 : Shape := ⟨3, ![1, 2048, 5632]⟩
abbrev S4096x1 : Shape := ⟨2, ![4096, 1]⟩
abbrev S4096 : Shape := ⟨1, ![4096]⟩

abbrev nBuf : Space → Nat
  | .hbm => 257
  | .vmem => 0
  | .smem => 0
  | _ => 0

abbrev hbmTy0_0 (i : Nat) : BufTy := match i % 128 with
  | 0 => ⟨S4096x2048, .f32⟩
  | 1 => ⟨S4096x8, .i32⟩
  | 2 => ⟨S4096x8, .f32⟩
  | 3 => ⟨S8x5632x2048, .f32⟩
  | 4 => ⟨S8x2048x5632, .f32⟩
  | 5 => ⟨S8x5632x2048, .f32⟩
  | 6 => ⟨S4096x8, .f32⟩
  | 7 => ⟨S_, .f32⟩
  | 8 => ⟨S4096x2048, .f32⟩
  | 9 => ⟨S1x5632x2048, .f32⟩
  | 10 => ⟨S5632x2048, .f32⟩
  | 11 => ⟨S2048x5632, .f32⟩
  | 12 => ⟨S4096x5632, .f32⟩
  | 13 => ⟨S4096x5632, .f32⟩
  | 14 => ⟨S4096x5632, .f32⟩
  | 15 => ⟨S_, .f32⟩
  | 16 => ⟨S4096x5632, .f32⟩
  | 17 => ⟨S4096x5632, .f32⟩
  | 18 => ⟨S_, .f32⟩
  | 19 => ⟨S4096x5632, .f32⟩
  | 20 => ⟨S4096x5632, .f32⟩
  | 21 => ⟨S4096x5632, .f32⟩
  | 22 => ⟨S1x5632x2048, .f32⟩
  | 23 => ⟨S5632x2048, .f32⟩
  | 24 => ⟨S2048x5632, .f32⟩
  | 25 => ⟨S4096x5632, .f32⟩
  | 26 => ⟨S4096x5632, .f32⟩
  | 27 => ⟨S1x2048x5632, .f32⟩
  | 28 => ⟨S2048x5632, .f32⟩
  | 29 => ⟨S5632x2048, .f32⟩
  | 30 => ⟨S4096x2048, .f32⟩
  | 31 => ⟨S4096x1, .f32⟩
  | 32 => ⟨S4096, .f32⟩
  | 33 => ⟨S4096x1, .f32⟩
  | 34 => ⟨S4096, .f32⟩
  | 35 => ⟨S4096, .f32⟩
  | 36 => ⟨S4096x1, .f32⟩
  | 37 => ⟨S4096x2048, .f32⟩
  | 38 => ⟨S4096x2048, .f32⟩
  | 39 => ⟨S4096x2048, .f32⟩
  | 40 => ⟨S1x5632x2048, .f32⟩
  | 41 => ⟨S5632x2048, .f32⟩
  | 42 => ⟨S2048x5632, .f32⟩
  | 43 => ⟨S4096x5632, .f32⟩
  | 44 => ⟨S4096x5632, .f32⟩
  | 45 => ⟨S4096x5632, .f32⟩
  | 46 => ⟨S_, .f32⟩
  | 47 => ⟨S4096x5632, .f32⟩
  | 48 => ⟨S4096x5632, .f32⟩
  | 49 => ⟨S_, .f32⟩
  | 50 => ⟨S4096x5632, .f32⟩
  | 51 => ⟨S4096x5632, .f32⟩
  | 52 => ⟨S4096x5632, .f32⟩
  | 53 => ⟨S1x5632x2048, .f32⟩
  | 54 => ⟨S5632x2048, .f32⟩
  | 55 => ⟨S2048x5632, .f32⟩
  | 56 => ⟨S4096x5632, .f32⟩
  | 57 => ⟨S4096x5632, .f32⟩
  | 58 => ⟨S1x2048x5632, .f32⟩
  | 59 => ⟨S2048x5632, .f32⟩
  | 60 => ⟨S5632x2048, .f32⟩
  | 61 => ⟨S4096x2048, .f32⟩
  | 62 => ⟨S4096x1, .f32⟩
  | 63 => ⟨S4096, .f32⟩
  | 64 => ⟨S4096x1, .f32⟩
  | 65 => ⟨S4096, .f32⟩
  | 66 => ⟨S4096, .f32⟩
  | 67 => ⟨S4096x1, .f32⟩
  | 68 => ⟨S4096x2048, .f32⟩
  | 69 => ⟨S4096x2048, .f32⟩
  | 70 => ⟨S4096x2048, .f32⟩
  | 71 => ⟨S1x5632x2048, .f32⟩
  | 72 => ⟨S5632x2048, .f32⟩
  | 73 => ⟨S2048x5632, .f32⟩
  | 74 => ⟨S4096x5632, .f32⟩
  | 75 => ⟨S4096x5632, .f32⟩
  | 76 => ⟨S4096x5632, .f32⟩
  | 77 => ⟨S_, .f32⟩
  | 78 => ⟨S4096x5632, .f32⟩
  | 79 => ⟨S4096x5632, .f32⟩
  | 80 => ⟨S_, .f32⟩
  | 81 => ⟨S4096x5632, .f32⟩
  | 82 => ⟨S4096x5632, .f32⟩
  | 83 => ⟨S4096x5632, .f32⟩
  | 84 => ⟨S1x5632x2048, .f32⟩
  | 85 => ⟨S5632x2048, .f32⟩
  | 86 => ⟨S2048x5632, .f32⟩
  | 87 => ⟨S4096x5632, .f32⟩
  | 88 => ⟨S4096x5632, .f32⟩
  | 89 => ⟨S1x2048x5632, .f32⟩
  | 90 => ⟨S2048x5632, .f32⟩
  | 91 => ⟨S5632x2048, .f32⟩
  | 92 => ⟨S4096x2048, .f32⟩
  | 93 => ⟨S4096x1, .f32⟩
  | 94 => ⟨S4096, .f32⟩
  | 95 => ⟨S4096x1, .f32⟩
  | 96 => ⟨S4096, .f32⟩
  | 97 => ⟨S4096, .f32⟩
  | 98 => ⟨S4096x1, .f32⟩
  | 99 => ⟨S4096x2048, .f32⟩
  | 100 => ⟨S4096x2048, .f32⟩
  | 101 => ⟨S4096x2048, .f32⟩
  | 102 => ⟨S1x5632x2048, .f32⟩
  | 103 => ⟨S5632x2048, .f32⟩
  | 104 => ⟨S2048x5632, .f32⟩
  | 105 => ⟨S4096x5632, .f32⟩
  | 106 => ⟨S4096x5632, .f32⟩
  | 107 => ⟨S4096x5632, .f32⟩
  | 108 => ⟨S_, .f32⟩
  | 109 => ⟨S4096x5632, .f32⟩
  | 110 => ⟨S4096x5632, .f32⟩
  | 111 => ⟨S_, .f32⟩
  | 112 => ⟨S4096x5632, .f32⟩
  | 113 => ⟨S4096x5632, .f32⟩
  | 114 => ⟨S4096x5632, .f32⟩
  | 115 => ⟨S1x5632x2048, .f32⟩
  | 116 => ⟨S5632x2048, .f32⟩
  | 117 => ⟨S2048x5632, .f32⟩
  | 118 => ⟨S4096x5632, .f32⟩
  | 119 => ⟨S4096x5632, .f32⟩
  | 120 => ⟨S1x2048x5632, .f32⟩
  | 121 => ⟨S2048x5632, .f32⟩
  | 122 => ⟨S5632x2048, .f32⟩
  | 123 => ⟨S4096x2048, .f32⟩
  | 124 => ⟨S4096x1, .f32⟩
  | 125 => ⟨S4096, .f32⟩
  | 126 => ⟨S4096x1, .f32⟩
  | 127 => ⟨S4096, .f32⟩
  | _ => ⟨S4096x2048, .f32⟩

abbrev hbmTy0_1 (i : Nat) : BufTy := match i % 128 with
  | 0 => ⟨S4096, .f32⟩
  | 1 => ⟨S4096x1, .f32⟩
  | 2 => ⟨S4096x2048, .f32⟩
  | 3 => ⟨S4096x2048, .f32⟩
  | 4 => ⟨S4096x2048, .f32⟩
  | 5 => ⟨S1x5632x2048, .f32⟩
  | 6 => ⟨S5632x2048, .f32⟩
  | 7 => ⟨S2048x5632, .f32⟩
  | 8 => ⟨S4096x5632, .f32⟩
  | 9 => ⟨S4096x5632, .f32⟩
  | 10 => ⟨S4096x5632, .f32⟩
  | 11 => ⟨S_, .f32⟩
  | 12 => ⟨S4096x5632, .f32⟩
  | 13 => ⟨S4096x5632, .f32⟩
  | 14 => ⟨S_, .f32⟩
  | 15 => ⟨S4096x5632, .f32⟩
  | 16 => ⟨S4096x5632, .f32⟩
  | 17 => ⟨S4096x5632, .f32⟩
  | 18 => ⟨S1x5632x2048, .f32⟩
  | 19 => ⟨S5632x2048, .f32⟩
  | 20 => ⟨S2048x5632, .f32⟩
  | 21 => ⟨S4096x5632, .f32⟩
  | 22 => ⟨S4096x5632, .f32⟩
  | 23 => ⟨S1x2048x5632, .f32⟩
  | 24 => ⟨S2048x5632, .f32⟩
  | 25 => ⟨S5632x2048, .f32⟩
  | 26 => ⟨S4096x2048, .f32⟩
  | 27 => ⟨S4096x1, .f32⟩
  | 28 => ⟨S4096, .f32⟩
  | 29 => ⟨S4096x1, .f32⟩
  | 30 => ⟨S4096, .f32⟩
  | 31 => ⟨S4096, .f32⟩
  | 32 => ⟨S4096x1, .f32⟩
  | 33 => ⟨S4096x2048, .f32⟩
  | 34 => ⟨S4096x2048, .f32⟩
  | 35 => ⟨S4096x2048, .f32⟩
  | 36 => ⟨S1x5632x2048, .f32⟩
  | 37 => ⟨S5632x2048, .f32⟩
  | 38 => ⟨S2048x5632, .f32⟩
  | 39 => ⟨S4096x5632, .f32⟩
  | 40 => ⟨S4096x5632, .f32⟩
  | 41 => ⟨S4096x5632, .f32⟩
  | 42 => ⟨S_, .f32⟩
  | 43 => ⟨S4096x5632, .f32⟩
  | 44 => ⟨S4096x5632, .f32⟩
  | 45 => ⟨S_, .f32⟩
  | 46 => ⟨S4096x5632, .f32⟩
  | 47 => ⟨S4096x5632, .f32⟩
  | 48 => ⟨S4096x5632, .f32⟩
  | 49 => ⟨S1x5632x2048, .f32⟩
  | 50 => ⟨S5632x2048, .f32⟩
  | 51 => ⟨S2048x5632, .f32⟩
  | 52 => ⟨S4096x5632, .f32⟩
  | 53 => ⟨S4096x5632, .f32⟩
  | 54 => ⟨S1x2048x5632, .f32⟩
  | 55 => ⟨S2048x5632, .f32⟩
  | 56 => ⟨S5632x2048, .f32⟩
  | 57 => ⟨S4096x2048, .f32⟩
  | 58 => ⟨S4096x1, .f32⟩
  | 59 => ⟨S4096, .f32⟩
  | 60 => ⟨S4096x1, .f32⟩
  | 61 => ⟨S4096, .f32⟩
  | 62 => ⟨S4096, .f32⟩
  | 63 => ⟨S4096x1, .f32⟩
  | 64 => ⟨S4096x2048, .f32⟩
  | 65 => ⟨S4096x2048, .f32⟩
  | 66 => ⟨S4096x2048, .f32⟩
  | 67 => ⟨S1x5632x2048, .f32⟩
  | 68 => ⟨S5632x2048, .f32⟩
  | 69 => ⟨S2048x5632, .f32⟩
  | 70 => ⟨S4096x5632, .f32⟩
  | 71 => ⟨S4096x5632, .f32⟩
  | 72 => ⟨S4096x5632, .f32⟩
  | 73 => ⟨S_, .f32⟩
  | 74 => ⟨S4096x5632, .f32⟩
  | 75 => ⟨S4096x5632, .f32⟩
  | 76 => ⟨S_, .f32⟩
  | 77 => ⟨S4096x5632, .f32⟩
  | 78 => ⟨S4096x5632, .f32⟩
  | 79 => ⟨S4096x5632, .f32⟩
  | 80 => ⟨S1x5632x2048, .f32⟩
  | 81 => ⟨S5632x2048, .f32⟩
  | 82 => ⟨S2048x5632, .f32⟩
  | 83 => ⟨S4096x5632, .f32⟩
  | 84 => ⟨S4096x5632, .f32⟩
  | 85 => ⟨S1x2048x5632, .f32⟩
  | 86 => ⟨S2048x5632, .f32⟩
  | 87 => ⟨S5632x2048, .f32⟩
  | 88 => ⟨S4096x2048, .f32⟩
  | 89 => ⟨S4096x1, .f32⟩
  | 90 => ⟨S4096, .f32⟩
  | 91 => ⟨S4096x1, .f32⟩
  | 92 => ⟨S4096, .f32⟩
  | 93 => ⟨S4096, .f32⟩
  | 94 => ⟨S4096x1, .f32⟩
  | 95 => ⟨S4096x2048, .f32⟩
  | 96 => ⟨S4096x2048, .f32⟩
  | 97 => ⟨S4096x2048, .f32⟩
  | 98 => ⟨S1x5632x2048, .f32⟩
  | 99 => ⟨S5632x2048, .f32⟩
  | 100 => ⟨S2048x5632, .f32⟩
  | 101 => ⟨S4096x5632, .f32⟩
  | 102 => ⟨S4096x5632, .f32⟩
  | 103 => ⟨S4096x5632, .f32⟩
  | 104 => ⟨S_, .f32⟩
  | 105 => ⟨S4096x5632, .f32⟩
  | 106 => ⟨S4096x5632, .f32⟩
  | 107 => ⟨S_, .f32⟩
  | 108 => ⟨S4096x5632, .f32⟩
  | 109 => ⟨S4096x5632, .f32⟩
  | 110 => ⟨S4096x5632, .f32⟩
  | 111 => ⟨S1x5632x2048, .f32⟩
  | 112 => ⟨S5632x2048, .f32⟩
  | 113 => ⟨S2048x5632, .f32⟩
  | 114 => ⟨S4096x5632, .f32⟩
  | 115 => ⟨S4096x5632, .f32⟩
  | 116 => ⟨S1x2048x5632, .f32⟩
  | 117 => ⟨S2048x5632, .f32⟩
  | 118 => ⟨S5632x2048, .f32⟩
  | 119 => ⟨S4096x2048, .f32⟩
  | 120 => ⟨S4096x1, .f32⟩
  | 121 => ⟨S4096, .f32⟩
  | 122 => ⟨S4096x1, .f32⟩
  | 123 => ⟨S4096, .f32⟩
  | 124 => ⟨S4096, .f32⟩
  | 125 => ⟨S4096x1, .f32⟩
  | 126 => ⟨S4096x2048, .f32⟩
  | 127 => ⟨S4096x2048, .f32⟩
  | _ => ⟨S4096x2048, .f32⟩

abbrev hbmTy0_2 (i : Nat) : BufTy := match i % 128 with
  | 0 => ⟨S4096x2048, .f32⟩
  | _ => ⟨S4096x2048, .f32⟩

abbrev hbmTy (i : Nat) : BufTy := match i / 128 with
  | 0 => hbmTy0_0 i
  | 1 => hbmTy0_1 i
  | 2 => hbmTy0_2 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call4_v0 : Ref sig .tc := ⟨.hbm, 137, rfl⟩
abbrev main_call4_v1 : Ref sig .tc := ⟨.hbm, 138, rfl⟩
abbrev main_call4_cst : Ref sig .tc := ⟨.hbm, 139, rfl⟩
abbrev main_call4_v2 : Ref sig .tc := ⟨.hbm, 140, rfl⟩
abbrev main_call4_v3 : Ref sig .tc := ⟨.hbm, 141, rfl⟩
abbrev main_call4_cst_0 : Ref sig .tc := ⟨.hbm, 142, rfl⟩
abbrev main_call4_v4 : Ref sig .tc := ⟨.hbm, 143, rfl⟩
abbrev main_call4_v5 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call5_v0 : Ref sig .tc := ⟨.hbm, 168, rfl⟩
abbrev main_call5_v1 : Ref sig .tc := ⟨.hbm, 169, rfl⟩
abbrev main_call5_cst : Ref sig .tc := ⟨.hbm, 170, rfl⟩
abbrev main_call5_v2 : Ref sig .tc := ⟨.hbm, 171, rfl⟩
abbrev main_call5_v3 : Ref sig .tc := ⟨.hbm, 172, rfl⟩
abbrev main_call5_cst_0 : Ref sig .tc := ⟨.hbm, 173, rfl⟩
abbrev main_call5_v4 : Ref sig .tc := ⟨.hbm, 174, rfl⟩
abbrev main_call5_v5 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_call6_v0 : Ref sig .tc := ⟨.hbm, 199, rfl⟩
abbrev main_call6_v1 : Ref sig .tc := ⟨.hbm, 200, rfl⟩
abbrev main_call6_cst : Ref sig .tc := ⟨.hbm, 201, rfl⟩
abbrev main_call6_v2 : Ref sig .tc := ⟨.hbm, 202, rfl⟩
abbrev main_call6_v3 : Ref sig .tc := ⟨.hbm, 203, rfl⟩
abbrev main_call6_cst_0 : Ref sig .tc := ⟨.hbm, 204, rfl⟩
abbrev main_call6_v4 : Ref sig .tc := ⟨.hbm, 205, rfl⟩
abbrev main_call6_v5 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_call7_v0 : Ref sig .tc := ⟨.hbm, 230, rfl⟩
abbrev main_call7_v1 : Ref sig .tc := ⟨.hbm, 231, rfl⟩
abbrev main_call7_cst : Ref sig .tc := ⟨.hbm, 232, rfl⟩
abbrev main_call7_v2 : Ref sig .tc := ⟨.hbm, 233, rfl⟩
abbrev main_call7_v3 : Ref sig .tc := ⟨.hbm, 234, rfl⟩
abbrev main_call7_cst_0 : Ref sig .tc := ⟨.hbm, 235, rfl⟩
abbrev main_call7_v4 : Ref sig .tc := ⟨.hbm, 236, rfl⟩
abbrev main_call7_v5 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  slices_S8x5632x2048_S1x5632x2048_0_0_0 : S8x5632x2048.Slices ![0, 0, 0] S1x5632x2048
  shapeCasts_S1x5632x2048_S5632x2048 : S1x5632x2048.ShapeCasts S5632x2048
  transposes_S5632x2048_S2048x5632_1_0 : S5632x2048.Transposes [1, 0] S2048x5632
  bcast_S_S4096x5632 : S_.BroadcastsInDim S4096x5632 (![] : Fin 0 → Fin S4096x5632.rank)
  slices_S8x2048x5632_S1x2048x5632_0_0_0 : S8x2048x5632.Slices ![0, 0, 0] S1x2048x5632
  shapeCasts_S1x2048x5632_S2048x5632 : S1x2048x5632.ShapeCasts S2048x5632
  transposes_S2048x5632_S5632x2048_1_0 : S2048x5632.Transposes [1, 0] S5632x2048
  slices_S4096x8_S4096x1_0_0 : S4096x8.Slices ![0, 0] S4096x1
  shapeCasts_S4096x1_S4096 : S4096x1.ShapeCasts S4096
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  slices_S8x5632x2048_S1x5632x2048_1_0_0 : S8x5632x2048.Slices ![1, 0, 0] S1x5632x2048
  slices_S8x2048x5632_S1x2048x5632_1_0_0 : S8x2048x5632.Slices ![1, 0, 0] S1x2048x5632
  slices_S4096x8_S4096x1_0_1 : S4096x8.Slices ![0, 1] S4096x1
  slices_S8x5632x2048_S1x5632x2048_2_0_0 : S8x5632x2048.Slices ![2, 0, 0] S1x5632x2048
  slices_S8x2048x5632_S1x2048x5632_2_0_0 : S8x2048x5632.Slices ![2, 0, 0] S1x2048x5632
  slices_S4096x8_S4096x1_0_2 : S4096x8.Slices ![0, 2] S4096x1
  slices_S8x5632x2048_S1x5632x2048_3_0_0 : S8x5632x2048.Slices ![3, 0, 0] S1x5632x2048
  slices_S8x2048x5632_S1x2048x5632_3_0_0 : S8x2048x5632.Slices ![3, 0, 0] S1x2048x5632
  slices_S4096x8_S4096x1_0_3 : S4096x8.Slices ![0, 3] S4096x1
  slices_S8x5632x2048_S1x5632x2048_4_0_0 : S8x5632x2048.Slices ![4, 0, 0] S1x5632x2048
  slices_S8x2048x5632_S1x2048x5632_4_0_0 : S8x2048x5632.Slices ![4, 0, 0] S1x2048x5632
  slices_S4096x8_S4096x1_0_4 : S4096x8.Slices ![0, 4] S4096x1
  slices_S8x5632x2048_S1x5632x2048_5_0_0 : S8x5632x2048.Slices ![5, 0, 0] S1x5632x2048
  slices_S8x2048x5632_S1x2048x5632_5_0_0 : S8x2048x5632.Slices ![5, 0, 0] S1x2048x5632
  slices_S4096x8_S4096x1_0_5 : S4096x8.Slices ![0, 5] S4096x1
  slices_S8x5632x2048_S1x5632x2048_6_0_0 : S8x5632x2048.Slices ![6, 0, 0] S1x5632x2048
  slices_S8x2048x5632_S1x2048x5632_6_0_0 : S8x2048x5632.Slices ![6, 0, 0] S1x2048x5632
  slices_S4096x8_S4096x1_0_6 : S4096x8.Slices ![0, 6] S4096x1
  slices_S8x5632x2048_S1x5632x2048_7_0_0 : S8x5632x2048.Slices ![7, 0, 0] S1x5632x2048
  slices_S8x2048x5632_S1x2048x5632_7_0_0 : S8x2048x5632.Slices ![7, 0, 0] S1x2048x5632
  slices_S4096x8_S4096x1_0_7 : S4096x8.Slices ![0, 7] S4096x1
  dot_S4096x2048_S2048x5632_S4096x5632_1_0_0_1_n_n_wf : DotDims.WF S4096x2048 S2048x5632 S4096x5632 [1] [0] [0] [1] [] []
  dot_S4096x5632_S5632x2048_S4096x2048_1_0_0_1_n_n_wf : DotDims.WF S4096x5632 S5632x2048 S4096x2048 [1] [0] [0] [1] [] []

variable [Facts₀]

def dot_S4096x2048_S2048x5632_S4096x5632_1_0_0_1_n_n : DotDims S4096x2048 S2048x5632 S4096x5632 where
  lhsContracting := [1]
  rhsContracting := [0]
  lhsNonContracting := [0]
  rhsNonContracting := [1]
  lhsBatch := []
  rhsBatch := []
  wf := dot_S4096x2048_S2048x5632_S4096x5632_1_0_0_1_n_n_wf
def dot_S4096x5632_S5632x2048_S4096x2048_1_0_0_1_n_n : DotDims S4096x5632 S5632x2048 S4096x2048 where
  lhsContracting := [1]
  rhsContracting := [0]
  lhsNonContracting := [0]
  rhsNonContracting := [1]
  lhsBatch := []
  rhsBatch := []
  wf := dot_S4096x5632_S5632x2048_S4096x2048_1_0_0_1_n_n_wf

class Facts : Prop extends Facts₀ where

variable [Facts]
-- ==== Proof.Spec.lean ====
/-
  The mixture-of-experts feed-forward as ONE real-valued function of a token `t` and an output coordinate `d`,

      moe t d = ∑ e, g t e · ∑ k, act t e k · W2 e d k,
      act t e k = z · (1 + e^(-z))⁻¹ · z'   with   z = ∑ j, X t j · W1 e k j,   z' = ∑ j, X t j · W3 e k j,

  and the two arrangements of its sums on the extended reals: the BLOCKED one, where the hidden coordinate `k` runs
  block by block (44 blocks of 128 lanes), the gate multiplies every summand, and all of it is one sum over experts,
  blocks and lanes; and the NESTED one, where each expert's whole sum is formed first, gated once, and the eight
  experts are added one after the other onto zero. On inputs that are real numbers both arrangements are the
  coercion of `moe`: every partial sum is then a real number, so the gate distributes over the sum over `k`
  (the one law that needs finiteness: on the extended reals `a · (b + c) = a · b + a · c` fails at infinities),
  the blocks of lanes re-index the hidden axis, and addition is associative.
-/
import Mathlib
import Idealize.ShloMosaic.PureOps.Ideal
import Idealize.ShloMosaic.Lib.ValueIdx

noncomputable section

namespace Cert.MoeSpec

open Idealize.ShloMosaic

/-- A rank-2 array as a function of its two coordinates. -/
def mat2 {α : Type} {a b : ℕ} (x : (⟨2, ![a, b]⟩ : Shape).Idx → α) (i : Fin a) (j : Fin b) : α := x (ValueIdx.ix2 i j)

/-- A rank-3 array as a function of its three coordinates. -/
def mat3 {α : Type} {a b c : ℕ} (x : (⟨3, ![a, b, c]⟩ : Shape).Idx → α) (i : Fin a) (j : Fin b) (k : Fin c) : α :=
  x (ValueIdx.ix3 i j k)

/-- Lane `k` of block `f` of the hidden axis: coordinate `128 f + k` of `5632 = 44 · 128`. -/
def lane (f : Fin 44) (k : Fin 128) : Fin 5632 := ⟨128 * f.val + k.val, by omega⟩

/-- The blocks of lanes enumerate the hidden axis: a sum over blocks and lanes is the sum over the axis. -/
theorem sum_lanes {M : Type*} [AddCommMonoid M] (F : Fin 5632 → M) :
    ∑ f : Fin 44, ∑ k : Fin 128, F (lane f k) = ∑ i : Fin 5632, F i := by
  rw [← Fintype.sum_prod_type']
  refine Fintype.sum_equiv (finProdFinEquiv (m := 44) (n := 128)) _ _ (fun x => ?_)
  congr 1
  refine Fin.ext ?_
  show 128 * x.1.val + x.2.val = x.2.val + 128 * x.1.val
  omega

/-- A finite sum of real numbers, each read as an extended real, is the real sum read as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The function, over the reals -/

section real

variable (X : Fin 4096 → Fin 2048 → ℝ) (g : Fin 4096 → Fin 8 → ℝ)
  (W1 W3 : Fin 8 → Fin 5632 → Fin 2048 → ℝ) (W2 : Fin 8 → Fin 2048 → Fin 5632 → ℝ)

/-- Token `t`'s pre-activation at hidden coordinate `k` of expert `e`: row `t` of `X` against row `k` of the expert's matrix. -/
def pre (W : Fin 8 → Fin 5632 → Fin 2048 → ℝ) (t : Fin 4096) (e : Fin 8) (k : Fin 5632) : ℝ := ∑ j, X t j * W e k j

/-- The gated-linear-unit activation `silu z · z'`, `silu z = z · (1 + e^(-z))⁻¹`. -/
def act (t : Fin 4096) (e : Fin 8) (k : Fin 5632) : ℝ :=
  (pre X W1 t e k * (1 + Real.exp (-(pre X W1 t e k)))⁻¹) * pre X W3 t e k

/-- The mixture at token `t` and output coordinate `d`. -/
def moe (t : Fin 4096) (d : Fin 2048) : ℝ := ∑ e, g t e * ∑ k, act X W1 W3 t e k * W2 e d k

end real

/-! ## The two arrangements, over the extended reals -/

section ereal

variable (X : Fin 4096 → Fin 2048 → EReal) (G : Fin 4096 → Fin 8 → EReal)
  (W1 W3 : Fin 8 → Fin 5632 → Fin 2048 → EReal) (W2 : Fin 8 → Fin 2048 → Fin 5632 → EReal)

/-- The pre-activation as a sum of extended reals. -/
def preE (W : Fin 8 → Fin 5632 → Fin 2048 → EReal) (t : Fin 4096) (e : Fin 8) (k : Fin 5632) : EReal := ∑ j, X t j * W e k j

/-- The activation with the logistic function as ONE operation: `z · logistic z · z'`. -/
def actE (t : Fin 4096) (e : Fin 8) (k : Fin 5632) : EReal :=
  (preE X W1 t e k * Ideal.logistic (preE X W1 t e k)) * preE X W3 t e k

/-- The same with the logistic function spelt out, `1 / (1 + exp (-z))`: it is the same extended real, by definition. -/
theorem actE_spelt (t : Fin 4096) (e : Fin 8) (k : Fin 5632) :
    (preE X W1 t e k * Ideal.div 1 (1 + Ideal.exp (-(preE X W1 t e k)))) * preE X W3 t e k = actE X W1 W3 t e k := rfl

/-- THE BLOCKED ARRANGEMENT: one sum over experts, blocks of the hidden axis and lanes; the gate inside every summand. -/
def blocked (t : Fin 4096) (d : Fin 2048) : EReal :=
  ∑ e : Fin 8, ∑ f : Fin 44, ∑ k : Fin 128, (G t e * actE X W1 W3 t e (lane f k)) * W2 e d (lane f k)

/-- One expert's gated term of THE NESTED ARRANGEMENT: the expert's whole sum over the hidden axis, gated once. -/
def gated (t : Fin 4096) (d : Fin 2048) (e : Fin 8) : EReal := G t e * ∑ k : Fin 5632, actE X W1 W3 t e k * W2 e d k

/-- THE NESTED ARRANGEMENT: the eight gated terms added one after the other onto zero. -/
def nested (t : Fin 4096) (d : Fin 2048) : EReal :=
  (((((((0 + gated X G W1 W3 W2 t d 0) + gated X G W1 W3 W2 t d 1) + gated X G W1 W3 W2 t d 2) + gated X G W1 W3 W2 t d 3)
    + gated X G W1 W3 W2 t d 4) + gated X G W1 W3 W2 t d 5) + gated X G W1 W3 W2 t d 6) + gated X G W1 W3 W2 t d 7

end ereal

/-! ## On real inputs both arrangements are the function -/

section bridge

variable (X : Fin 4096 → Fin 2048 → ℝ) (g : Fin 4096 → Fin 8 → ℝ)
  (W1 W3 : Fin 8 → Fin 5632 → Fin 2048 → ℝ) (W2 : Fin 8 → Fin 2048 → Fin 5632 → ℝ)

theorem preE_coe (W : Fin 8 → Fin 5632 → Fin 2048 → ℝ) (t : Fin 4096) (e : Fin 8) (k : Fin 5632) :
    preE (fun a b => (X a b : EReal)) (fun a b c => (W a b c : EReal)) t e k = (pre X W t e k : EReal) := by
  unfold preE pre
  simp only [← EReal.coe_mul]
  exact coe_sum _ _

theorem actE_coe (t : Fin 4096) (e : Fin 8) (k : Fin 5632) :
    actE (fun a b => (X a b : EReal)) (fun a b c => (W1 a b c : EReal)) (fun a b c => (W3 a b c : EReal)) t e k
      = (act X W1 W3 t e k : EReal) := by
  unfold actE act
  rw [preE_coe, preE_coe, Ideal.logistic_coe, ← EReal.coe_mul, ← EReal.coe_mul]

/-- The nested arrangement on real inputs. -/
theorem nested_coe (t : Fin 4096) (d : Fin 2048) :
    nested (fun a b => (X a b : EReal)) (fun a b => (g a b : EReal)) (fun a b c => (W1 a b c : EReal))
        (fun a b c => (W3 a b c : EReal)) (fun a b c => (W2 a b c : EReal)) t d
      = (moe X g W1 W3 W2 t d : EReal) := by
  have hg : ∀ e : Fin 8, gated (fun a b => (X a b : EReal)) (fun a b => (g a b : EReal)) (fun a b c => (W1 a b c : EReal))
      (fun a b c => (W3 a b c : EReal)) (fun a b c => (W2 a b c : EReal)) t d e
      = ((g t e * ∑ k, act X W1 W3 t e k * W2 e d k : ℝ) : EReal) := by
    intro e
    unfold gated
    simp only [actE_coe, ← EReal.coe_mul]
    rw [coe_sum, ← EReal.coe_mul]
  unfold nested moe
  simp only [hg, ← EReal.coe_add, ← EReal.coe_zero]
  rw [Fin.sum_univ_eight, zero_add]

/-- The blocked arrangement on real inputs: the gate leaves every summand (real numbers distribute), and the blocks of
    lanes are the hidden axis. -/
theorem blocked_coe (t : Fin 4096) (d : Fin 2048) :
    blocked (fun a b => (X a b : EReal)) (fun a b => (g a b : EReal)) (fun a b c => (W1 a b c : EReal))
        (fun a b c => (W3 a b c : EReal)) (fun a b c => (W2 a b c : EReal)) t d
      = (moe X g W1 W3 W2 t d : EReal) := by
  unfold blocked moe
  simp only [actE_coe, ← EReal.coe_mul, coe_sum]
  congr 1
  refine Finset.sum_congr rfl fun e _ => ?_
  rw [sum_lanes (fun i => g t e * act X W1 W3 t e i * W2 e d i), Finset.mul_sum]
  exact Finset.sum_congr rfl fun k _ => mul_assoc _ _ _

end bridge

end Cert.MoeSpec

end
-- ==== Proof.KernelPayload.lean ====
/-
  What one grid point adds to its output block. The body's one stored value, read at row `p` and column `q` of the
  [1024, 2048] block, is the block's previous contents there plus

      ∑ k < 128,  (gate p · (z k · logistic (z k) · z' k)) · w2 q k,
      z k = ∑ j < 2048, x p j · w1 k j,     z' k = ∑ j < 2048, x p j · w3 k j,

  where `x` is the point's [1024, 2048] block of tokens, `w1`, `w3` its [128, 2048] blocks of the expert's two input
  matrices, `w2` its [2048, 128] block of the expert's output matrix and `gate` its [1024, 1] column of gate values:
  three matrix products into zero accumulators (plain sums at the ideal instance), an elementwise activation, the gate
  column broadcast along the lanes, and a change of float format that is the identity on the extended reals.
-/
import proofs.«161697_j70901320122868_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The two contractions at an index -/

/-- The product of tokens against an input matrix: rows of the left operand against rows of the right one. -/
abbrev dIn : DotDims S1024x2048 S128x2048 S1024x128 := dot_S1024x2048_S128x2048_S1024x128_1_1_0_0_n_n
/-- The product of activations against the output matrix: again rows against rows. -/
abbrev dOut : DotDims S1024x128 S2048x128 S1024x2048 := dot_S1024x128_S2048x128_S1024x2048_1_1_0_0_n_n

theorem lhs_in_0 (i : S1024x128.Idx) (q : dIn.contr.Idx) : (dIn.lhsIdx i q 0).val = (i 0).val := by
  unfold DotDims.lhsIdx
  rw [dif_neg (show ¬(0 : Fin S1024x2048.rank) ∈ dIn.lhsBatch by decide), dif_pos (show (0 : Fin S1024x2048.rank) ∈ dIn.lhsNonContracting by decide)]
  rfl
theorem lhs_in_1 (i : S1024x128.Idx) (q : dIn.contr.Idx) : (dIn.lhsIdx i q 1).val = (q ⟨0, by decide⟩).val :=
  dIn.lhsIdx_val_of_single rfl i q
theorem rhs_in_0 (i : S1024x128.Idx) (q : dIn.contr.Idx) : (dIn.rhsIdx i q 0).val = (i 1).val := by
  unfold DotDims.rhsIdx
  rw [dif_neg (show ¬(0 : Fin S128x2048.rank) ∈ dIn.rhsBatch by decide), dif_pos (show (0 : Fin S128x2048.rank) ∈ dIn.rhsNonContracting by decide)]
  rfl
theorem rhs_in_1 (i : S1024x128.Idx) (q : dIn.contr.Idx) : (dIn.rhsIdx i q 1).val = (q ⟨0, by decide⟩).val :=
  dIn.rhsIdx_val_of_single rfl i q

theorem lhs_out_0 (i : S1024x2048.Idx) (q : dOut.contr.Idx) : (dOut.lhsIdx i q 0).val = (i 0).val := by
  unfold DotDims.lhsIdx
  rw [dif_neg (show ¬(0 : Fin S1024x128.rank) ∈ dOut.lhsBatch by decide), dif_pos (show (0 : Fin S1024x128.rank) ∈ dOut.lhsNonContracting by decide)]
  rfl
theorem lhs_out_1 (i : S1024x2048.Idx) (q : dOut.contr.Idx) : (dOut.lhsIdx i q 1).val = (q ⟨0, by decide⟩).val :=
  dOut.lhsIdx_val_of_single rfl i q
theorem rhs_out_0 (i : S1024x2048.Idx) (q : dOut.contr.Idx) : (dOut.rhsIdx i q 0).val = (i 1).val := by
  unfold DotDims.rhsIdx
  rw [dif_neg (show ¬(0 : Fin S2048x128.rank) ∈ dOut.rhsBatch by decide), dif_pos (show (0 : Fin S2048x128.rank) ∈ dOut.rhsNonContracting by decide)]
  rfl
theorem rhs_out_1 (i : S1024x2048.Idx) (q : dOut.contr.Idx) : (dOut.rhsIdx i q 1).val = (q ⟨0, by decide⟩).val :=
  dOut.rhsIdx_val_of_single rfl i q

/-- Tokens against an input-matrix block, into zero: entry `(p, k)` is row `p` of the tokens against row `k` of the block. -/
theorem matmul_in_apply (l : FVec Ideal S1024x2048 .bf16) (r : FVec Ideal S128x2048 .bf16) (p : Fin 1024) (k : Fin 128) :
    matmul dIn none l r (constant (F := Ideal) S1024x128 .f32 0x00000000#32) (ix2 p k)
      = ∑ j : Fin 2048, l (ix2 p j) * r (ix2 k j) := by
  simp only [matmul]
  rw [Ideal.matmul_constant_zero_apply, ← Equiv.sum_comp (contrEquiv1 dIn 2048 rfl rfl).symm]
  refine Finset.sum_congr rfl fun j _ => ?_
  have hk := contrEquiv1_symm_val dIn 2048 rfl rfl j
  have el : dIn.lhsIdx (ix2 p k) ((contrEquiv1 dIn 2048 rfl rfl).symm j) = ix2 p j := funext fun a => Fin.ext (by
    match a with
    | ⟨0, _⟩ => exact lhs_in_0 _ _
    | ⟨1, _⟩ => exact (lhs_in_1 _ _).trans hk)
  have er : dIn.rhsIdx (ix2 p k) ((contrEquiv1 dIn 2048 rfl rfl).symm j) = ix2 k j := funext fun a => Fin.ext (by
    match a with
    | ⟨0, _⟩ => exact rhs_in_0 _ _
    | ⟨1, _⟩ => exact (rhs_in_1 _ _).trans hk)
  rw [el, er]

/-- Activations against an output-matrix block, into zero: entry `(p, q)` is row `p` of the activations against row `q` of the block. -/
theorem matmul_out_apply (l : FVec Ideal S1024x128 .bf16) (r : FVec Ideal S2048x128 .bf16) (p : Fin 1024) (q : Fin 2048) :
    matmul dOut none l r (constant (F := Ideal) S1024x2048 .f32 0x00000000#32) (ix2 p q)
      = ∑ k : Fin 128, l (ix2 p k) * r (ix2 q k) := by
  simp only [matmul]
  rw [Ideal.matmul_constant_zero_apply, ← Equiv.sum_comp (contrEquiv1 dOut 128 rfl rfl).symm]
  refine Finset.sum_congr rfl fun k _ => ?_
  have hk := contrEquiv1_symm_val dOut 128 rfl rfl k
  have el : dOut.lhsIdx (ix2 p q) ((contrEquiv1 dOut 128 rfl rfl).symm k) = ix2 p k := funext fun a => Fin.ext (by
    match a with
    | ⟨0, _⟩ => exact lhs_out_0 _ _
    | ⟨1, _⟩ => exact (lhs_out_1 _ _).trans hk)
  have er : dOut.rhsIdx (ix2 p q) ((contrEquiv1 dOut 128 rfl rfl).symm k) = ix2 q k := funext fun a => Fin.ext (by
    match a with
    | ⟨0, _⟩ => exact rhs_out_0 _ _
    | ⟨1, _⟩ => exact (rhs_out_1 _ _).trans hk)
  rw [el, er]

/-! ## The gate column along the lanes -/

/-- A [1024, 1] column broadcast to [1024, 128] reads, at `(p, k)`, the column's entry in row `p`. -/
theorem column_lanes_apply {α : Type} (v : S1024x1.Idx → α) (h : S1024x1.Broadcasts S1024x128) (p : Fin 1024) (k : Fin 128) :
    broadcastTo S1024x128 v h (ix2 p k) = v (ix2 p (0 : Fin 1)) := by
  refine broadcastTo_apply v h (ix2 p k) (ix2 p (0 : Fin 1)) fun ax => ?_
  match ax with
  | ⟨0, _⟩ =>
    show p.val = if (1024 : ℕ) = 1 then 0 else p.val
    rw [if_neg (by decide)]
  | ⟨1, _⟩ =>
    show (0 : ℕ) = if (1 : ℕ) = 1 then 0 else k.val
    rw [if_pos rfl]

theorem logistic_apply {s : Shape} {φ : FTy} (v : FVec Ideal s φ) (i : s.Idx) : logistic v i = Ideal.logistic (v i) := rfl

/-! ## The stored value at an index -/

/-- Row `p` of the token block against row `k` of an input-matrix block. -/
def dotRow (x : Vec Ideal S1024x2048 .bf16) (w : Vec Ideal S1x128x2048 .bf16) (p : Fin 1024) (k : Fin 128) : EReal :=
  ∑ j : Fin 2048, x (ix2 p j) * w (ix3 (0 : Fin 1) k j)

/-- THE STORED VALUE AT `(p, q)`: the previous contents plus the point's addend, a sum over the block's 128 lanes. -/
theorem pay_apply (x0 : Vec Ideal S1024x2048 .bf16) (x1 x2 : Vec Ideal S1x128x2048 .bf16) (x3 : Vec Ideal S1x2048x128 .bf16)
    (x4 : Vec Ideal S1x1024x1 .f32) (acc : Vec Ideal S1024x2048 .f32) (p : Fin 1024) (q : Fin 2048) :
    k0_pay2 (F := Ideal) x0 x1 x2 x3 x4 acc (ix2 p q)
      = acc (ix2 p q) + ∑ k : Fin 128,
          (x4 (ix3 (0 : Fin 1) p (0 : Fin 1)) * ((dotRow x0 x1 p k * Ideal.logistic (dotRow x0 x1 p k)) * dotRow x0 x2 p k))
            * x3 (ix3 (0 : Fin 1) q k) := by
  unfold k0_pay2
  rw [ValueIdx.addf_apply, shapeCast_self]
  refine congrArg (acc (ix2 p q) + ·) ?_
  refine (matmul_out_apply _ _ p q).trans (Finset.sum_congr rfl fun k _ => ?_)
  rw [ValueIdx.truncf_apply, ValueIdx.mulf_apply, column_lanes_apply, shapeCast_1ab_ab_apply, ValueIdx.mulf_apply, ValueIdx.mulf_apply,
    logistic_apply, shapeCast_1ab_ab_apply]
  rw [shapeCast_self, matmul_in_apply, matmul_in_apply]
  simp only [shapeCast_1ab_ab_apply]
  rfl

/-- The zero block the first point of a run stores before it accumulates. -/
theorem zero_apply (i : S1024x2048.Idx) : k0_pay1 (F := Ideal) i = 0 := by
  unfold k0_pay1
  show Ideal.ofBits .f32 0x00000000#32 = 0
  exact Ideal.ofBits_zero_f32

end Cert.KernelIdeal.Payload

end
-- ==== Proof.KernelBlocks.lean ====
/-
  Where each grid point's input blocks sit in the arrays, and what those arrays hold when the kernel starts.
  The grid has 4 · 8 · 44 = 1408 points; point `n` works on token block `n / 352`, expert `(n / 44) % 8` and block
  `n % 44` of the hidden axis. Its token block is rows `1024 (n / 352) + p` of the tokens; its blocks of the expert's
  two input matrices are rows `128 (n % 44) + k` of expert `(n / 44) % 8`; its block of the output matrix is columns
  `128 (n % 44) + k` of that expert; its gate column is rows `1024 (n / 352) + p` of that expert's gate.
  The staged arrays are the arguments themselves (a change of float format is the identity on the extended reals),
  and the gate array holds, at expert `e` and token `t`, the weight `w t e` where the routing entry is positive
  and zero elsewhere.
-/
import proofs.«161697_j70901320122868_2_alg».proof.Proof.Gen.KernelIdeal.Frame
import proofs.«161697_j70901320122868_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The grid's points -/

theorem N_eq : cfg0.N = 1408 := N_0

/-- The token block of point `n`. -/
def tokBlk (n : ℕ) (h : n < 1408) : Fin 4 := ⟨n / 352, by omega⟩
/-- The expert of point `n`. -/
def expert (n : ℕ) (h : n < 1408) : Fin 8 := ⟨n / 44 % 8, by omega⟩
/-- The hidden-axis block of point `n`. -/
def hidBlk (n : ℕ) (h : n < 1408) : Fin 44 := ⟨n % 44, by omega⟩
/-- Row `p` of token block `b`. -/
def tok (b : Fin 4) (p : Fin 1024) : Fin 4096 := ⟨1024 * b.val + p.val, by omega⟩

/-- The printed index maps, decided over the grid. -/
theorem idx_facts : ∀ t : Fin cfg0.N,
    win0_0.index t (0 : Fin 2) = t.val / 352 ∧ win0_0.index t (1 : Fin 2) = 0
    ∧ win0_1.index t (0 : Fin 3) = t.val / 44 % 8 ∧ win0_1.index t (1 : Fin 3) = t.val % 44 ∧ win0_1.index t (2 : Fin 3) = 0
    ∧ win0_2.index t (0 : Fin 3) = t.val / 44 % 8 ∧ win0_2.index t (1 : Fin 3) = t.val % 44 ∧ win0_2.index t (2 : Fin 3) = 0
    ∧ win0_3.index t (0 : Fin 3) = t.val / 44 % 8 ∧ win0_3.index t (1 : Fin 3) = 0 ∧ win0_3.index t (2 : Fin 3) = t.val % 44
    ∧ win0_4.index t (0 : Fin 3) = t.val / 44 % 8 ∧ win0_4.index t (1 : Fin 3) = t.val / 352 ∧ win0_4.index t (2 : Fin 3) = 0 :=
  (by decide +kernel : ∀ t : Fin grid0.N, _)

/-! ## The blocks -/

/-- The token block: row `p`, column `j` of point `t`'s block is row `1024 (t / 352) + p` of the staged tokens. -/
theorem blk_tokens (c : Dev nD) (t : Fin cfg0.N) (p : Fin 1024) (j : Fin 2048) :
    iblk m c 0 t (ix2 p j)
      = V m c main_v5 (ix2 (tok (tokBlk t.val (lt_of_lt_of_eq t.isLt N_eq)) p) j) := by
  obtain ⟨e0, e1, -⟩ := idx_facts t
  show V m c main_v5 (((cfg0.win 0).blk t).view.emb (ix2 p j)) = _
  refine congrArg _ (funext fun a => Fin.ext ?_)
  match a with
  | ⟨0, _⟩ =>
    show win0_0.index t (0 : Fin 2) * 1024 + 1 * p.val = 1024 * (t.val / 352) + p.val
    rw [e0]; omega
  | ⟨1, _⟩ =>
    show win0_0.index t (1 : Fin 2) * 2048 + 1 * j.val = j.val
    rw [e1]; omega

/-- An input-matrix block (the first input matrix): row `k`, column `j` of point `t`'s block is row `128 (t % 44) + k` of
    expert `(t / 44) % 8`. -/
theorem blk_in1 (c : Dev nD) (t : Fin cfg0.N) (k : Fin 128) (j : Fin 2048) :
    iblk m c 1 t (ix3 (0 : Fin 1) k j)
      = V m c main_v6 (ix3 (expert t.val (lt_of_lt_of_eq t.isLt N_eq))
          (Cert.MoeSpec.lane (hidBlk t.val (lt_of_lt_of_eq t.isLt N_eq)) k) j) := by
  obtain ⟨-, -, e0, e1, e2, -⟩ := idx_facts t
  show V m c main_v6 (((cfg0.win 1).blk t).view.emb (ix3 (0 : Fin 1) k j)) = _
  refine congrArg _ (funext fun a => Fin.ext ?_)
  match a with
  | ⟨0, _⟩ =>
    show win0_1.index t (0 : Fin 3) * 1 + 1 * 0 = t.val / 44 % 8
    rw [e0]; omega
  | ⟨1, _⟩ =>
    show win0_1.index t (1 : Fin 3) * 128 + 1 * k.val = 128 * (t.val % 44) + k.val
    rw [e1]; omega
  | ⟨2, _⟩ =>
    show win0_1.index t (2 : Fin 3) * 2048 + 1 * j.val = j.val
    rw [e2]; omega

/-- The same for the second input matrix. -/
theorem blk_in3 (c : Dev nD) (t : Fin cfg0.N) (k : Fin 128) (j : Fin 2048) :
    iblk m c 2 t (ix3 (0 : Fin 1) k j)
      = V m c main_v8 (ix3 (expert t.val (lt_of_lt_of_eq t.isLt N_eq))
          (Cert.MoeSpec.lane (hidBlk t.val (lt_of_lt_of_eq t.isLt N_eq)) k) j) := by
  obtain ⟨-, -, -, -, -, e0, e1, e2, -⟩ := idx_facts t
  show V m c main_v8 (((cfg0.win 2).blk t).view.emb (ix3 (0 : Fin 1) k j)) = _
  refine congrArg _ (funext fun a => Fin.ext ?_)
  match a with
  | ⟨0, _⟩ =>
    show win0_2.index t (0 : Fin 3) * 1 + 1 * 0 = t.val / 44 % 8
    rw [e0]; omega
  | ⟨1, _⟩ =>
    show win0_2.index t (1 : Fin 3) * 128 + 1 * k.val = 128 * (t.val % 44) + k.val
    rw [e1]; omega
  | ⟨2, _⟩ =>
    show win0_2.index t (2 : Fin 3) * 2048 + 1 * j.val = j.val
    rw [e2]; omega

/-- The output-matrix block: row `q`, column `k` of point `t`'s block is column `128 (t % 44) + k` of row `q` of expert
    `(t / 44) % 8`. -/
theorem blk_out (c : Dev nD) (t : Fin cfg0.N) (q : Fin 2048) (k : Fin 128) :
    iblk m c 3 t (ix3 (0 : Fin 1) q k)
      = V m c main_v7 (ix3 (expert t.val (lt_of_lt_of_eq t.isLt N_eq)) q
          (Cert.MoeSpec.lane (hidBlk t.val (lt_of_lt_of_eq t.isLt N_eq)) k)) := by
  obtain ⟨-, -, -, -, -, -, -, -, e0, e1, e2, -⟩ := idx_facts t
  show V m c main_v7 (((cfg0.win 3).blk t).view.emb (ix3 (0 : Fin 1) q k)) = _
  refine congrArg _ (funext fun a => Fin.ext ?_)
  match a with
  | ⟨0, _⟩ =>
    show win0_3.index t (0 : Fin 3) * 1 + 1 * 0 = t.val / 44 % 8
    rw [e0]; omega
  | ⟨1, _⟩ =>
    show win0_3.index t (1 : Fin 3) * 2048 + 1 * q.val = q.val
    rw [e1]; omega
  | ⟨2, _⟩ =>
    show win0_3.index t (2 : Fin 3) * 128 + 1 * k.val = 128 * (t.val % 44) + k.val
    rw [e2]; omega

/-- The gate column: row `p` of point `t`'s column is token `1024 (t / 352) + p` of expert `(t / 44) % 8`'s gate. -/
theorem blk_gate (c : Dev nD) (t : Fin cfg0.N) (p : Fin 1024) :
    iblk m c 4 t (ix3 (0 : Fin 1) p (0 : Fin 1))
      = V m c main_v4 (ix3 (expert t.val (lt_of_lt_of_eq t.isLt N_eq))
          (tok (tokBlk t.val (lt_of_lt_of_eq t.isLt N_eq)) p) (0 : Fin 1)) := by
  obtain ⟨-, -, -, -, -, -, -, -, -, -, -, e0, e1, e2⟩ := idx_facts t
  show V m c main_v4 (((cfg0.win 4).blk t).view.emb (ix3 (0 : Fin 1) p (0 : Fin 1))) = _
  refine congrArg _ (funext fun a => Fin.ext ?_)
  match a with
  | ⟨0, _⟩ =>
    show win0_4.index t (0 : Fin 3) * 1 + 1 * 0 = t.val / 44 % 8
    rw [e0]; omega
  | ⟨1, _⟩ =>
    show win0_4.index t (1 : Fin 3) * 1024 + 1 * p.val = 1024 * (t.val / 352) + p.val
    rw [e1]; omega
  | ⟨2, _⟩ =>
    show win0_4.index t (2 : Fin 3) * 1 + 1 * 0 = 0
    rw [e2]

/-! ## What the staged arrays hold -/

/-- The staged tokens are the tokens: the change of float format is the identity. -/
theorem V_tokens (c : Dev nD) :
    (V m c main_v5 : S4096x2048.Idx → EReal) = m ((c : Thread nD τ).loc main_arg0) := by
  dsimp only [V]
  simp only [hostOps0, hostOps0_1, hostOps0_2, List.flatten_cons, List.flatten_nil, List.append_nil, List.cons_append,
    List.nil_append]
  after_results
  rfl

theorem V_in1 (c : Dev nD) :
    (V m c main_v6 : S8x5632x2048.Idx → EReal) = m ((c : Thread nD τ).loc main_arg3) := by
  dsimp only [V]
  simp only [hostOps0, hostOps0_1, hostOps0_2, List.flatten_cons, List.flatten_nil, List.append_nil, List.cons_append,
    List.nil_append]
  after_results
  rfl

theorem V_out (c : Dev nD) :
    (V m c main_v7 : S8x2048x5632.Idx → EReal) = m ((c : Thread nD τ).loc main_arg4) := by
  dsimp only [V]
  simp only [hostOps0, hostOps0_1, hostOps0_2, List.flatten_cons, List.flatten_nil, List.append_nil, List.cons_append,
    List.nil_append]
  after_results
  rfl

theorem V_in3 (c : Dev nD) :
    (V m c main_v8 : S8x5632x2048.Idx → EReal) = m ((c : Thread nD τ).loc main_arg5) := by
  dsimp only [V]
  simp only [hostOps0, hostOps0_1, hostOps0_2, List.flatten_cons, List.flatten_nil, List.append_nil, List.cons_append,
    List.nil_append]
  after_results
  rfl

/-- The gate at token `t` and expert `e`: the weight where the routing entry is positive (read as a signed word), zero elsewhere. -/
def gate (idx : IVec S4096x8 32) (w : S4096x8.Idx → EReal) (t : Fin 4096) (e : Fin 8) : EReal :=
  Scalar.select (IntOp.cmpi .sgt (idx (ix2 t e)) 0#32) (w (ix2 t e)) 0

/-- The staged gate array, as the host operations before the kernel compute it. -/
theorem V_gate_eq (c : Dev nD) :
    (V m c main_v4 : S8x4096x1.Idx → EReal)
      = broadcastInDim S8x4096x1 ![0, 1] bcast_S8x4096_S8x4096x1_0_1
          (transpose S8x4096 [1, 0]
            (select (cmpi .sgt (m ((c : Thread nD τ).loc main_arg1)) (broadcastInDim S4096x8 ![] bcast_S_S4096x8 (constantI S_ 32 0#32)))
              (m ((c : Thread nD τ).loc main_arg2))
              (broadcastInDim S4096x8 ![] bcast_S_S4096x8 (constant (F := Ideal) S_ .f32 0x00000000#32)))
            transposes_S4096x8_S8x4096_1_0) := by
  dsimp only [V]
  simp only [hostOps0, hostOps0_1, hostOps0_2, List.flatten_cons, List.flatten_nil, List.append_nil, List.cons_append,
    List.nil_append]
  after_results
  rfl

/-- The staged gate array at expert `e` and token `t` is the gate there. -/
theorem V_gate_apply (c : Dev nD) (e : Fin 8) (t : Fin 4096) :
    (V m c main_v4 : S8x4096x1.Idx → EReal) (ix3 e t (0 : Fin 1))
      = gate (m ((c : Thread nD τ).loc main_arg1)) (m ((c : Thread nD τ).loc main_arg2)) t e := by
  rw [V_gate_eq]
  refine (broadcastInDim_apply _ _ _ (ix3 e t (0 : Fin 1)) (ix2 e t) fun a => ?_).trans ?_
  · match a with
    | ⟨0, _⟩ =>
      show e.val = if (8 : ℕ) = 1 then 0 else e.val
      rw [if_neg (by decide)]
    | ⟨1, _⟩ =>
      show t.val = if (4096 : ℕ) = 1 then 0 else t.val
      rw [if_neg (by decide)]
  · rw [transpose_ix2_apply]
    show Scalar.select (IntOp.cmpi .sgt (m ((c : Thread nD τ).loc main_arg1) (ix2 t e)) 0#32)
        (m ((c : Thread nD τ).loc main_arg2) (ix2 t e)) (Ideal.ofBits .f32 0x00000000#32) = _
    rw [Ideal.ofBits_zero_f32]
    rfl

end Cert.KernelIdeal.Blocks

end
-- ==== Proof.KernelValue.lean ====
/-
  What the kernel leaves in its result array. Token block `b` of the result is accumulated over the 352 consecutive
  grid points `352 b + s`, `s < 352`: the first stores zero and adds its addend, every later one adds its addend to what
  the point before left. So the entry at token `t = 1024 b + p` and output coordinate `d` is zero plus the sum over
  `s < 352` of the addends of those points at `(p, d)`; each addend is a sum over the 128 lanes of the point's block of the
  hidden axis; and `s = 44 e + f` runs over experts `e < 8` and blocks `f < 44`. That is the blocked arrangement of the
  mixture, with the gate that the host operations before the kernel compute.
-/
import proofs.«161697_j70901320122868_2_alg».proof.Proof.Gen.KernelIdeal.Value
import proofs.«161697_j70901320122868_2_alg».proof.Proof.Spec
import proofs.«161697_j70901320122868_2_alg».proof.Proof.KernelPayload
import proofs.«161697_j70901320122868_2_alg».proof.Proof.KernelBlocks

noncomputable section

namespace Cert.KernelIdeal.Result

open Cert.KernelIdeal Cert.KernelIdeal.Gen Cert.KernelIdeal.Value Cert.KernelIdeal.Blocks Cert.KernelIdeal.Payload Cert.MoeSpec
open Idealize.ShloMosaic Idealize.ShloMosaic.TcCoe Idealize.SL.Sem Idealize.ShloMosaic.ValueIdx

variable (m : (ℓ : Loc nD τ sig) → Buf (Elt Ideal) ℓ)

/-! ## One point's addend -/

/-- The tokens, the gate and the three weight arrays as functions of their coordinates, on core `c`. -/
abbrev X (c : Dev nD) : Fin 4096 → Fin 2048 → EReal := mat2 (m ((c : Thread nD τ).loc main_arg0))
abbrev G (c : Dev nD) : Fin 4096 → Fin 8 → EReal :=
  gate (m ((c : Thread nD τ).loc main_arg1)) (m ((c : Thread nD τ).loc main_arg2))
abbrev W1 (c : Dev nD) : Fin 8 → Fin 5632 → Fin 2048 → EReal := mat3 (m ((c : Thread nD τ).loc main_arg3))
abbrev W2 (c : Dev nD) : Fin 8 → Fin 2048 → Fin 5632 → EReal := mat3 (m ((c : Thread nD τ).loc main_arg4))
abbrev W3 (c : Dev nD) : Fin 8 → Fin 5632 → Fin 2048 → EReal := mat3 (m ((c : Thread nD τ).loc main_arg5))

/-- The summand of the blocked arrangement at token `t`, output coordinate `d`, expert `e`, block `f`, lane `k`. -/
def summand (c : Dev nD) (t : Fin 4096) (d : Fin 2048) (e : Fin 8) (f : Fin 44) (k : Fin 128) : EReal :=
  (G m c t e * actE (X m c) (W1 m c) (W3 m c) t e (lane f k)) * W2 m c e d (lane f k)

/-- Point `n`'s addend at row `p`, column `d` of its block (zero past the grid, where it is never read). -/
def addend (c : Dev nD) (n : ℕ) (i : S1024x2048.Idx) : EReal :=
  if h : n < 1408 then
    ∑ k : Fin 128, summand m c (tok (tokBlk n h) (i 0)) (i 1) (expert n h) (hidBlk n h) k
  else 0

/-- WHAT POINT `n` STORES: what its accumulator held plus its addend — the body's stored value read at an index, with the
    point's blocks read where they sit in the arrays. -/
theorem pay_point (c : Dev nD) (n : ℕ) (h : n < cfg0.N) (acc : Vec Ideal S1024x2048 .f32) (i : S1024x2048.Idx) :
    k0_pay2 (F := Ideal) (iblk m c 0 ⟨n, h⟩) (iblk m c 1 ⟨n, h⟩) (iblk m c 2 ⟨n, h⟩) (iblk m c 3 ⟨n, h⟩) (iblk m c 4 ⟨n, h⟩) acc i
      = acc i + addend m c n i := by
  have hn : n < 1408 := lt_of_lt_of_eq h N_eq
  obtain ⟨p, q, rfl⟩ : ∃ (p : Fin 1024) (q : Fin 2048), i = ix2 p q := ⟨i 0, i 1, eq_ix2 i⟩
  refine (pay_apply (iblk m c 0 ⟨n, h⟩) (iblk m c 1 ⟨n, h⟩) (iblk m c 2 ⟨n, h⟩) (iblk m c 3 ⟨n, h⟩) (iblk m c 4 ⟨n, h⟩) acc p q).trans ?_
  refine congrArg (acc (ix2 p q) + ·) ?_
  unfold addend
  rw [dif_pos hn]
  refine Finset.sum_congr rfl fun k _ => ?_
  have h4 : iblk m c 4 ⟨n, h⟩ (ix3 (0 : Fin 1) p (0 : Fin 1)) = G m c (tok (tokBlk n hn) p) (expert n hn) :=
    (blk_gate m c ⟨n, h⟩ p).trans (V_gate_apply m c _ _)
  have h1 : dotRow (iblk m c 0 ⟨n, h⟩) (iblk m c 1 ⟨n, h⟩) p k
      = preE (X m c) (W1 m c) (tok (tokBlk n hn) p) (expert n hn) (lane (hidBlk n hn) k) :=
    Finset.sum_congr rfl fun j _ => congrArg₂ (· * ·)
      ((blk_tokens m c ⟨n, h⟩ p j).trans (congrFun (V_tokens m c) _))
      ((blk_in1 m c ⟨n, h⟩ k j).trans (congrFun (V_in1 m c) _))
  have h3 : dotRow (iblk m c 0 ⟨n, h⟩) (iblk m c 2 ⟨n, h⟩) p k
      = preE (X m c) (W3 m c) (tok (tokBlk n hn) p) (expert n hn) (lane (hidBlk n hn) k) :=
    Finset.sum_congr rfl fun j _ => congrArg₂ (· * ·)
      ((blk_tokens m c ⟨n, h⟩ p j).trans (congrFun (V_tokens m c) _))
      ((blk_in3 m c ⟨n, h⟩ k j).trans (congrFun (V_in3 m c) _))
  have h2 : iblk m c 3 ⟨n, h⟩ (ix3 (0 : Fin 1) q k) = W2 m c (expert n hn) q (lane (hidBlk n hn) k) :=
    (blk_out m c ⟨n, h⟩ q k).trans (congrFun (V_out m c) _)
  rw [h4, h1, h3, h2]
  rfl

/-! ## The fold over a token block's points -/

/-- THE RESULT ARRAY at token `t` and output coordinate `d`: zero plus the addends of the 352 points of `t`'s block. -/
theorem G5_apply (c : Dev nD) (t : Fin 4096) (d : Fin 2048) :
    G5 m c (ix2 t d)
      = 0 + ∑ s ∈ Finset.range (351 + 1), addend m c (352 * (t.val / 1024) + s) (ix2 (⟨t.val % 1024, Nat.mod_lt _ (by decide)⟩ : Fin 1024) d) := by
  have hd : d.val < 2048 := d.isLt
  have ht : t.val < 4096 := t.isLt
  have hr : run5Of (ix2 t d) = t.val / 1024 := by
    show 1 * (t.val / 1024 - 0) + 1 * (d.val / 2048 - 0) = _
    omega
  have hl : loc5Of (ix2 t d) = ix2 (⟨t.val % 1024, Nat.mod_lt _ (by decide)⟩ : Fin 1024) d := by
    funext a; apply Fin.ext
    match a with
    | ⟨0, _⟩ => rfl
    | ⟨1, _⟩ => show d.val % 2048 = d.val; omega
  have hlt : 352 * run5Of (ix2 t d) + 351 < cfg0.N := by rw [hr, N_eq]; omega
  unfold G5
  rw [dif_pos hlt]
  have key := Pipeline.accAt_add_apply (reset5 m c) (step5 m c) (fun _ => (0 : EReal)) (addend m c) (352 * run5Of (ix2 t d)) 351
    (fun h i => by
      show k0_pay2 (F := Ideal) _ _ _ _ _ (k0_pay1 (F := Ideal)) i = _
      rw [pay_point m c _ h (k0_pay1 (F := Ideal)) i, zero_apply])
    (fun n h acc i _ _ => pay_point m c n h acc i)
    351 le_rfl hlt (loc5Of (ix2 t d))
  rw [key, hr, hl]

/-- The 352 points of token block `b` are its experts and hidden-axis blocks: `s = 44 e + f`. -/
theorem sum_points (c : Dev nD) (b : Fin 4) (p : Fin 1024) (d : Fin 2048) :
    ∑ s ∈ Finset.range (351 + 1), addend m c (352 * b.val + s) (ix2 p d)
      = ∑ e : Fin 8, ∑ f : Fin 44, ∑ k : Fin 128, summand m c (tok b p) d e f k := by
  have hb : b.val < 4 := b.isLt
  rw [Finset.sum_range, ← Fintype.sum_prod_type']
  refine (Fintype.sum_equiv (finProdFinEquiv (m := 8) (n := 44)) _ _ fun x => ?_).symm
  have he : x.1.val < 8 := x.1.isLt
  have hf : x.2.val < 44 := x.2.isLt
  have hv : (finProdFinEquiv (m := 8) (n := 44) x).val = x.2.val + 44 * x.1.val := rfl
  have hn : 352 * b.val + (finProdFinEquiv (m := 8) (n := 44) x).val < 1408 := by rw [hv]; omega
  unfold addend
  rw [dif_pos hn]
  have e1 : tokBlk _ hn = b := Fin.ext (by show (352 * b.val + (finProdFinEquiv (m := 8) (n := 44) x).val) / 352 = b.val; rw [hv]; omega)
  have e2 : expert _ hn = x.1 := Fin.ext (by show (352 * b.val + (finProdFinEquiv (m := 8) (n := 44) x).val) / 44 % 8 = x.1.val; rw [hv]; omega)
  have e3 : hidBlk _ hn = x.2 := Fin.ext (by show (352 * b.val + (finProdFinEquiv (m := 8) (n := 44) x).val) % 44 = x.2.val; rw [hv]; omega)
  rw [e1, e2, e3]

/-- THE KERNEL'S RESULT IS THE BLOCKED ARRANGEMENT of the mixture, at every token and output coordinate. -/
theorem G5_eq_blocked (c : Dev nD) (t : Fin 4096) (d : Fin 2048) :
    G5 m c (ix2 t d) = blocked (X m c) (G m c) (W1 m c) (W3 m c) (W2 m c) t d := by
  have ht : t.val < 4096 := t.isLt
  have e : tok (⟨t.val / 1024, by omega⟩ : Fin 4) (⟨t.val % 1024, Nat.mod_lt _ (by decide)⟩ : Fin 1024) = t :=
    Fin.ext (by show 1024 * (t.val / 1024) + t.val % 1024 = t.val; omega)
  rw [G5_apply, zero_add]
  refine (sum_points m c (⟨t.val / 1024, by omega⟩ : Fin 4) _ d).trans ?_
  rw [e]
  rfl

end Cert.KernelIdeal.Result

end
-- ==== Proof.RefExpert.lean ====
/-
  One expert's term of the reference program, read at an index, at the ideal values.

  The reference is a dense mixture of eight experts. Expert `e` contributes, at token `t` and output coordinate `d`,
  its gate (the routing weight times the routing index read as a float, both at column `e`) times a gated
  feed-forward: with `h₁ k = ∑ j, x[t, j] · W₁[e, k, j]` and `h₃ k = ∑ j, x[t, j] · W₃[e, k, j]`, the sum over the
  hidden coordinate `k` of `(h₁ k · (1 / (1 + exp (−h₁ k)))) · h₃ k · W₂[e, d, k]`. This module states that term for a
  variable expert number and proves the reading: each layout operation (the slice of one expert, the reshape that
  drops the unit axis, the transpose, the two broadcasts, the reshape of a column to a vector) reads one index of
  its operand, and each matrix product is the plain sum over its one contracted coordinate.
-/
import proofs.«161697_j70901320122868_2_alg».proof.ReferenceIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.RefExpert

open Cert.ReferenceIdeal Idealize.ShloMosaic Idealize.ShloMosaic.ValueIdx
open Cert.ReferenceIdeal.Facts₀

/-! ## Layout operations at an index -/

section Layout
variable {α : Type}

/-- The block of one leading coordinate `o` of a rank-3 array reads, at `(u, b, c)`, the array at `(o, b, c)`. -/
theorem slice3_lead_apply {n0 n1 n2 : ℕ} (o : ℕ) (ho : o < n0) (V : (⟨3, ![n0, n1, n2]⟩ : Shape).Idx → α)
    (h : (⟨3, ![n0, n1, n2]⟩ : Shape).Slices ![o, 0, 0] ⟨3, ![1, n1, n2]⟩) (u : Fin 1) (b : Fin n1) (c : Fin n2) :
    extractStridedSlice ⟨3, ![1, n1, n2]⟩ ![o, 0, 0] V h (ix3 u b c) = V (ix3 ⟨o, ho⟩ b c) :=
  extractStridedSlice_apply _ _ _ _ _ (fun ax => by
    match ax with
    | ⟨0, _⟩ =>
      have hu : u.val = 0 := by omega
      show o = o + u.val
      rw [hu, Nat.add_zero]
    | ⟨1, _⟩ => exact (Nat.zero_add _).symm
    | ⟨2, _⟩ => exact (Nat.zero_add _).symm)

/-- An `[a, 1]` column cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `e` of a matrix, as a vector: the one-column slice at offset `e`, cast to rank 1, reads the matrix at `(i, e)`. -/
theorem column_apply {a n : ℕ} (e : ℕ) (he : e < n) (V : (⟨2, ![a, n]⟩ : Shape).Idx → α)
    (hs : (⟨2, ![a, n]⟩ : Shape).Slices ![0, e] ⟨2, ![a, 1]⟩)
    (hc : (⟨2, ![a, 1]⟩ : Shape).ShapeCasts ⟨1, ![a]⟩) (i : Fin a) :
    shapeCast ⟨1, ![a]⟩ (extractStridedSlice ⟨2, ![a, 1]⟩ ![0, e] V hs) hc (ix1 i) = V (ix2 i ⟨e, he⟩) :=
  (shapeCast_a1_a_apply _ hc i).trans
    (slice2_axis1_apply e V hs i (0 : Fin 1) ⟨e, he⟩ (Nat.add_zero e).symm)

/-- Expert `e`'s matrix, transposed: the slice of one leading coordinate, the unit axis dropped, the two remaining
    axes exchanged, reads at `(j, i)` the stack at `(e, i, j)`. -/
theorem expertT_apply {n a b : ℕ} (e : ℕ) (he : e < n) (V : (⟨3, ![n, a, b]⟩ : Shape).Idx → α)
    (hs : (⟨3, ![n, a, b]⟩ : Shape).Slices ![e, 0, 0] ⟨3, ![1, a, b]⟩)
    (hc : (⟨3, ![1, a, b]⟩ : Shape).ShapeCasts ⟨2, ![a, b]⟩)
    (ht : (⟨2, ![a, b]⟩ : Shape).Transposes [1, 0] ⟨2, ![b, a]⟩) (j : Fin b) (i : Fin a) :
    transpose ⟨2, ![b, a]⟩ [1, 0] (shapeCast ⟨2, ![a, b]⟩ (extractStridedSlice ⟨3, ![1, a, b]⟩ ![e, 0, 0] V hs) hc) ht
      (ix2 j i) = V (ix3 ⟨e, he⟩ i j) :=
  (transpose_ix2_apply _ ht j i).trans
    ((shapeCast_1ab_ab_apply _ hc i j).trans (slice3_lead_apply e he V hs (0 : Fin 1) i j))

/-- A vector broadcast along a new unit axis reads, at `(i, u)`, the vector at `i`. -/
theorem bcast_a_a1_apply {a : ℕ} (ha : a ≠ 1) (h : (⟨1, ![a]⟩ : Shape).BroadcastsInDim ⟨2, ![a, 1]⟩ ![0])
    (v : (⟨1, ![a]⟩ : Shape).Idx → α) (i : Fin a) (u : Fin 1) :
    broadcastInDim ⟨2, ![a, 1]⟩ ![0] h v (ix2 i u) = v (ix1 i) :=
  broadcastInDim_apply _ h v _ _ (fun ax => by
    match ax with
    | ⟨0, _⟩ =>
      show i.val = if a = 1 then 0 else i.val
      rw [if_neg ha])

/-- A column broadcast along its unit axis reads, at `(i, d)`, the column at `(i, 0)`. -/
theorem bcast_a1_ab_apply {a b : ℕ} (ha : a ≠ 1) (h : (⟨2, ![a, 1]⟩ : Shape).BroadcastsInDim ⟨2, ![a, b]⟩ ![0, 1])
    (v : (⟨2, ![a, 1]⟩ : Shape).Idx → α) (i : Fin a) (d : Fin b) :
    broadcastInDim ⟨2, ![a, b]⟩ ![0, 1] h v (ix2 i d) = v (ix2 i (0 : Fin 1)) :=
  broadcastInDim_apply _ h v _ _ (fun ax => by
    match ax with
    | ⟨0, _⟩ =>
      show i.val = if a = 1 then 0 else i.val
      rw [if_neg ha]
    | ⟨1, _⟩ => exact (if_pos rfl).symm)

end Layout

/-! ## A matrix product at an index -/

/-- The product of an `m × k` by a `k × n` matrix, contracting the first one's columns with the second one's rows,
    read at `(a, b)`: the sum over the contracted coordinate of the products of the entries. -/
theorem dot2_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ =>
      exact (DotDims.lhsIdx_val_of_single
        (⟨[1], [0], [0], [1], [], [], w⟩ : DotDims ⟨2, ![m, k]⟩ ⟨2, ![k, n]⟩ ⟨2, ![m, n]⟩) rfl _ _).trans c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ =>
      exact (DotDims.rhsIdx_val_of_single
        (⟨[1], [0], [0], [1], [], [], w⟩ : DotDims ⟨2, ![m, k]⟩ ⟨2, ![k, n]⟩ ⟨2, ![m, n]⟩) rfl _ _).trans c2
    | ⟨1, _⟩ => simp [DotDims.rhsIdx]; rfl
  rw [l2, r2]

/-- The bit pattern of the float `1.0` denotes the extended real `1`. -/
theorem ofBits_one_f32 : Ideal.ofBits .f32 0x3F800000#32 = 1 := by
  simp [Ideal.ofBits, Ideal.ieee, -EReal.coe_mul]; norm_num

/-! ## One expert's term -/

section Term
variable [Cert.ReferenceIdeal.Facts]

/-- Expert `e`'s term of the reference, spelt as the reference spells it, over a variable expert number: the gate column
    broadcast over the output coordinates, times the second product of the gated activation with the expert's
    transposed output matrix. The three slice facts are the ones that depend on `e`. -/
def term (e : ℕ) (hsw : S4096x8.Slices ![0, e] S4096x1) (hs1 : S8x5632x2048.Slices ![e, 0, 0] S1x5632x2048)
    (hs2 : S8x2048x5632.Slices ![e, 0, 0] S1x2048x5632)
    (X : FVec Ideal S4096x2048 .f32) (IDXF W : FVec Ideal S4096x8 .f32)
    (W1 : FVec Ideal S8x5632x2048 .f32) (W2 : FVec Ideal S8x2048x5632 .f32) (W3 : FVec Ideal S8x5632x2048 .f32) :
    FVec Ideal S4096x2048 .f32 :=
  mulf (broadcastInDim S4096x2048 ![0, 1] bcast_S4096x1_S4096x2048_0_1 (broadcastInDim S4096x1 ![0] bcast_S4096_S4096x1_0 (mulf (shapeCast _ (extractStridedSlice S4096x1 ![0, e] W hsw) shapeCasts_S4096x1_S4096) (shapeCast _ (extractStridedSlice S4096x1 ![0, e] IDXF hsw) shapeCasts_S4096x1_S4096)))) (Host.dotGeneral dot_S4096x5632_S5632x2048_S4096x2048_1_0_0_1_n_n none (mulf (mulf (Host.dotGeneral dot_S4096x2048_S2048x5632_S4096x5632_1_0_0_1_n_n none X (transpose S2048x5632 [1, 0] (shapeCast _ (extractStridedSlice S1x5632x2048 ![e, 0, 0] W1 hs1) shapeCasts_S1x5632x2048_S5632x2048) transposes_S5632x2048_S2048x5632_1_0)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (Host.dotGeneral dot_S4096x2048_S2048x5632_S4096x5632_1_0_0_1_n_n none X (transpose S2048x5632 [1, 0] (shapeCast _ (extractStridedSlice S1x5632x2048 ![e, 0, 0] W1 hs1) shapeCasts_S1x5632x2048_S5632x2048) transposes_S5632x2048_S2048x5632_1_0))))))) (Host.dotGeneral dot_S4096x2048_S2048x5632_S4096x5632_1_0_0_1_n_n none X (transpose S2048x5632 [1, 0] (shapeCast _ (extractStridedSlice S1x5632x2048 ![e, 0, 0] W3 hs1) shapeCasts_S1x5632x2048_S5632x2048) transposes_S5632x2048_S2048x5632_1_0))) (transpose S5632x2048 [1, 0] (shapeCast _ (extractStridedSlice S1x2048x5632 ![e, 0, 0] W2 hs2) shapeCasts_S1x2048x5632_S2048x5632) transposes_S2048x5632_S5632x2048_1_0))

/-- The gate of expert `e` at token `t`, whatever the output coordinate: routing weight times routing index. -/
theorem gate_apply (e : ℕ) (he : e < 8) (hsw : S4096x8.Slices ![0, e] S4096x1) (IDXF W : FVec Ideal S4096x8 .f32)
    (t : Fin 4096) (d : Fin 2048) :
    broadcastInDim S4096x2048 ![0, 1] bcast_S4096x1_S4096x2048_0_1 (broadcastInDim S4096x1 ![0] bcast_S4096_S4096x1_0
      (mulf (shapeCast _ (extractStridedSlice S4096x1 ![0, e] W hsw) shapeCasts_S4096x1_S4096)
        (shapeCast _ (extractStridedSlice S4096x1 ![0, e] IDXF hsw) shapeCasts_S4096x1_S4096))) (ix2 t d)
      = W (ix2 t ⟨e, he⟩) * IDXF (ix2 t ⟨e, he⟩) := by
  refine (bcast_a1_ab_apply (by decide) bcast_S4096x1_S4096x2048_0_1 _ t d).trans ?_
  refine (bcast_a_a1_apply (by decide) bcast_S4096_S4096x1_0 _ t (0 : Fin 1)).trans ?_
  refine (mulf_apply _ _ (ix1 t)).trans ?_
  rw [column_apply e he W hsw shapeCasts_S4096x1_S4096 t, column_apply e he IDXF hsw shapeCasts_S4096x1_S4096 t]

/-- A first product of expert `e`: the token's row against row `k` of the expert's input matrix. -/
theorem pre_apply (e : ℕ) (he : e < 8) (hs1 : S8x5632x2048.Slices ![e, 0, 0] S1x5632x2048)
    (X : FVec Ideal S4096x2048 .f32) (V : FVec Ideal S8x5632x2048 .f32) (t : Fin 4096) (k : Fin 5632) :
    Host.dotGeneral (F := Ideal) dot_S4096x2048_S2048x5632_S4096x5632_1_0_0_1_n_n none X
      (transpose S2048x5632 [1, 0] (shapeCast _ (extractStridedSlice S1x5632x2048 ![e, 0, 0] V hs1)
        shapeCasts_S1x5632x2048_S5632x2048) transposes_S5632x2048_S2048x5632_1_0) (ix2 t k)
      = ∑ j : Fin 2048, X (ix2 t j) * V (ix3 ⟨e, he⟩ k j) := by
  refine (dot2_apply dot_S4096x2048_S2048x5632_S4096x5632_1_0_0_1_n_n_wf none X _ t k).trans ?_
  refine Finset.sum_congr rfl fun j _ => ?_
  exact congrArg (X (ix2 t j) * ·)
    (expertT_apply e he V hs1 shapeCasts_S1x5632x2048_S5632x2048 transposes_S5632x2048_S2048x5632_1_0 j k)

/-- The all-ones array reads `1` everywhere. -/
theorem ones_apply (i : S4096x5632.Idx) :
    broadcastInDim S4096x5632 ![] bcast_S_S4096x5632 (constant (F := Ideal) S_ .f32 0x3F800000#32) i = 1 :=
  ofBits_one_f32

/-- The gated activation at an index: `h₁ · (1 / (1 + exp (−h₁))) · h₃` of the two arrays' entries. -/
theorem act_apply (H1 H3 : FVec Ideal S4096x5632 .f32) (i : S4096x5632.Idx) :
    mulf (mulf H1 (Host.divf (broadcastInDim S4096x5632 ![] bcast_S_S4096x5632 (constant S_ .f32 0x3F800000#32))
      (addf (broadcastInDim S4096x5632 ![] bcast_S_S4096x5632 (constant S_ .f32 0x3F800000#32))
        (Host.exp (Host.negf H1))))) H3 i
      = (H1 i * Ideal.div 1 (1 + Ideal.exp (-(H1 i)))) * H3 i := by
  show (H1 i * Ideal.div (broadcastInDim S4096x5632 ![] bcast_S_S4096x5632 (constant (F := Ideal) S_ .f32 0x3F800000#32) i)
      (broadcastInDim S4096x5632 ![] bcast_S_S4096x5632 (constant (F := Ideal) S_ .f32 0x3F800000#32) i
        + Ideal.exp (-(H1 i)))) * H3 i = _
  rw [ones_apply]

/-- ONE EXPERT'S TERM AT `(t, d)`: the gate times the sum over the hidden coordinate of the gated activation of the two
    first products times the expert's output matrix entry. -/
theorem term_apply (e : ℕ) (he : e < 8) (hsw : S4096x8.Slices ![0, e] S4096x1)
    (hs1 : S8x5632x2048.Slices ![e, 0, 0] S1x5632x2048) (hs2 : S8x2048x5632.Slices ![e, 0, 0] S1x2048x5632)
    (X : FVec Ideal S4096x2048 .f32) (IDXF W : FVec Ideal S4096x8 .f32)
    (W1 : FVec Ideal S8x5632x2048 .f32) (W2 : FVec Ideal S8x2048x5632 .f32) (W3 : FVec Ideal S8x5632x2048 .f32)
    (t : Fin 4096) (d : Fin 2048) :
    term e hsw hs1 hs2 X IDXF W W1 W2 W3 (ix2 t d)
      = (W (ix2 t ⟨e, he⟩) * IDXF (ix2 t ⟨e, he⟩))
        * ∑ k : Fin 5632,
            (((∑ j : Fin 2048, X (ix2 t j) * W1 (ix3 ⟨e, he⟩ k j))
                * Ideal.div 1 (1 + Ideal.exp (-(∑ j : Fin 2048, X (ix2 t j) * W1 (ix3 ⟨e, he⟩ k j)))))
              * (∑ j : Fin 2048, X (ix2 t j) * W3 (ix3 ⟨e, he⟩ k j)))
            * W2 (ix3 ⟨e, he⟩ d k) := by
  unfold term
  refine (mulf_apply _ _ (ix2 t d)).trans ?_
  rw [gate_apply e he hsw IDXF W t d]
  refine congrArg (W (ix2 t ⟨e, he⟩) * IDXF (ix2 t ⟨e, he⟩) * ·) ?_
  refine (dot2_apply dot_S4096x5632_S5632x2048_S4096x2048_1_0_0_1_n_n_wf none _ _ t d).trans ?_
  refine Finset.sum_congr rfl fun k _ => ?_
  rw [act_apply, pre_apply e he hs1 X W1 t k, pre_apply e he hs1 X W3 t k,
    expertT_apply e he W2 hs2 shapeCasts_S1x2048x5632_S2048x5632 transposes_S2048x5632_S5632x2048_1_0 k d]

end Term

end Cert.RefExpert

end
-- ==== Proof.RefResult.lean ====
/-
  The reference program's whole result, read at an index, at the ideal values.

  The reference adds the eight experts' terms one after the other onto an array of zeros. Read at token `t` and output
  coordinate `d`, each term is the expert's gate times the expert's sum over the hidden coordinate of its gated
  activation times its output matrix entry, so the result is the nested arrangement of the mixture's sums: every
  expert's whole sum formed first, gated once, and the eight added in order onto zero.
-/
import proofs.«161697_j70901320122868_2_alg».proof.Proof.RefExpert
import proofs.«161697_j70901320122868_2_alg».proof.Proof.Spec
import proofs.«161697_j70901320122868_2_alg».proof.Proof.Gen.ReferenceIdeal

noncomputable section

open scoped BigOperators

namespace Cert.RefResult

open Cert.ReferenceIdeal Idealize.ShloMosaic Idealize.ShloMosaic.ValueIdx Cert.RefExpert Cert.MoeSpec
open Cert.ReferenceIdeal.Facts₀

variable [Cert.ReferenceIdeal.Facts]

/-- The reference's result as a term of its six inputs: the eight experts' terms added, one after the other, onto the
    all-zeros array, nested as the program nests them. -/
def result (X : FVec Ideal S4096x2048 .f32) (IDXF W : FVec Ideal S4096x8 .f32)
    (W1 : FVec Ideal S8x5632x2048 .f32) (W2 : FVec Ideal S8x2048x5632 .f32) (W3 : FVec Ideal S8x5632x2048 .f32) :
    FVec Ideal S4096x2048 .f32 :=
  addf (addf (addf (addf (addf (addf (addf (addf (broadcastInDim S4096x2048 ![] bcast_S_S4096x2048 (constant (F := Ideal) S_ .f32 0x00000000#32)) (term 0 slices_S4096x8_S4096x1_0_0 slices_S8x5632x2048_S1x5632x2048_0_0_0 slices_S8x2048x5632_S1x2048x5632_0_0_0 X IDXF W W1 W2 W3)) (term 1 slices_S4096x8_S4096x1_0_1 slices_S8x5632x2048_S1x5632x2048_1_0_0 slices_S8x2048x5632_S1x2048x5632_1_0_0 X IDXF W W1 W2 W3)) (term 2 slices_S4096x8_S4096x1_0_2 slices_S8x5632x2048_S1x5632x2048_2_0_0 slices_S8x2048x5632_S1x2048x5632_2_0_0 X IDXF W W1 W2 W3)) (term 3 slices_S4096x8_S4096x1_0_3 slices_S8x5632x2048_S1x5632x2048_3_0_0 slices_S8x2048x5632_S1x2048x5632_3_0_0 X IDXF W W1 W2 W3)) (term 4 slices_S4096x8_S4096x1_0_4 slices_S8x5632x2048_S1x5632x2048_4_0_0 slices_S8x2048x5632_S1x2048x5632_4_0_0 X IDXF W W1 W2 W3)) (term 5 slices_S4096x8_S4096x1_0_5 slices_S8x5632x2048_S1x5632x2048_5_0_0 slices_S8x2048x5632_S1x2048x5632_5_0_0 X IDXF W W1 W2 W3)) (term 6 slices_S4096x8_S4096x1_0_6 slices_S8x5632x2048_S1x5632x2048_6_0_0 slices_S8x2048x5632_S1x2048x5632_6_0_0 X IDXF W W1 W2 W3)) (term 7 slices_S4096x8_S4096x1_0_7 slices_S8x5632x2048_S1x5632x2048_7_0_0 slices_S8x2048x5632_S1x2048x5632_7_0_0 X IDXF W W1 W2 W3)

/-- The all-zeros array reads `0` everywhere. -/
theorem zeros_apply (i : S4096x2048.Idx) :
    broadcastInDim S4096x2048 ![] bcast_S_S4096x2048 (constant (F := Ideal) S_ .f32 0x00000000#32) i = 0 :=
  Ideal.ofBits_zero_f32

/-- A sum of two arrays at an index, once each is known there. -/
theorem addf_step (A B : FVec Ideal S4096x2048 .f32) (i : S4096x2048.Idx) (a b : EReal) (hA : A i = a) (hB : B i = b) :
    addf A B i = a + b :=
  (addf_apply A B i).trans (by rw [hA, hB])

/-- One expert's term at `(t, d)` is the specification's gated term of that expert: the gate is routing weight times
    routing index, the activation's logistic factor is `1 / (1 + exp (−z))` by definition. -/
theorem term_gated (e : ℕ) (he : e < 8) (hsw : S4096x8.Slices ![0, e] S4096x1)
    (hs1 : S8x5632x2048.Slices ![e, 0, 0] S1x5632x2048) (hs2 : S8x2048x5632.Slices ![e, 0, 0] S1x2048x5632)
    (X : FVec Ideal S4096x2048 .f32) (IDXF W : FVec Ideal S4096x8 .f32)
    (W1 : FVec Ideal S8x5632x2048 .f32) (W2 : FVec Ideal S8x2048x5632 .f32) (W3 : FVec Ideal S8x5632x2048 .f32)
    (t : Fin 4096) (d : Fin 2048) :
    term e hsw hs1 hs2 X IDXF W W1 W2 W3 (ix2 t d)
      = gated (mat2 X) (fun a e => mat2 W a e * mat2 IDXF a e) (mat3 W1) (mat3 W3) (mat3 W2) t d ⟨e, he⟩ :=
  (term_apply e he hsw hs1 hs2 X IDXF W W1 W2 W3 t d).trans rfl

/-- THE REFERENCE'S RESULT AT `(t, d)`: the nested arrangement of the specification — each expert's whole sum over the
    hidden coordinate gated once, the eight added one after the other onto zero. -/
theorem result_apply (X : FVec Ideal S4096x2048 .f32) (IDXF W : FVec Ideal S4096x8 .f32)
    (W1 : FVec Ideal S8x5632x2048 .f32) (W2 : FVec Ideal S8x2048x5632 .f32) (W3 : FVec Ideal S8x5632x2048 .f32)
    (t : Fin 4096) (d : Fin 2048) :
    result X IDXF W W1 W2 W3 (ix2 t d)
      = nested (mat2 X) (fun a e => mat2 W a e * mat2 IDXF a e) (mat3 W1) (mat3 W3) (mat3 W2) t d := by
  unfold result nested
  exact (addf_step _ _ _ _ _ (addf_step _ _ _ _ _ (addf_step _ _ _ _ _ (addf_step _ _ _ _ _ (addf_step _ _ _ _ _ (addf_step _ _ _ _ _ (addf_step _ _ _ _ _ (addf_step _ _ _ _ _ (zeros_apply (ix2 t d))
    (term_gated 0 (by decide) slices_S4096x8_S4096x1_0_0 slices_S8x5632x2048_S1x5632x2048_0_0_0 slices_S8x2048x5632_S1x2048x5632_0_0_0 X IDXF W W1 W2 W3 t d))
    (term_gated 1 (by decide) slices_S4096x8_S4096x1_0_1 slices_S8x5632x2048_S1x5632x2048_1_0_0 slices_S8x2048x5632_S1x2048x5632_1_0_0 X IDXF W W1 W2 W3 t d))
    (term_gated 2 (by decide) slices_S4096x8_S4096x1_0_2 slices_S8x5632x2048_S1x5632x2048_2_0_0 slices_S8x2048x5632_S1x2048x5632_2_0_0 X IDXF W W1 W2 W3 t d))
    (term_gated 3 (by decide) slices_S4096x8_S4096x1_0_3 slices_S8x5632x2048_S1x5632x2048_3_0_0 slices_S8x2048x5632_S1x2048x5632_3_0_0 X IDXF W W1 W2 W3 t d))
    (term_gated 4 (by decide) slices_S4096x8_S4096x1_0_4 slices_S8x5632x2048_S1x5632x2048_4_0_0 slices_S8x2048x5632_S1x2048x5632_4_0_0 X IDXF W W1 W2 W3 t d))
    (term_gated 5 (by decide) slices_S4096x8_S4096x1_0_5 slices_S8x5632x2048_S1x5632x2048_5_0_0 slices_S8x2048x5632_S1x2048x5632_5_0_0 X IDXF W W1 W2 W3 t d))
    (term_gated 6 (by decide) slices_S4096x8_S4096x1_0_6 slices_S8x5632x2048_S1x5632x2048_6_0_0 slices_S8x2048x5632_S1x2048x5632_6_0_0 X IDXF W W1 W2 W3 t d))
    (term_gated 7 (by decide) slices_S4096x8_S4096x1_0_7 slices_S8x5632x2048_S1x5632x2048_7_0_0 slices_S8x2048x5632_S1x2048x5632_7_0_0 X IDXF W W1 W2 W3 t d))

end Cert.RefResult

end
-- ==== Proof.PreFacts.lean ====
/-
  What the precondition says about the inputs. The precondition is the conjunction of six tests, each an
  "all elements" test: for each of the five real-valued inputs, that every element's absolute value is strictly
  below +∞; for the integer input, that every element equals 0 or equals 1. Each test is an and-reduction of a
  boolean array over all of its axes, and the six results are joined by and. When the whole conjunction is 1,
  every element of every real-valued input is a finite real number (an extended real other than ⊤ and ⊥: for
  these two, max a (-a) = ⊤, which is not below ⊤), and every element of the integer input is the word 0 or the
  word 1.
-/
import proofs.«161697_j70901320122868_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

open Idealize.ShloMosaic

namespace Cert.PreFacts

open Cert.Pre_finite_inputs

/-- The rank-0 shape has exactly one index. -/
instance : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- One element: if |v| < +∞ then v is a finite real. At ⊤ and at ⊥ the absolute value max v (-v) is ⊤,
    which is not below ⊤; every other extended real is the coercion of a real. -/
theorem real_of_abs_lt_inf (v : Ideal .f32)
    (h : FloatOps.cmpf .olt (FloatOps.hostAbsf v) (FloatOps.ofBits (F := Ideal) .f32 0x7F800000#32) = 1#1) :
    ∃ r : ℝ, v = (r : EReal) := by
  change Ideal.cmp .olt (max (v : EReal) (-(v : EReal))) (Ideal.ofBits .f32 0x7F800000#32) = 1#1 at h
  rw [ofBits_inf] at h
  unfold Ideal.cmp at h
  induction v using EReal.rec with
  | bot => simp at h
  | coe r => exact ⟨r, rfl⟩
  | top => simp at h

/-- One real-valued input: if the and-reduction over all axes of the test |x| < +∞ is 1, every element of x
    is a finite real. -/
theorem finite_of_all {s : Shape} {axes : List (Fin s.rank)} (x : FVec Ideal s .f32)
    (dims : Fin S_.rank → Fin s.rank) (hb : S_.BroadcastsInDim s dims) (hr : s.ReducesTo axes S_)
    (hu : 0 < S_.numel)
    (e : Host.reduce IntOp.andi
          (cmpf .olt (Host.absf x) (broadcastInDim s dims hb (constant (F := Ideal) S_ .f32 0x7F800000#32)))
          (constantI S_ 1 1#1) hr hu ValueIdx.ix0 = 1#1)
    (i : s.Idx) : ∃ r : ℝ, x i = (r : EReal) := by
  have hi := Host.reduce_andi_all _ _ hr hu ValueIdx.ix0 e i
  exact real_of_abs_lt_inf (x i) hi

/-- The integer input: if the and-reduction over all axes of the test (idx = 0) or (idx = 1) is 1, every
    element of idx is the word 0 or the word 1. -/
theorem zero_or_one_of_all {s : Shape} {axes : List (Fin s.rank)} (idx : IVec s 32)
    (dims : Fin S_.rank → Fin s.rank) (hb : S_.BroadcastsInDim s dims) (hr : s.ReducesTo axes S_)
    (hu : 0 < S_.numel)
    (e : Host.reduce IntOp.andi
          (ori (cmpi .eq idx (broadcastInDim s dims hb (constantI S_ 32 0#32)))
               (cmpi .eq idx (broadcastInDim s dims hb (constantI S_ 32 1#32))))
          (constantI S_ 1 1#1) hr hu ValueIdx.ix0 = 1#1)
    (i : s.Idx) : idx i = 0#32 ∨ idx i = 1#32 := by
  have hi := Host.reduce_andi_all _ _ hr hu ValueIdx.ix0 e i
  rcases IntOp.ori_eq_one.1 hi with h0 | h1
  · exact Or.inl (IntOp.cmpi_eq.1 h0)
  · exact Or.inr (IntOp.cmpi_eq.1 h1)

variable [Cert.Pre_finite_inputs.Facts]

/-- THE PRECONDITION DECODED: every element of the five real-valued inputs is a finite real, and every element
    of the integer input is 0 or 1. -/
theorem of_pre (x : FVec Ideal Cert.Pre_finite_inputs.S4096x2048 .f32) (idx : IVec Cert.Pre_finite_inputs.S4096x8 32)
    (w : FVec Ideal Cert.Pre_finite_inputs.S4096x8 .f32) (w1 : FVec Ideal Cert.Pre_finite_inputs.S8x5632x2048 .f32)
    (w2 : FVec Ideal Cert.Pre_finite_inputs.S8x2048x5632 .f32) (w3 : FVec Ideal Cert.Pre_finite_inputs.S8x5632x2048 .f32)
    (h : Cert.Pre_finite_inputs.fn (F := Ideal) x idx w w1 w2 w3 = fun _ => 1#1) :
    (∀ i, ∃ r : ℝ, x i = (r : EReal)) ∧ (∀ i, ∃ r : ℝ, w i = (r : EReal)) ∧ (∀ i, ∃ r : ℝ, w1 i = (r : EReal)) ∧
      (∀ i, ∃ r : ℝ, w2 i = (r : EReal)) ∧ (∀ i, ∃ r : ℝ, w3 i = (r : EReal)) ∧ (∀ i, idx i = 0#32 ∨ idx i = 1#32) := by
  have e := congrFun h ValueIdx.ix0
  unfold Cert.Pre_finite_inputs.fn Cert.Pre_finite_inputs.fn_part1 at e
  dsimp only at e
  -- the six tests' results, joined by and
  obtain ⟨e5, hI⟩ := IntOp.andi_eq_one.1 e
  obtain ⟨e4, hW3⟩ := IntOp.andi_eq_one.1 e5
  obtain ⟨e3, hW2⟩ := IntOp.andi_eq_one.1 e4
  obtain ⟨e2, hW1⟩ := IntOp.andi_eq_one.1 e3
  obtain ⟨hX, hW⟩ := IntOp.andi_eq_one.1 e2
  exact ⟨finite_of_all x _ _ _ _ hX, finite_of_all w _ _ _ _ hW, finite_of_all w1 _ _ _ _ hW1,
    finite_of_all w2 _ _ _ _ hW2, finite_of_all w3 _ _ _ _ hW3, zero_or_one_of_all idx _ _ _ _ hI⟩

end Cert.PreFacts

end
-- ==== Proof.Bridge.lean ====
/-
  The two programs compute one function. The kernel's result array is the blocked arrangement of the mixture with the
  gate "the weight where the routing entry is positive, zero elsewhere"; the reference's is the nested arrangement with
  the gate "the weight times the routing entry read as a number". Under the precondition every float input is a real
  number and every routing entry is 0 or 1, so the two gates are the same real number (w · 0 = 0 where the entry is 0,
  w · 1 = w where it is 1), and on real inputs both arrangements are the real mixture (the specification module).
-/
import proofs.«161697_j70901320122868_2_alg».proof.Proof.KernelValue
import proofs.«161697_j70901320122868_2_alg».proof.Proof.RefResult
import proofs.«161697_j70901320122868_2_alg».proof.Proof.PreFacts

noncomputable section

namespace Cert.Bridge

open Idealize.ShloMosaic Idealize.ShloMosaic.ValueIdx Cert.MoeSpec

/-- On a routing entry that is 0 or 1 the kernel's gate (a selection by the sign of the entry) is the reference's gate
    (the product with the entry read as a number). -/
theorem gate_eq (idx : IVec Cert.KernelIdeal.S4096x8 32) (w : Cert.KernelIdeal.S4096x8.Idx → EReal) (t : Fin 4096) (e : Fin 8)
    (h : idx (ix2 t e) = 0#32 ∨ idx (ix2 t e) = 1#32) :
    Cert.KernelIdeal.Blocks.gate idx w t e = w (ix2 t e) * (((idx (ix2 t e)).toInt : ℝ) : EReal) := by
  unfold Cert.KernelIdeal.Blocks.gate
  rcases h with h | h <;> rw [h]
  · have hc : IntOp.cmpi .sgt (0#32) (0#32) = 0#1 := by decide
    have hi : (0#32 : BitVec 32).toInt = 0 := by decide
    rw [hc, ValueIdx.select_zero, hi]
    simp
  · have hc : IntOp.cmpi .sgt (1#32) (0#32) = 1#1 := by decide
    have hi : (1#32 : BitVec 32).toInt = 1 := by decide
    rw [hc, ValueIdx.select_one, hi]
    simp

/-- THE TWO ARRANGEMENTS AGREE on real inputs with routing entries in {0, 1}. -/
theorem arrangements_agree (x : Cert.KernelIdeal.S4096x2048.Idx → EReal) (idx : IVec Cert.KernelIdeal.S4096x8 32)
    (w : Cert.KernelIdeal.S4096x8.Idx → EReal) (w1 : Cert.KernelIdeal.S8x5632x2048.Idx → EReal)
    (w2 : Cert.KernelIdeal.S8x2048x5632.Idx → EReal) (w3 : Cert.KernelIdeal.S8x5632x2048.Idx → EReal)
    (hx : ∀ i, ∃ r : ℝ, x i = (r : EReal)) (hw : ∀ i, ∃ r : ℝ, w i = (r : EReal)) (hw1 : ∀ i, ∃ r : ℝ, w1 i = (r : EReal))
    (hw2 : ∀ i, ∃ r : ℝ, w2 i = (r : EReal)) (hw3 : ∀ i, ∃ r : ℝ, w3 i = (r : EReal))
    (hidx : ∀ i, idx i = 0#32 ∨ idx i = 1#32) (t : Fin 4096) (d : Fin 2048) :
    blocked (mat2 x) (Cert.KernelIdeal.Blocks.gate idx w) (mat3 w1) (mat3 w3) (mat3 w2) t d
      = nested (mat2 x) (fun a e => mat2 w a e * mat2 (sitofp (F := Ideal) .f32 idx) a e) (mat3 w1) (mat3 w3) (mat3 w2) t d := by
  choose xr hxr using hx
  choose wr hwr using hw
  choose w1r hw1r using hw1
  choose w2r hw2r using hw2
  choose w3r hw3r using hw3
  have eX : mat2 x = fun a b => ((xr (ix2 a b) : ℝ) : EReal) := funext fun a => funext fun b => hxr _
  have eW1 : mat3 w1 = fun a b c => ((w1r (ix3 a b c) : ℝ) : EReal) := funext fun a => funext fun b => funext fun c => hw1r _
  have eW2 : mat3 w2 = fun a b c => ((w2r (ix3 a b c) : ℝ) : EReal) := funext fun a => funext fun b => funext fun c => hw2r _
  have eW3 : mat3 w3 = fun a b c => ((w3r (ix3 a b c) : ℝ) : EReal) := funext fun a => funext fun b => funext fun c => hw3r _
  have eG : Cert.KernelIdeal.Blocks.gate idx w
      = fun a e => ((wr (ix2 a e) * ((idx (ix2 a e)).toInt : ℝ) : ℝ) : EReal) :=
    funext fun a => funext fun e => by rw [gate_eq idx w a e (hidx _), hwr, ← EReal.coe_mul]
  have eG' : (fun a e => mat2 w a e * mat2 (sitofp (F := Ideal) .f32 idx) a e)
      = fun a e => ((wr (ix2 a e) * ((idx (ix2 a e)).toInt : ℝ) : ℝ) : EReal) :=
    funext fun a => funext fun e => by
      show w (ix2 a e) * (((idx (ix2 a e)).toInt : ℝ) : EReal) = _
      rw [hwr, ← EReal.coe_mul]
  rw [eX, eW1, eW2, eW3, eG, eG']
  rw [blocked_coe (fun a b => xr (ix2 a b)) (fun a e => wr (ix2 a e) * ((idx (ix2 a e)).toInt : ℝ))
      (fun a b c => w1r (ix3 a b c)) (fun a b c => w3r (ix3 a b c)) (fun a b c => w2r (ix3 a b c)) t d,
    nested_coe (fun a b => xr (ix2 a b)) (fun a e => wr (ix2 a e) * ((idx (ix2 a e)).toInt : ℝ))
      (fun a b c => w1r (ix3 a b c)) (fun a b c => w3r (ix3 a b c)) (fun a b c => w2r (ix3 a b c)) t d]

end Cert.Bridge

end
-- ==== Proof.RefOps.lean ====
/-
  The reference program's host operations, as lists: program text only.

  The reference's @main is 251 host operations in a straight line: three that prepare its inputs (the routing indices
  converted to floats, and an array of zeros to accumulate into), then, for each of the eight experts, the same
  thirty-one operations at that expert's slice offsets — the two first products, the activation function's eight
  operations, the gated product, the second product, the gate column and its two broadcasts, and the addition onto
  the running sum. They are listed here expert by expert, in the program's order, so that what the buffers hold
  afterwards can be computed one expert at a time.
-/
import proofs.«161697_j70901320122868_2_alg».proof.Proof.Gen.ReferenceIdeal
import Idealize.ShloMosaic.Lib.StableHlo.Run

noncomputable section

namespace Cert.RefResult

open Cert.ReferenceIdeal Cert.ReferenceIdeal.Gen Idealize.ShloMosaic Idealize.ShloMosaic.TcCoe Idealize.SL.Sem Idealize.ShloMosaic.StableHlo

variable {F : FTy → Type} [FloatOps F]

/-- The three preparing operations: the routing indices as floats, the zero constant, the zeros array. -/
abbrev ops0 : List (HloOp τ sig (Elt F)) :=
  [ unary main_arg1 main_v0 (sitofp .f32 : (⟨S4096x8, .i32⟩ : BufTy).Contents (Elt F) → (⟨S4096x8, .f32⟩ : BufTy).Contents (Elt F)),
    nullary main_cst (constant S_ .f32 0x00000000#32),
    unary main_cst main_v1 (broadcastInDim S4096x2048 ![] bcast_S_S4096x2048 : (⟨S_, .f32⟩ : BufTy).Contents (Elt F) → (⟨S4096x2048, .f32⟩ : BufTy).Contents (Elt F)) ]

/-- Expert 0's thirty-one operations, ending with the addition of its term onto the running sum. -/
abbrev opsE0 : List (HloOp τ sig (Elt F)) :=
  [ unary main_arg3 main_v2 ((extractStridedSlice S1x5632x2048 ![0, 0, 0] · slices_S8x5632x2048_S1x5632x2048_0_0_0) : (⟨S8x5632x2048, .f32⟩ : BufTy).Contents (Elt F) → (⟨S1x5632x2048, .f32⟩ : BufTy).Contents (Elt F)),
    reshape main_v2 main_v3 rfl shapeCasts_S1x5632x2048_S5632x2048,
    unary main_v3 main_v4 ((transpose S2048x5632 [1, 0] · transposes_S5632x2048_S2048x5632_1_0) : (⟨S5632x2048, .f32⟩ : BufTy).Contents (Elt F) → (⟨S2048x5632, .f32⟩ : BufTy).Contents (Elt F)),
    binary main_arg0 main_v4 main_v5 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v5) (TRef.of (T := ⟨S4096x5632, .f32⟩) main_call0_v0) Host.negf,
    TRef.unary (TRef.of (T := ⟨S4096x5632, .f32⟩) main_call0_v0) (TRef.of (T := ⟨S4096x5632, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S4096x5632, .f32⟩) main_call0_v2) (broadcastInDim S4096x5632 ![] bcast_S_S4096x5632),
    TRef.binary (TRef.of (T := ⟨S4096x5632, .f32⟩) main_call0_v2) (TRef.of (T := ⟨S4096x5632, .f32⟩) main_call0_v1) (TRef.of (T := ⟨S4096x5632, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S4096x5632, .f32⟩) main_call0_v4) (broadcastInDim S4096x5632 ![] bcast_S_S4096x5632),
    TRef.binary (TRef.of (T := ⟨S4096x5632, .f32⟩) main_call0_v4) (TRef.of (T := ⟨S4096x5632, .f32⟩) main_call0_v3) (TRef.of (T := ⟨S4096x5632, .f32⟩) main_call0_v5) Host.divf,
    TRef.binary (TRef.of (T := ⟨S4096x5632, .f32⟩) main_v5) (TRef.of (T := ⟨S4096x5632, .f32⟩) main_call0_v5) (TRef.of (T := ⟨S4096x5632, .f32⟩) main_v6) mulf,
    unary main_arg5 main_v7 ((extractStridedSlice S1x5632x2048 ![0, 0, 0] · slices_S8x5632x2048_S1x5632x2048_0_0_0) : (⟨S8x5632x2048, .f32⟩ : BufTy).Contents (Elt F) → (⟨S1x5632x2048, .f32⟩ : BufTy).Contents (Elt F)),
    reshape main_v7 main_v8 rfl shapeCasts_S1x5632x2048_S5632x2048,
    unary main_v8 main_v9 ((transpose S2048x5632 [1, 0] · transposes_S5632x2048_S2048x5632_1_0) : (⟨S5632x2048, .f32⟩ : BufTy).Contents (Elt F) → (⟨S2048x5632, .f32⟩ : BufTy).Contents (Elt F)),
    binary main_arg0 main_v9 main_v10 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v6 main_v10 main_v11 (mulf : (⟨S4096x5632, .f32⟩ : BufTy).Contents (Elt F) → (⟨S4096x5632, .f32⟩ : BufTy).Contents (Elt F) → (⟨S4096x5632, .f32⟩ : BufTy).Contents (Elt F)),
    unary main_arg4 main_v12 ((extractStridedSlice S1x2048x5632 ![0, 0, 0] · slices_S8x2048x5632_S1x2048x5632_0_0_0) : (⟨S8x2048x5632, .f32⟩ : BufTy).Contents (Elt F) → (⟨S1x2048x5632, .f32⟩ : BufTy).Contents (Elt F)),
    reshape main_v12 main_v13 rfl shapeCasts_S1x2048x5632_S2048x5632,
    unary main_v13 main_v14 ((transpose S5632x2048 [1, 0] · transposes_S2048x5632_S5632x2048_1_0) : (⟨S2048x5632, .f32⟩ : BufTy).Contents (Elt F) → (⟨S5632x2048, .f32⟩ : BufTy).Contents (Elt F)),
    binary main_v11 main_v14 main_v15 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v16 ((extractStridedSlice S4096x1 ![0, 0] · slices_S4096x8_S4096x1_0_0) : (⟨S4096x8, .f32⟩ : BufTy).Contents (Elt F) → (⟨S4096x1, .f32⟩ : BufTy).Contents (Elt F)),
    reshape main_v16 main_v17 rfl shapeCasts_S4096x1_S4096,
    unary main_v0 main_v18 ((extractStridedSlice S4096x1 ![0, 0] · slices_S4096x8_S4096x1_0_0) : (⟨S4096x8, .f32⟩ : BufTy).Contents (Elt F) → (⟨S4096x1, .f32⟩ : BufTy).Contents (Elt F)),
    reshape main_v18 main_v19 rfl shapeCasts_S4096x1_S4096,
    binary main_v17 main_v19 main_v20 (mulf : (⟨S4096, .f32⟩ : BufTy).Contents (Elt F) → (⟨S4096, .f32⟩ : BufTy).Contents (Elt F) → (⟨S4096, .f32⟩ : BufTy).Contents (Elt F)),
    unary main_v20 main_v21 (broadcastInDim S4096x1 ![0] bcast_S4096_S4096x1_0 : (⟨S4096, .f32⟩ : BufTy).Contents (Elt F) → (⟨S4096x1, .f32⟩ : BufTy).Contents (Elt F)),
    unary main_v21 main_v22 (broadcastInDim S4096x2048 ![0, 1] bcast_S4096x1_S4096x2048_0_1 : (⟨S4096x1, .f32⟩ : BufTy).Contents (Elt F) → (⟨S4096x2048, .f32⟩ : BufTy).Contents (Elt F)),
    binary main_v22 main_v15 main_v23 (mulf : (⟨S4096x2048, .f32⟩ : BufTy).Contents (Elt F) → (⟨S4096x2048, .f32⟩ : BufTy).Contents (Elt F) → (⟨S4096x2048, .f32⟩ : BufTy).Contents (Elt F)),
    binary main_v1 main_v23 main_v24 (addf : (⟨S4096x2048, .f32⟩ : BufTy).Contents (Elt F) → (⟨S4096x2048, .f32⟩ : BufTy).Contents (Elt F) → (⟨S4096x2048, .f32⟩ : BufTy).Contents (Elt F)) ]

/-- Expert 1's thirty-one operations, ending with the addition of its term onto the running sum. -/
abbrev opsE1 : List (HloOp τ sig (Elt F)) :=
  [ unary main_arg3 main_v25 ((extractStridedSlice S1x5632x2048 ![1, 0, 0] · slices_S8x5632x2048_S1x5632x2048_1_0_0) : (⟨S8x5632x2048, .f32⟩ : BufTy).Contents (Elt F) → (⟨S1x5632x2048, .f32⟩ : BufTy).Contents (Elt F)),
    reshape main_v25 main_v26 rfl shapeCasts_S1x5632x2048_S5632x2048,
    unary main_v26 main_v27 ((transpose S2048x5632 [1, 0] · transposes_S5632x2048_S2048x5632_1_0) : (⟨S5632x2048, .f32⟩ : BufTy).Contents (Elt F) → (⟨S2048x5632, .f32⟩ : BufTy).Contents (Elt F)),
    binary main_arg0 main_v27 main_v28 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v28) (TRef.of (T := ⟨S4096x5632, .f32⟩) main_call1_v0) Host.negf,
    TRef.unary (TRef.of (T := ⟨S4096x5632, .f32⟩) main_call1_v0) (TRef.of (T := ⟨S4096x5632, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S4096x5632, .f32⟩) main_call1_v2) (broadcastInDim S4096x5632 ![] bcast_S_S4096x5632),
    TRef.binary (TRef.of (T := ⟨S4096x5632, .f32⟩) main_call1_v2) (TRef.of (T := ⟨S4096x5632, .f32⟩) main_call1_v1) (TRef.of (T := ⟨S4096x5632, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S4096x5632, .f32⟩) main_call1_v4) (broadcastInDim S4096x5632 ![] bcast_S_S4096x5632),
    TRef.binary (TRef.of (T := ⟨S4096x5632, .f32⟩) main_call1_v4) (TRef.of (T := ⟨S4096x5632, .f32⟩) main_call1_v3) (TRef.of (T := ⟨S4096x5632, .f32⟩) main_call1_v5) Host.divf,
    TRef.binary (TRef.of (T := ⟨S4096x5632, .f32⟩) main_v28) (TRef.of (T := ⟨S4096x5632, .f32⟩) main_call1_v5) (TRef.of (T := ⟨S4096x5632, .f32⟩) main_v29) mulf,
    unary main_arg5 main_v30 ((extractStridedSlice S1x5632x2048 ![1, 0, 0] · slices_S8x5632x2048_S1x5632x2048_1_0_0) : (⟨S8x5632x2048, .f32⟩ : BufTy).Contents (Elt F) → (⟨S1x5632x2048, .f32⟩ : BufTy).Contents (Elt F)),
    reshape main_v30 main_v31 rfl shapeCasts_S1x5632x2048_S5632x2048,
    unary main_v31 main_v32 ((transpose S2048x5632 [1, 0] · transposes_S5632x2048_S2048x5632_1_0) : (⟨S5632x2048, .f32⟩ : BufTy).Contents (Elt F) → (⟨S2048x5632, .f32⟩ : BufTy).Contents (Elt F)),
    binary main_arg0 main_v32 main_v33 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v29 main_v33 main_v34 (mulf : (⟨S4096x5632, .f32⟩ : BufTy).Contents (Elt F) → (⟨S4096x5632, .f32⟩ : BufTy).Contents (Elt F) → (⟨S4096x5632, .f32⟩ : BufTy).Contents (Elt F)),
    unary main_arg4 main_v35 ((extractStridedSlice S1x2048x5632 ![1, 0, 0] · slices_S8x2048x5632_S1x2048x5632_1_0_0) : (⟨S8x2048x5632, .f32⟩ : BufTy).Contents (Elt F) → (⟨S1x2048x5632, .f32⟩ : BufTy).Contents (Elt F)),
    reshape main_v35 main_v36 rfl shapeCasts_S1x2048x5632_S2048x5632,
    unary main_v36 main_v37 ((transpose S5632x2048 [1, 0] · transposes_S2048x5632_S5632x2048_1_0) : (⟨S2048x5632, .f32⟩ : BufTy).Contents (Elt F) → (⟨S5632x2048, .f32⟩ : BufTy).Contents (Elt F)),
    binary main_v34 main_v37 main_v38 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v39 ((extractStridedSlice S4096x1 ![0, 1] · slices_S4096x8_S4096x1_0_1) : (⟨S4096x8, .f32⟩ : BufTy).Contents (Elt F) → (⟨S4096x1, .f32⟩ : BufTy).Contents (Elt F)),
    reshape main_v39 main_v40 rfl shapeCasts_S4096x1_S4096,
    unary main_v0 main_v41 ((extractStridedSlice S4096x1 ![0, 1] · slices_S4096x8_S4096x1_0_1) : (⟨S4096x8, .f32⟩ : BufTy).Contents (Elt F) → (⟨S4096x1, .f32⟩ : BufTy).Contents (Elt F)),
    reshape main_v41 main_v42 rfl shapeCasts_S4096x1_S4096,
    binary main_v40 main_v42 main_v43 (mulf : (⟨S4096, .f32⟩ : BufTy).Contents (Elt F) → (⟨S4096, .f32⟩ : BufTy).Contents (Elt F) → (⟨S4096, .f32⟩ : BufTy).Contents (Elt F)),
    unary main_v43 main_v44 (broadcastInDim S4096x1 ![0] bcast_S4096_S4096x1_0 : (⟨S4096, .f32⟩ : BufTy).Contents (Elt F) → (⟨S4096x1, .f32⟩ : BufTy).Contents (Elt F)),
    unary main_v44 main_v45 (broadcastInDim S4096x2048 ![0, 1] bcast_S4096x1_S4096x2048_0_1 : (⟨S4096x1, .f32⟩ : BufTy).Contents (Elt F) → (⟨S4096x2048, .f32⟩ : BufTy).Contents (Elt F)),
    binary main_v45 main_v38 main_v46 (mulf : (⟨S4096x2048, .f32⟩ : BufTy).Contents (Elt F) → (⟨S4096x2048, .f32⟩ : BufTy).Contents (Elt F) → (⟨S4096x2048, .f32⟩ : BufTy).Contents (Elt F)),
    binary main_v24 main_v46 main_v47 (addf : (⟨S4096x2048, .f32⟩ : BufTy).Contents (Elt F) → (⟨S4096x2048, .f32⟩ : BufTy).Contents (Elt F) → (⟨S4096x2048, .f32⟩ : BufTy).Contents (Elt F)) ]

/-- Expert 2's thirty-one operations, ending with the addition of its term onto the running sum. -/
abbrev opsE2 : List (HloOp τ sig (Elt F)) :=
  [ unary main_arg3 main_v48 ((extractStridedSlice S1x5632x2048 ![2, 0, 0] · slices_S8x5632x2048_S1x5632x2048_2_0_0) : (⟨S8x5632x2048, .f32⟩ : BufTy).Contents (Elt F) → (⟨S1x5632x2048, .f32⟩ : BufTy).Contents (Elt F)),
    reshape main_v48 main_v49 rfl shapeCasts_S1x5632x2048_S5632x2048,
    unary main_v49 main_v50 ((transpose S2048x5632 [1, 0] · transposes_S5632x2048_S2048x5632_1_0) : (⟨S5632x2048, .f32⟩ : BufTy).Contents (Elt F) → (⟨S2048x5632, .f32⟩ : BufTy).Contents (Elt F)),
    binary main_arg0 main_v50 main_v51 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v51) (TRef.of (T := ⟨S4096x5632, .f32⟩) main_call2_v0) Host.negf,
    TRef.unary (TRef.of (T := ⟨S4096x5632, .f32⟩) main_call2_v0) (TRef.of (T := ⟨S4096x5632, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4096x5632, .f32⟩) main_call2_v2) (broadcastInDim S4096x5632 ![] bcast_S_S4096x5632),
    TRef.binary (TRef.of (T := ⟨S4096x5632, .f32⟩) main_call2_v2) (TRef.of (T := ⟨S4096x5632, .f32⟩) main_call2_v1) (TRef.of (T := ⟨S4096x5632, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4096x5632, .f32⟩) main_call2_v4) (broadcastInDim S4096x5632 ![] bcast_S_S4096x5632),
    TRef.binary (TRef.of (T := ⟨S4096x5632, .f32⟩) main_call2_v4) (TRef.of (T := ⟨S4096x5632, .f32⟩) main_call2_v3) (TRef.of (T := ⟨S4096x5632, .f32⟩) main_call2_v5) Host.divf,
    TRef.binary (TRef.of (T := ⟨S4096x5632, .f32⟩) main_v51) (TRef.of (T := ⟨S4096x5632, .f32⟩) main_call2_v5) (TRef.of (T := ⟨S4096x5632, .f32⟩) main_v52) mulf,
    unary main_arg5 main_v53 ((extractStridedSlice S1x5632x2048 ![2, 0, 0] · slices_S8x5632x2048_S1x5632x2048_2_0_0) : (⟨S8x5632x2048, .f32⟩ : BufTy).Contents (Elt F) → (⟨S1x5632x2048, .f32⟩ : BufTy).Contents (Elt F)),
    reshape main_v53 main_v54 rfl shapeCasts_S1x5632x2048_S5632x2048,
    unary main_v54 main_v55 ((transpose S2048x5632 [1, 0] · transposes_S5632x2048_S2048x5632_1_0) : (⟨S5632x2048, .f32⟩ : BufTy).Contents (Elt F) → (⟨S2048x5632, .f32⟩ : BufTy).Contents (Elt F)),
    binary main_arg0 main_v55 main_v56 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v52 main_v56 main_v57 (mulf : (⟨S4096x5632, .f32⟩ : BufTy).Contents (Elt F) → (⟨S4096x5632, .f32⟩ : BufTy).Contents (Elt F) → (⟨S4096x5632, .f32⟩ : BufTy).Contents (Elt F)),
    unary main_arg4 main_v58 ((extractStridedSlice S1x2048x5632 ![2, 0, 0] · slices_S8x2048x5632_S1x2048x5632_2_0_0) : (⟨S8x2048x5632, .f32⟩ : BufTy).Contents (Elt F) → (⟨S1x2048x5632, .f32⟩ : BufTy).Contents (Elt F)),
    reshape main_v58 main_v59 rfl shapeCasts_S1x2048x5632_S2048x5632,
    unary main_v59 main_v60 ((transpose S5632x2048 [1, 0] · transposes_S2048x5632_S5632x2048_1_0) : (⟨S2048x5632, .f32⟩ : BufTy).Contents (Elt F) → (⟨S5632x2048, .f32⟩ : BufTy).Contents (Elt F)),
    binary main_v57 main_v60 main_v61 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v62 ((extractStridedSlice S4096x1 ![0, 2] · slices_S4096x8_S4096x1_0_2) : (⟨S4096x8, .f32⟩ : BufTy).Contents (Elt F) → (⟨S4096x1, .f32⟩ : BufTy).Contents (Elt F)),
    reshape main_v62 main_v63 rfl shapeCasts_S4096x1_S4096,
    unary main_v0 main_v64 ((extractStridedSlice S4096x1 ![0, 2] · slices_S4096x8_S4096x1_0_2) : (⟨S4096x8, .f32⟩ : BufTy).Contents (Elt F) → (⟨S4096x1, .f32⟩ : BufTy).Contents (Elt F)),
    reshape main_v64 main_v65 rfl shapeCasts_S4096x1_S4096,
    binary main_v63 main_v65 main_v66 (mulf : (⟨S4096, .f32⟩ : BufTy).Contents (Elt F) → (⟨S4096, .f32⟩ : BufTy).Contents (Elt F) → (⟨S4096, .f32⟩ : BufTy).Contents (Elt F)),
    unary main_v66 main_v67 (broadcastInDim S4096x1 ![0] bcast_S4096_S4096x1_0 : (⟨S4096, .f32⟩ : BufTy).Contents (Elt F) → (⟨S4096x1, .f32⟩ : BufTy).Contents (Elt F)),
    unary main_v67 main_v68 (broadcastInDim S4096x2048 ![0, 1] bcast_S4096x1_S4096x2048_0_1 : (⟨S4096x1, .f32⟩ : BufTy).Contents (Elt F) → (⟨S4096x2048, .f32⟩ : BufTy).Contents (Elt F)),
    binary main_v68 main_v61 main_v69 (mulf : (⟨S4096x2048, .f32⟩ : BufTy).Contents (Elt F) → (⟨S4096x2048, .f32⟩ : BufTy).Contents (Elt F) → (⟨S4096x2048, .f32⟩ : BufTy).Contents (Elt F)),
    binary main_v47 main_v69 main_v70 (addf : (⟨S4096x2048, .f32⟩ : BufTy).Contents (Elt F) → (⟨S4096x2048, .f32⟩ : BufTy).Contents (Elt F) → (⟨S4096x2048, .f32⟩ : BufTy).Contents (Elt F)) ]

/-- Expert 3's thirty-one operations, ending with the addition of its term onto the running sum. -/
abbrev opsE3 : List (HloOp τ sig (Elt F)) :=
  [ unary main_arg3 main_v71 ((extractStridedSlice S1x5632x2048 ![3, 0, 0] · slices_S8x5632x2048_S1x5632x2048_3_0_0) : (⟨S8x5632x2048, .f32⟩ : BufTy).Contents (Elt F) → (⟨S1x5632x2048, .f32⟩ : BufTy).Contents (Elt F)),
    reshape main_v71 main_v72 rfl shapeCasts_S1x5632x2048_S5632x2048,
    unary main_v72 main_v73 ((transpose S2048x5632 [1, 0] · transposes_S5632x2048_S2048x5632_1_0) : (⟨S5632x2048, .f32⟩ : BufTy).Contents (Elt F) → (⟨S2048x5632, .f32⟩ : BufTy).Contents (Elt F)),
    binary main_arg0 main_v73 main_v74 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v74) (TRef.of (T := ⟨S4096x5632, .f32⟩) main_call3_v0) Host.negf,
    TRef.unary (TRef.of (T := ⟨S4096x5632, .f32⟩) main_call3_v0) (TRef.of (T := ⟨S4096x5632, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S4096x5632, .f32⟩) main_call3_v2) (broadcastInDim S4096x5632 ![] bcast_S_S4096x5632),
    TRef.binary (TRef.of (T := ⟨S4096x5632, .f32⟩) main_call3_v2) (TRef.of (T := ⟨S4096x5632, .f32⟩) main_call3_v1) (TRef.of (T := ⟨S4096x5632, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S4096x5632, .f32⟩) main_call3_v4) (broadcastInDim S4096x5632 ![] bcast_S_S4096x5632),
    TRef.binary (TRef.of (T := ⟨S4096x5632, .f32⟩) main_call3_v4) (TRef.of (T := ⟨S4096x5632, .f32⟩) main_call3_v3) (TRef.of (T := ⟨S4096x5632, .f32⟩) main_call3_v5) Host.divf,
    TRef.binary (TRef.of (T := ⟨S4096x5632, .f32⟩) main_v74) (TRef.of (T := ⟨S4096x5632, .f32⟩) main_call3_v5) (TRef.of (T := ⟨S4096x5632, .f32⟩) main_v75) mulf,
    unary main_arg5 main_v76 ((extractStridedSlice S1x5632x2048 ![3, 0, 0] · slices_S8x5632x2048_S1x5632x2048_3_0_0) : (⟨S8x5632x2048, .f32⟩ : BufTy).Contents (Elt F) → (⟨S1x5632x2048, .f32⟩ : BufTy).Contents (Elt F)),
    reshape main_v76 main_v77 rfl shapeCasts_S1x5632x2048_S5632x2048,
    unary main_v77 main_v78 ((transpose S2048x5632 [1, 0] · transposes_S5632x2048_S2048x5632_1_0) : (⟨S5632x2048, .f32⟩ : BufTy).Contents (Elt F) → (⟨S2048x5632, .f32⟩ : BufTy).Contents (Elt F)),
    binary main_arg0 main_v78 main_v79 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v75 main_v79 main_v80 (mulf : (⟨S4096x5632, .f32⟩ : BufTy).Contents (Elt F) → (⟨S4096x5632, .f32⟩ : BufTy).Contents (Elt F) → (⟨S4096x5632, .f32⟩ : BufTy).Contents (Elt F)),
    unary main_arg4 main_v81 ((extractStridedSlice S1x2048x5632 ![3, 0, 0] · slices_S8x2048x5632_S1x2048x5632_3_0_0) : (⟨S8x2048x5632, .f32⟩ : BufTy).Contents (Elt F) → (⟨S1x2048x5632, .f32⟩ : BufTy).Contents (Elt F)),
    reshape main_v81 main_v82 rfl shapeCasts_S1x2048x5632_S2048x5632,
    unary main_v82 main_v83 ((transpose S5632x2048 [1, 0] · transposes_S2048x5632_S5632x2048_1_0) : (⟨S2048x5632, .f32⟩ : BufTy).Contents (Elt F) → (⟨S5632x2048, .f32⟩ : BufTy).Contents (Elt F)),
    binary main_v80 main_v83 main_v84 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v85 ((extractStridedSlice S4096x1 ![0, 3] · slices_S4096x8_S4096x1_0_3) : (⟨S4096x8, .f32⟩ : BufTy).Contents (Elt F) → (⟨S4096x1, .f32⟩ : BufTy).Contents (Elt F)),
    reshape main_v85 main_v86 rfl shapeCasts_S4096x1_S4096,
    unary main_v0 main_v87 ((extractStridedSlice S4096x1 ![0, 3] · slices_S4096x8_S4096x1_0_3) : (⟨S4096x8, .f32⟩ : BufTy).Contents (Elt F) → (⟨S4096x1, .f32⟩ : BufTy).Contents (Elt F)),
    reshape main_v87 main_v88 rfl shapeCasts_S4096x1_S4096,
    binary main_v86 main_v88 main_v89 (mulf : (⟨S4096, .f32⟩ : BufTy).Contents (Elt F) → (⟨S4096, .f32⟩ : BufTy).Contents (Elt F) → (⟨S4096, .f32⟩ : BufTy).Contents (Elt F)),
    unary main_v89 main_v90 (broadcastInDim S4096x1 ![0] bcast_S4096_S4096x1_0 : (⟨S4096, .f32⟩ : BufTy).Contents (Elt F) → (⟨S4096x1, .f32⟩ : BufTy).Contents (Elt F)),
    unary main_v90 main_v91 (broadcastInDim S4096x2048 ![0, 1] bcast_S4096x1_S4096x2048_0_1 : (⟨S4096x1, .f32⟩ : BufTy).Contents (Elt F) → (⟨S4096x2048, .f32⟩ : BufTy).Contents (Elt F)),
    binary main_v91 main_v84 main_v92 (mulf : (⟨S4096x2048, .f32⟩ : BufTy).Contents (Elt F) → (⟨S4096x2048, .f32⟩ : BufTy).Contents (Elt F) → (⟨S4096x2048, .f32⟩ : BufTy).Contents (Elt F)),
    binary main_v70 main_v92 main_v93 (addf : (⟨S4096x2048, .f32⟩ : BufTy).Contents (Elt F) → (⟨S4096x2048, .f32⟩ : BufTy).Contents (Elt F) → (⟨S4096x2048, .f32⟩ : BufTy).Contents (Elt F)) ]

/-- Expert 4's thirty-one operations, ending with the addition of its term onto the running sum. -/
abbrev opsE4 : List (HloOp τ sig (Elt F)) :=
  [ unary main_arg3 main_v94 ((extractStridedSlice S1x5632x2048 ![4, 0, 0] · slices_S8x5632x2048_S1x5632x2048_4_0_0) : (⟨S8x5632x2048, .f32⟩ : BufTy).Contents (Elt F) → (⟨S1x5632x2048, .f32⟩ : BufTy).Contents (Elt F)),
    reshape main_v94 main_v95 rfl shapeCasts_S1x5632x2048_S5632x2048,
    unary main_v95 main_v96 ((transpose S2048x5632 [1, 0] · transposes_S5632x2048_S2048x5632_1_0) : (⟨S5632x2048, .f32⟩ : BufTy).Contents (Elt F) → (⟨S2048x5632, .f32⟩ : BufTy).Contents (Elt F)),
    binary main_arg0 main_v96 main_v97 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v97) (TRef.of (T := ⟨S4096x5632, .f32⟩) main_call4_v0) Host.negf,
    TRef.unary (TRef.of (T := ⟨S4096x5632, .f32⟩) main_call4_v0) (TRef.of (T := ⟨S4096x5632, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4096x5632, .f32⟩) main_call4_v2) (broadcastInDim S4096x5632 ![] bcast_S_S4096x5632),
    TRef.binary (TRef.of (T := ⟨S4096x5632, .f32⟩) main_call4_v2) (TRef.of (T := ⟨S4096x5632, .f32⟩) main_call4_v1) (TRef.of (T := ⟨S4096x5632, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4096x5632, .f32⟩) main_call4_v4) (broadcastInDim S4096x5632 ![] bcast_S_S4096x5632),
    TRef.binary (TRef.of (T := ⟨S4096x5632, .f32⟩) main_call4_v4) (TRef.of (T := ⟨S4096x5632, .f32⟩) main_call4_v3) (TRef.of (T := ⟨S4096x5632, .f32⟩) main_call4_v5) Host.divf,
    TRef.binary (TRef.of (T := ⟨S4096x5632, .f32⟩) main_v97) (TRef.of (T := ⟨S4096x5632, .f32⟩) main_call4_v5) (TRef.of (T := ⟨S4096x5632, .f32⟩) main_v98) mulf,
    unary main_arg5 main_v99 ((extractStridedSlice S1x5632x2048 ![4, 0, 0] · slices_S8x5632x2048_S1x5632x2048_4_0_0) : (⟨S8x5632x2048, .f32⟩ : BufTy).Contents (Elt F) → (⟨S1x5632x2048, .f32⟩ : BufTy).Contents (Elt F)),
    reshape main_v99 main_v100 rfl shapeCasts_S1x5632x2048_S5632x2048,
    unary main_v100 main_v101 ((transpose S2048x5632 [1, 0] · transposes_S5632x2048_S2048x5632_1_0) : (⟨S5632x2048, .f32⟩ : BufTy).Contents (Elt F) → (⟨S2048x5632, .f32⟩ : BufTy).Contents (Elt F)),
    binary main_arg0 main_v101 main_v102 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v98 main_v102 main_v103 (mulf : (⟨S4096x5632, .f32⟩ : BufTy).Contents (Elt F) → (⟨S4096x5632, .f32⟩ : BufTy).Contents (Elt F) → (⟨S4096x5632, .f32⟩ : BufTy).Contents (Elt F)),
    unary main_arg4 main_v104 ((extractStridedSlice S1x2048x5632 ![4, 0, 0] · slices_S8x2048x5632_S1x2048x5632_4_0_0) : (⟨S8x2048x5632, .f32⟩ : BufTy).Contents (Elt F) → (⟨S1x2048x5632, .f32⟩ : BufTy).Contents (Elt F)),
    reshape main_v104 main_v105 rfl shapeCasts_S1x2048x5632_S2048x5632,
    unary main_v105 main_v106 ((transpose S5632x2048 [1, 0] · transposes_S2048x5632_S5632x2048_1_0) : (⟨S2048x5632, .f32⟩ : BufTy).Contents (Elt F) → (⟨S5632x2048, .f32⟩ : BufTy).Contents (Elt F)),
    binary main_v103 main_v106 main_v107 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v108 ((extractStridedSlice S4096x1 ![0, 4] · slices_S4096x8_S4096x1_0_4) : (⟨S4096x8, .f32⟩ : BufTy).Contents (Elt F) → (⟨S4096x1, .f32⟩ : BufTy).Contents (Elt F)),
    reshape main_v108 main_v109 rfl shapeCasts_S4096x1_S4096,
    unary main_v0 main_v110 ((extractStridedSlice S4096x1 ![0, 4] · slices_S4096x8_S4096x1_0_4) : (⟨S4096x8, .f32⟩ : BufTy).Contents (Elt F) → (⟨S4096x1, .f32⟩ : BufTy).Contents (Elt F)),
    reshape main_v110 main_v111 rfl shapeCasts_S4096x1_S4096,
    binary main_v109 main_v111 main_v112 (mulf : (⟨S4096, .f32⟩ : BufTy).Contents (Elt F) → (⟨S4096, .f32⟩ : BufTy).Contents (Elt F) → (⟨S4096, .f32⟩ : BufTy).Contents (Elt F)),
    unary main_v112 main_v113 (broadcastInDim S4096x1 ![0] bcast_S4096_S4096x1_0 : (⟨S4096, .f32⟩ : BufTy).Contents (Elt F) → (⟨S4096x1, .f32⟩ : BufTy).Contents (Elt F)),
    unary main_v113 main_v114 (broadcastInDim S4096x2048 ![0, 1] bcast_S4096x1_S4096x2048_0_1 : (⟨S4096x1, .f32⟩ : BufTy).Contents (Elt F) → (⟨S4096x2048, .f32⟩ : BufTy).Contents (Elt F)),
    binary main_v114 main_v107 main_v115 (mulf : (⟨S4096x2048, .f32⟩ : BufTy).Contents (Elt F) → (⟨S4096x2048, .f32⟩ : BufTy).Contents (Elt F) → (⟨S4096x2048, .f32⟩ : BufTy).Contents (Elt F)),
    binary main_v93 main_v115 main_v116 (addf : (⟨S4096x2048, .f32⟩ : BufTy).Contents (Elt F) → (⟨S4096x2048, .f32⟩ : BufTy).Contents (Elt F) → (⟨S4096x2048, .f32⟩ : BufTy).Contents (Elt F)) ]

/-- Expert 5's thirty-one operations, ending with the addition of its term onto the running sum. -/
abbrev opsE5 : List (HloOp τ sig (Elt F)) :=
  [ unary main_arg3 main_v117 ((extractStridedSlice S1x5632x2048 ![5, 0, 0] · slices_S8x5632x2048_S1x5632x2048_5_0_0) : (⟨S8x5632x2048, .f32⟩ : BufTy).Contents (Elt F) → (⟨S1x5632x2048, .f32⟩ : BufTy).Contents (Elt F)),
    reshape main_v117 main_v118 rfl shapeCasts_S1x5632x2048_S5632x2048,
    unary main_v118 main_v119 ((transpose S2048x5632 [1, 0] · transposes_S5632x2048_S2048x5632_1_0) : (⟨S5632x2048, .f32⟩ : BufTy).Contents (Elt F) → (⟨S2048x5632, .f32⟩ : BufTy).Contents (Elt F)),
    binary main_arg0 main_v119 main_v120 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v120) (TRef.of (T := ⟨S4096x5632, .f32⟩) main_call5_v0) Host.negf,
    TRef.unary (TRef.of (T := ⟨S4096x5632, .f32⟩) main_call5_v0) (TRef.of (T := ⟨S4096x5632, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S4096x5632, .f32⟩) main_call5_v2) (broadcastInDim S4096x5632 ![] bcast_S_S4096x5632),
    TRef.binary (TRef.of (T := ⟨S4096x5632, .f32⟩) main_call5_v2) (TRef.of (T := ⟨S4096x5632, .f32⟩) main_call5_v1) (TRef.of (T := ⟨S4096x5632, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S4096x5632, .f32⟩) main_call5_v4) (broadcastInDim S4096x5632 ![] bcast_S_S4096x5632),
    TRef.binary (TRef.of (T := ⟨S4096x5632, .f32⟩) main_call5_v4) (TRef.of (T := ⟨S4096x5632, .f32⟩) main_call5_v3) (TRef.of (T := ⟨S4096x5632, .f32⟩) main_call5_v5) Host.divf,
    TRef.binary (TRef.of (T := ⟨S4096x5632, .f32⟩) main_v120) (TRef.of (T := ⟨S4096x5632, .f32⟩) main_call5_v5) (TRef.of (T := ⟨S4096x5632, .f32⟩) main_v121) mulf,
    unary main_arg5 main_v122 ((extractStridedSlice S1x5632x2048 ![5, 0, 0] · slices_S8x5632x2048_S1x5632x2048_5_0_0) : (⟨S8x5632x2048, .f32⟩ : BufTy).Contents (Elt F) → (⟨S1x5632x2048, .f32⟩ : BufTy).Contents (Elt F)),
    reshape main_v122 main_v123 rfl shapeCasts_S1x5632x2048_S5632x2048,
    unary main_v123 main_v124 ((transpose S2048x5632 [1, 0] · transposes_S5632x2048_S2048x5632_1_0) : (⟨S5632x2048, .f32⟩ : BufTy).Contents (Elt F) → (⟨S2048x5632, .f32⟩ : BufTy).Contents (Elt F)),
    binary main_arg0 main_v124 main_v125 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v121 main_v125 main_v126 (mulf : (⟨S4096x5632, .f32⟩ : BufTy).Contents (Elt F) → (⟨S4096x5632, .f32⟩ : BufTy).Contents (Elt F) → (⟨S4096x5632, .f32⟩ : BufTy).Contents (Elt F)),
    unary main_arg4 main_v127 ((extractStridedSlice S1x2048x5632 ![5, 0, 0] · slices_S8x2048x5632_S1x2048x5632_5_0_0) : (⟨S8x2048x5632, .f32⟩ : BufTy).Contents (Elt F) → (⟨S1x2048x5632, .f32⟩ : BufTy).Contents (Elt F)),
    reshape main_v127 main_v128 rfl shapeCasts_S1x2048x5632_S2048x5632,
    unary main_v128 main_v129 ((transpose S5632x2048 [1, 0] · transposes_S2048x5632_S5632x2048_1_0) : (⟨S2048x5632, .f32⟩ : BufTy).Contents (Elt F) → (⟨S5632x2048, .f32⟩ : BufTy).Contents (Elt F)),
    binary main_v126 main_v129 main_v130 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v131 ((extractStridedSlice S4096x1 ![0, 5] · slices_S4096x8_S4096x1_0_5) : (⟨S4096x8, .f32⟩ : BufTy).Contents (Elt F) → (⟨S4096x1, .f32⟩ : BufTy).Contents (Elt F)),
    reshape main_v131 main_v132 rfl shapeCasts_S4096x1_S4096,
    unary main_v0 main_v133 ((extractStridedSlice S4096x1 ![0, 5] · slices_S4096x8_S4096x1_0_5) : (⟨S4096x8, .f32⟩ : BufTy).Contents (Elt F) → (⟨S4096x1, .f32⟩ : BufTy).Contents (Elt F)),
    reshape main_v133 main_v134 rfl shapeCasts_S4096x1_S4096,
    binary main_v132 main_v134 main_v135 (mulf : (⟨S4096, .f32⟩ : BufTy).Contents (Elt F) → (⟨S4096, .f32⟩ : BufTy).Contents (Elt F) → (⟨S4096, .f32⟩ : BufTy).Contents (Elt F)),
    unary main_v135 main_v136 (broadcastInDim S4096x1 ![0] bcast_S4096_S4096x1_0 : (⟨S4096, .f32⟩ : BufTy).Contents (Elt F) → (⟨S4096x1, .f32⟩ : BufTy).Contents (Elt F)),
    unary main_v136 main_v137 (broadcastInDim S4096x2048 ![0, 1] bcast_S4096x1_S4096x2048_0_1 : (⟨S4096x1, .f32⟩ : BufTy).Contents (Elt F) → (⟨S4096x2048, .f32⟩ : BufTy).Contents (Elt F)),
    binary main_v137 main_v130 main_v138 (mulf : (⟨S4096x2048, .f32⟩ : BufTy).Contents (Elt F) → (⟨S4096x2048, .f32⟩ : BufTy).Contents (Elt F) → (⟨S4096x2048, .f32⟩ : BufTy).Contents (Elt F)),
    binary main_v116 main_v138 main_v139 (addf : (⟨S4096x2048, .f32⟩ : BufTy).Contents (Elt F) → (⟨S4096x2048, .f32⟩ : BufTy).Contents (Elt F) → (⟨S4096x2048, .f32⟩ : BufTy).Contents (Elt F)) ]

/-- Expert 6's thirty-one operations, ending with the addition of its term onto the running sum. -/
abbrev opsE6 : List (HloOp τ sig (Elt F)) :=
  [ unary main_arg3 main_v140 ((extractStridedSlice S1x5632x2048 ![6, 0, 0] · slices_S8x5632x2048_S1x5632x2048_6_0_0) : (⟨S8x5632x2048, .f32⟩ : BufTy).Contents (Elt F) → (⟨S1x5632x2048, .f32⟩ : BufTy).Contents (Elt F)),
    reshape main_v140 main_v141 rfl shapeCasts_S1x5632x2048_S5632x2048,
    unary main_v141 main_v142 ((transpose S2048x5632 [1, 0] · transposes_S5632x2048_S2048x5632_1_0) : (⟨S5632x2048, .f32⟩ : BufTy).Contents (Elt F) → (⟨S2048x5632, .f32⟩ : BufTy).Contents (Elt F)),
    binary main_arg0 main_v142 main_v143 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v143) (TRef.of (T := ⟨S4096x5632, .f32⟩) main_call6_v0) Host.negf,
    TRef.unary (TRef.of (T := ⟨S4096x5632, .f32⟩) main_call6_v0) (TRef.of (T := ⟨S4096x5632, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S4096x5632, .f32⟩) main_call6_v2) (broadcastInDim S4096x5632 ![] bcast_S_S4096x5632),
    TRef.binary (TRef.of (T := ⟨S4096x5632, .f32⟩) main_call6_v2) (TRef.of (T := ⟨S4096x5632, .f32⟩) main_call6_v1) (TRef.of (T := ⟨S4096x5632, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S4096x5632, .f32⟩) main_call6_v4) (broadcastInDim S4096x5632 ![] bcast_S_S4096x5632),
    TRef.binary (TRef.of (T := ⟨S4096x5632, .f32⟩) main_call6_v4) (TRef.of (T := ⟨S4096x5632, .f32⟩) main_call6_v3) (TRef.of (T := ⟨S4096x5632, .f32⟩) main_call6_v5) Host.divf,
    TRef.binary (TRef.of (T := ⟨S4096x5632, .f32⟩) main_v143) (TRef.of (T := ⟨S4096x5632, .f32⟩) main_call6_v5) (TRef.of (T := ⟨S4096x5632, .f32⟩) main_v144) mulf,
    unary main_arg5 main_v145 ((extractStridedSlice S1x5632x2048 ![6, 0, 0] · slices_S8x5632x2048_S1x5632x2048_6_0_0) : (⟨S8x5632x2048, .f32⟩ : BufTy).Contents (Elt F) → (⟨S1x5632x2048, .f32⟩ : BufTy).Contents (Elt F)),
    reshape main_v145 main_v146 rfl shapeCasts_S1x5632x2048_S5632x2048,
    unary main_v146 main_v147 ((transpose S2048x5632 [1, 0] · transposes_S5632x2048_S2048x5632_1_0) : (⟨S5632x2048, .f32⟩ : BufTy).Contents (Elt F) → (⟨S2048x5632, .f32⟩ : BufTy).Contents (Elt F)),
    binary main_arg0 main_v147 main_v148 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v144 main_v148 main_v149 (mulf : (⟨S4096x5632, .f32⟩ : BufTy).Contents (Elt F) → (⟨S4096x5632, .f32⟩ : BufTy).Contents (Elt F) → (⟨S4096x5632, .f32⟩ : BufTy).Contents (Elt F)),
    unary main_arg4 main_v150 ((extractStridedSlice S1x2048x5632 ![6, 0, 0] · slices_S8x2048x5632_S1x2048x5632_6_0_0) : (⟨S8x2048x5632, .f32⟩ : BufTy).Contents (Elt F) → (⟨S1x2048x5632, .f32⟩ : BufTy).Contents (Elt F)),
    reshape main_v150 main_v151 rfl shapeCasts_S1x2048x5632_S2048x5632,
    unary main_v151 main_v152 ((transpose S5632x2048 [1, 0] · transposes_S2048x5632_S5632x2048_1_0) : (⟨S2048x5632, .f32⟩ : BufTy).Contents (Elt F) → (⟨S5632x2048, .f32⟩ : BufTy).Contents (Elt F)),
    binary main_v149 main_v152 main_v153 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v154 ((extractStridedSlice S4096x1 ![0, 6] · slices_S4096x8_S4096x1_0_6) : (⟨S4096x8, .f32⟩ : BufTy).Contents (Elt F) → (⟨S4096x1, .f32⟩ : BufTy).Contents (Elt F)),
    reshape main_v154 main_v155 rfl shapeCasts_S4096x1_S4096,
    unary main_v0 main_v156 ((extractStridedSlice S4096x1 ![0, 6] · slices_S4096x8_S4096x1_0_6) : (⟨S4096x8, .f32⟩ : BufTy).Contents (Elt F) → (⟨S4096x1, .f32⟩ : BufTy).Contents (Elt F)),
    reshape main_v156 main_v157 rfl shapeCasts_S4096x1_S4096,
    binary main_v155 main_v157 main_v158 (mulf : (⟨S4096, .f32⟩ : BufTy).Contents (Elt F) → (⟨S4096, .f32⟩ : BufTy).Contents (Elt F) → (⟨S4096, .f32⟩ : BufTy).Contents (Elt F)),
    unary main_v158 main_v159 (broadcastInDim S4096x1 ![0] bcast_S4096_S4096x1_0 : (⟨S4096, .f32⟩ : BufTy).Contents (Elt F) → (⟨S4096x1, .f32⟩ : BufTy).Contents (Elt F)),
    unary main_v159 main_v160 (broadcastInDim S4096x2048 ![0, 1] bcast_S4096x1_S4096x2048_0_1 : (⟨S4096x1, .f32⟩ : BufTy).Contents (Elt F) → (⟨S4096x2048, .f32⟩ : BufTy).Contents (Elt F)),
    binary main_v160 main_v153 main_v161 (mulf : (⟨S4096x2048, .f32⟩ : BufTy).Contents (Elt F) → (⟨S4096x2048, .f32⟩ : BufTy).Contents (Elt F) → (⟨S4096x2048, .f32⟩ : BufTy).Contents (Elt F)),
    binary main_v139 main_v161 main_v162 (addf : (⟨S4096x2048, .f32⟩ : BufTy).Contents (Elt F) → (⟨S4096x2048, .f32⟩ : BufTy).Contents (Elt F) → (⟨S4096x2048, .f32⟩ : BufTy).Contents (Elt F)) ]

/-- Expert 7's thirty-one operations, ending with the addition of its term onto the running sum. -/
abbrev opsE7 : List (HloOp τ sig (Elt F)) :=
  [ unary main_arg3 main_v163 ((extractStridedSlice S1x5632x2048 ![7, 0, 0] · slices_S8x5632x2048_S1x5632x2048_7_0_0) : (⟨S8x5632x2048, .f32⟩ : BufTy).Contents (Elt F) → (⟨S1x5632x2048, .f32⟩ : BufTy).Contents (Elt F)),
    reshape main_v163 main_v164 rfl shapeCasts_S1x5632x2048_S5632x2048,
    unary main_v164 main_v165 ((transpose S2048x5632 [1, 0] · transposes_S5632x2048_S2048x5632_1_0) : (⟨S5632x2048, .f32⟩ : BufTy).Contents (Elt F) → (⟨S2048x5632, .f32⟩ : BufTy).Contents (Elt F)),
    binary main_arg0 main_v165 main_v166 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    TRef.unary (TRef.of (T := ⟨S4096x5632, .f32⟩) main_v166) (TRef.of (T := ⟨S4096x5632, .f32⟩) main_call7_v0) Host.negf,
    TRef.unary (TRef.of (T := ⟨S4096x5632, .f32⟩) main_call7_v0) (TRef.of (T := ⟨S4096x5632, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S4096x5632, .f32⟩) main_call7_v2) (broadcastInDim S4096x5632 ![] bcast_S_S4096x5632),
    TRef.binary (TRef.of (T := ⟨S4096x5632, .f32⟩) main_call7_v2) (TRef.of (T := ⟨S4096x5632, .f32⟩) main_call7_v1) (TRef.of (T := ⟨S4096x5632, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S4096x5632, .f32⟩) main_call7_v4) (broadcastInDim S4096x5632 ![] bcast_S_S4096x5632),
    TRef.binary (TRef.of (T := ⟨S4096x5632, .f32⟩) main_call7_v4) (TRef.of (T := ⟨S4096x5632, .f32⟩) main_call7_v3) (TRef.of (T := ⟨S4096x5632, .f32⟩) main_call7_v5) Host.divf,
    TRef.binary (TRef.of (T := ⟨S4096x5632, .f32⟩) main_v166) (TRef.of (T := ⟨S4096x5632, .f32⟩) main_call7_v5) (TRef.of (T := ⟨S4096x5632, .f32⟩) main_v167) mulf,
    unary main_arg5 main_v168 ((extractStridedSlice S1x5632x2048 ![7, 0, 0] · slices_S8x5632x2048_S1x5632x2048_7_0_0) : (⟨S8x5632x2048, .f32⟩ : BufTy).Contents (Elt F) → (⟨S1x5632x2048, .f32⟩ : BufTy).Contents (Elt F)),
    reshape main_v168 main_v169 rfl shapeCasts_S1x5632x2048_S5632x2048,
    unary main_v169 main_v170 ((transpose S2048x5632 [1, 0] · transposes_S5632x2048_S2048x5632_1_0) : (⟨S5632x2048, .f32⟩ : BufTy).Contents (Elt F) → (⟨S2048x5632, .f32⟩ : BufTy).Contents (Elt F)),
    binary main_arg0 main_v170 main_v171 ((fun l r => Host.dotGeneral dot_S4096x2048_S2048x5632_S4096x5632_1_0_0_1_n_n none l r) : (⟨S4096x2048, .f32⟩ : BufTy).Contents (Elt F) → (⟨S2048x5632, .f32⟩ : BufTy).Contents (Elt F) → (⟨S4096x5632, .f32⟩ : BufTy).Contents (Elt F)),
    binary main_v167 main_v171 main_v172 (mulf : (⟨S4096x5632, .f32⟩ : BufTy).Contents (Elt F) → (⟨S4096x5632, .f32⟩ : BufTy).Contents (Elt F) → (⟨S4096x5632, .f32⟩ : BufTy).Contents (Elt F)),
    unary main_arg4 main_v173 ((extractStridedSlice S1x2048x5632 ![7, 0, 0] · slices_S8x2048x5632_S1x2048x5632_7_0_0) : (⟨S8x2048x5632, .f32⟩ : BufTy).Contents (Elt F) → (⟨S1x2048x5632, .f32⟩ : BufTy).Contents (Elt F)),
    reshape main_v173 main_v174 rfl shapeCasts_S1x2048x5632_S2048x5632,
    unary main_v174 main_v175 ((transpose S5632x2048 [1, 0] · transposes_S2048x5632_S5632x2048_1_0) : (⟨S2048x5632, .f32⟩ : BufTy).Contents (Elt F) → (⟨S5632x2048, .f32⟩ : BufTy).Contents (Elt F)),
    binary main_v172 main_v175 main_v176 ((fun l r => Host.dotGeneral dot_S4096x5632_S5632x2048_S4096x2048_1_0_0_1_n_n none l r) : (⟨S4096x5632, .f32⟩ : BufTy).Contents (Elt F) → (⟨S5632x2048, .f32⟩ : BufTy).Contents (Elt F) → (⟨S4096x2048, .f32⟩ : BufTy).Contents (Elt F)),
    unary main_arg2 main_v177 ((extractStridedSlice S4096x1 ![0, 7] · slices_S4096x8_S4096x1_0_7) : (⟨S4096x8, .f32⟩ : BufTy).Contents (Elt F) → (⟨S4096x1, .f32⟩ : BufTy).Contents (Elt F)),
    reshape main_v177 main_v178 rfl shapeCasts_S4096x1_S4096,
    unary main_v0 main_v179 ((extractStridedSlice S4096x1 ![0, 7] · slices_S4096x8_S4096x1_0_7) : (⟨S4096x8, .f32⟩ : BufTy).Contents (Elt F) → (⟨S4096x1, .f32⟩ : BufTy).Contents (Elt F)),
    reshape main_v179 main_v180 rfl shapeCasts_S4096x1_S4096,
    binary main_v178 main_v180 main_v181 (mulf : (⟨S4096, .f32⟩ : BufTy).Contents (Elt F) → (⟨S4096, .f32⟩ : BufTy).Contents (Elt F) → (⟨S4096, .f32⟩ : BufTy).Contents (Elt F)),
    unary main_v181 main_v182 (broadcastInDim S4096x1 ![0] bcast_S4096_S4096x1_0 : (⟨S4096, .f32⟩ : BufTy).Contents (Elt F) → (⟨S4096x1, .f32⟩ : BufTy).Contents (Elt F)),
    unary main_v182 main_v183 (broadcastInDim S4096x2048 ![0, 1] bcast_S4096x1_S4096x2048_0_1 : (⟨S4096x1, .f32⟩ : BufTy).Contents (Elt F) → (⟨S4096x2048, .f32⟩ : BufTy).Contents (Elt F)),
    binary main_v183 main_v176 main_v184 (mulf : (⟨S4096x2048, .f32⟩ : BufTy).Contents (Elt F) → (⟨S4096x2048, .f32⟩ : BufTy).Contents (Elt F) → (⟨S4096x2048, .f32⟩ : BufTy).Contents (Elt F)),
    binary main_v162 main_v184 main_v185 (addf : (⟨S4096x2048, .f32⟩ : BufTy).Contents (Elt F) → (⟨S4096x2048, .f32⟩ : BufTy).Contents (Elt F) → (⟨S4096x2048, .f32⟩ : BufTy).Contents (Elt F)) ]

/-- @main's 251 operations, in order: the preparation, then the eight experts. -/
abbrev ops : List (HloOp τ sig (Elt F)) :=
  ops0 ++ opsE0 ++ opsE1 ++ opsE2 ++ opsE3 ++ opsE4 ++ opsE5 ++ opsE6 ++ opsE7

end Cert.RefResult

end
-- ==== Proof.RefAfter.lean ====
/-
  What the reference program's buffers hold after its operations, one expert at a time.

  The reference's 251 host operations are three preparing ones and then, for each of the eight experts, thirty-one
  operations that read the six arguments (and the routing indices as floats) and the running sum, and leave the
  running sum plus that expert's term. Run from any buffer contents: the preparation leaves the indices as floats and
  an array of zeros; each expert's operations write only their own thirty-one buffers, so the arguments pass through
  them unchanged, and their last buffer holds the sum they found plus the expert's term of the arguments. Chaining
  the nine pieces, the program's last buffer holds the eight terms added one after the other onto zero, and the six
  arguments are as they were.
-/
import proofs.«161697_j70901320122868_2_alg».proof.Proof.RefOps
import proofs.«161697_j70901320122868_2_alg».proof.Proof.RefResult

noncomputable section

namespace Cert.RefResult

open Cert.ReferenceIdeal Cert.ReferenceIdeal.Gen Idealize.ShloMosaic Idealize.ShloMosaic.TcCoe Idealize.SL.Sem Idealize.ShloMosaic.StableHlo
open Cert.RefExpert

/-! ## Running two lists one after the other -/

/-- What the buffers hold after two lists of operations run one after the other: the second list run from what the
    first leaves. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

/-- An operation that writes the one buffer `y`, a member of the list `W`, writes inside `W`. -/
theorem writes_sub_of_mem {τ : Topo} {sig : RefSig} {Val : EltTy → Type} {W : List (Ref sig .tc)} {op : HloOp τ sig Val}
    {y : Ref sig .tc} (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers' contents on one device, at the ideal values. -/
abbrev Vals : Type := Valuation τ sig (Elt Ideal)

/-! ## The preparation -/

/-- The buffers the three preparing operations write. -/
abbrev W0 : List (Ref sig .tc) := [main_v0, main_cst, main_v1]

theorem ops0_writes : (ops0 (F := Ideal)).Forall fun op => op.writes ⊆ (W0.map (Proc.devRef (τ := τ) .tc)).toFinset :=
  ⟨writes_sub_of_mem (y := main_v0) rfl (by decide),
    writes_sub_of_mem (y := main_cst) rfl (by decide),
    writes_sub_of_mem (y := main_v1) rfl (by decide)⟩

/-- A buffer the preparation does not write keeps its contents. -/
theorem ops0_keep (V : Vals) {r : Ref sig .tc} (h : r ∉ W0) :
    after (ops0 (F := Ideal)) V (Proc.devRef .tc r) = V (Proc.devRef .tc r) :=
  after_of_writes_sub ops0 V ops0_writes h

/-- After the preparation the routing indices are there as floats … -/
theorem ops0_idx (V : Vals) :
    (after (ops0 (F := Ideal)) V (Proc.devRef .tc main_v0) : FVec Ideal S4096x8 .f32)
      = sitofp (F := Ideal) .f32 (V (Proc.devRef .tc main_arg1) : IVec S4096x8 32) := by
  simp only [ops0]
  after_results_simp <;> rfl

/-- … and the running sum starts as the array of zeros. -/
theorem ops0_zeros (V : Vals) :
    (after (ops0 (F := Ideal)) V (Proc.devRef .tc main_v1) : FVec Ideal S4096x2048 .f32)
      = broadcastInDim S4096x2048 ![] bcast_S_S4096x2048 (constant (F := Ideal) S_ .f32 0x00000000#32) := by
  simp only [ops0]
  after_results_simp <;> rfl

/-! ## The inputs, carried along

`Inputs V' V`: the buffers `V'` still hold the six arguments of `V`, and the routing indices converted to floats. -/

structure Inputs (V' V : Vals) : Prop where
  x : V' (Proc.devRef .tc main_arg0) = V (Proc.devRef .tc main_arg0)
  i : V' (Proc.devRef .tc main_arg1) = V (Proc.devRef .tc main_arg1)
  w : V' (Proc.devRef .tc main_arg2) = V (Proc.devRef .tc main_arg2)
  w1 : V' (Proc.devRef .tc main_arg3) = V (Proc.devRef .tc main_arg3)
  w2 : V' (Proc.devRef .tc main_arg4) = V (Proc.devRef .tc main_arg4)
  w3 : V' (Proc.devRef .tc main_arg5) = V (Proc.devRef .tc main_arg5)
  idx : (V' (Proc.devRef .tc main_v0) : FVec Ideal S4096x8 .f32) = sitofp (F := Ideal) .f32 (V (Proc.devRef .tc main_arg1) : IVec S4096x8 32)

theorem inputs0 (V : Vals) : Inputs (after (ops0 (F := Ideal)) V) V where
  x := ops0_keep V (by decide)
  i := ops0_keep V (by decide)
  w := ops0_keep V (by decide)
  w1 := ops0_keep V (by decide)
  w2 := ops0_keep V (by decide)
  w3 := ops0_keep V (by decide)
  idx := ops0_idx V

/-! ## One expert at a time -/

/-- The buffers expert 0's operations write. -/
abbrev WE0 : List (Ref sig .tc) := [main_v2, main_v3, main_v4, main_v5, main_call0_v0, main_call0_v1, main_call0_cst, main_call0_v2, main_call0_v3, main_call0_cst_0, main_call0_v4, main_call0_v5, main_v6, main_v7, main_v8, main_v9, main_v10, main_v11, main_v12, main_v13, main_v14, main_v15, main_v16, main_v17, main_v18, main_v19, main_v20, main_v21, main_v22, main_v23, main_v24]

theorem opsE0_writes : (opsE0 (F := Ideal)).Forall fun op => op.writes ⊆ (WE0.map (Proc.devRef (τ := τ) .tc)).toFinset :=
  ⟨writes_sub_of_mem (y := main_v2) rfl (by decide),
    writes_sub_of_mem (y := main_v3) rfl (by decide),
    writes_sub_of_mem (y := main_v4) rfl (by decide),
    writes_sub_of_mem (y := main_v5) rfl (by decide),
    writes_sub_of_mem (y := main_call0_v0) rfl (by decide),
    writes_sub_of_mem (y := main_call0_v1) rfl (by decide),
    writes_sub_of_mem (y := main_call0_cst) rfl (by decide),
    writes_sub_of_mem (y := main_call0_v2) rfl (by decide),
    writes_sub_of_mem (y := main_call0_v3) rfl (by decide),
    writes_sub_of_mem (y := main_call0_cst_0) rfl (by decide),
    writes_sub_of_mem (y := main_call0_v4) rfl (by decide),
    writes_sub_of_mem (y := main_call0_v5) rfl (by decide),
    writes_sub_of_mem (y := main_v6) rfl (by decide),
    writes_sub_of_mem (y := main_v7) rfl (by decide),
    writes_sub_of_mem (y := main_v8) rfl (by decide),
    writes_sub_of_mem (y := main_v9) rfl (by decide),
    writes_sub_of_mem (y := main_v10) rfl (by decide),
    writes_sub_of_mem (y := main_v11) rfl (by decide),
    writes_sub_of_mem (y := main_v12) rfl (by decide),
    writes_sub_of_mem (y := main_v13) rfl (by decide),
    writes_sub_of_mem (y := main_v14) rfl (by decide),
    writes_sub_of_mem (y := main_v15) rfl (by decide),
    writes_sub_of_mem (y := main_v16) rfl (by decide),
    writes_sub_of_mem (y := main_v17) rfl (by decide),
    writes_sub_of_mem (y := main_v18) rfl (by decide),
    writes_sub_of_mem (y := main_v19) rfl (by decide),
    writes_sub_of_mem (y := main_v20) rfl (by decide),
    writes_sub_of_mem (y := main_v21) rfl (by decide),
    writes_sub_of_mem (y := main_v22) rfl (by decide),
    writes_sub_of_mem (y := main_v23) rfl (by decide),
    writes_sub_of_mem (y := main_v24) rfl (by decide)⟩

/-- A buffer expert 0's operations do not write keeps its contents. -/
theorem opsE0_keep (V : Vals) {r : Ref sig .tc} (h : r ∉ WE0) :
    after (opsE0 (F := Ideal)) V (Proc.devRef .tc r) = V (Proc.devRef .tc r) :=
  after_of_writes_sub opsE0 V opsE0_writes h

set_option maxRecDepth 8192 in
/-- Expert 0's operations leave, in their last buffer, the running sum they found plus the expert's term of the
    inputs they found. -/
theorem opsE0_sum (V : Vals) :
    (after (opsE0 (F := Ideal)) V (Proc.devRef .tc main_v24) : FVec Ideal S4096x2048 .f32)
      = addf (V (Proc.devRef .tc main_v1) : FVec Ideal S4096x2048 .f32)
          (term 0 slices_S4096x8_S4096x1_0_0 slices_S8x5632x2048_S1x5632x2048_0_0_0 slices_S8x2048x5632_S1x2048x5632_0_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE0]
  after_results_simp <;> rfl

theorem inputsE0 {V' V : Vals} (h : Inputs V' V) : Inputs (after (opsE0 (F := Ideal)) V') V where
  x := (opsE0_keep V' (by decide)).trans h.x
  i := (opsE0_keep V' (by decide)).trans h.i
  w := (opsE0_keep V' (by decide)).trans h.w
  w1 := (opsE0_keep V' (by decide)).trans h.w1
  w2 := (opsE0_keep V' (by decide)).trans h.w2
  w3 := (opsE0_keep V' (by decide)).trans h.w3
  idx := (opsE0_keep V' (by decide)).trans h.idx

/-- With the inputs intact, expert 0's operations add the expert's term of the ARGUMENTS onto the running sum. -/
theorem stepE0 {V' V : Vals} (h : Inputs V' V) :
    (after (opsE0 (F := Ideal)) V' (Proc.devRef .tc main_v24) : FVec Ideal S4096x2048 .f32)
      = addf (V' (Proc.devRef .tc main_v1) : FVec Ideal S4096x2048 .f32)
          (term 0 slices_S4096x8_S4096x1_0_0 slices_S8x5632x2048_S1x5632x2048_0_0_0 slices_S8x2048x5632_S1x2048x5632_0_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE0_sum, h.x, h.idx, h.w, h.w1, h.w2, h.w3]

/-- The buffers expert 1's operations write. -/
abbrev WE1 : List (Ref sig .tc) := [main_v25, main_v26, main_v27, main_v28, main_call1_v0, main_call1_v1, main_call1_cst, main_call1_v2, main_call1_v3, main_call1_cst_0, main_call1_v4, main_call1_v5, main_v29, main_v30, main_v31, main_v32, main_v33, main_v34, main_v35, main_v36, main_v37, main_v38, main_v39, main_v40, main_v41, main_v42, main_v43, main_v44, main_v45, main_v46, main_v47]

theorem opsE1_writes : (opsE1 (F := Ideal)).Forall fun op => op.writes ⊆ (WE1.map (Proc.devRef (τ := τ) .tc)).toFinset :=
  ⟨writes_sub_of_mem (y := main_v25) rfl (by decide),
    writes_sub_of_mem (y := main_v26) rfl (by decide),
    writes_sub_of_mem (y := main_v27) rfl (by decide),
    writes_sub_of_mem (y := main_v28) rfl (by decide),
    writes_sub_of_mem (y := main_call1_v0) rfl (by decide),
    writes_sub_of_mem (y := main_call1_v1) rfl (by decide),
    writes_sub_of_mem (y := main_call1_cst) rfl (by decide),
    writes_sub_of_mem (y := main_call1_v2) rfl (by decide),
    writes_sub_of_mem (y := main_call1_v3) rfl (by decide),
    writes_sub_of_mem (y := main_call1_cst_0) rfl (by decide),
    writes_sub_of_mem (y := main_call1_v4) rfl (by decide),
    writes_sub_of_mem (y := main_call1_v5) rfl (by decide),
    writes_sub_of_mem (y := main_v29) rfl (by decide),
    writes_sub_of_mem (y := main_v30) rfl (by decide),
    writes_sub_of_mem (y := main_v31) rfl (by decide),
    writes_sub_of_mem (y := main_v32) rfl (by decide),
    writes_sub_of_mem (y := main_v33) rfl (by decide),
    writes_sub_of_mem (y := main_v34) rfl (by decide),
    writes_sub_of_mem (y := main_v35) rfl (by decide),
    writes_sub_of_mem (y := main_v36) rfl (by decide),
    writes_sub_of_mem (y := main_v37) rfl (by decide),
    writes_sub_of_mem (y := main_v38) rfl (by decide),
    writes_sub_of_mem (y := main_v39) rfl (by decide),
    writes_sub_of_mem (y := main_v40) rfl (by decide),
    writes_sub_of_mem (y := main_v41) rfl (by decide),
    writes_sub_of_mem (y := main_v42) rfl (by decide),
    writes_sub_of_mem (y := main_v43) rfl (by decide),
    writes_sub_of_mem (y := main_v44) rfl (by decide),
    writes_sub_of_mem (y := main_v45) rfl (by decide),
    writes_sub_of_mem (y := main_v46) rfl (by decide),
    writes_sub_of_mem (y := main_v47) rfl (by decide)⟩

/-- A buffer expert 1's operations do not write keeps its contents. -/
theorem opsE1_keep (V : Vals) {r : Ref sig .tc} (h : r ∉ WE1) :
    after (opsE1 (F := Ideal)) V (Proc.devRef .tc r) = V (Proc.devRef .tc r) :=
  after_of_writes_sub opsE1 V opsE1_writes h

set_option maxRecDepth 8192 in
/-- Expert 1's operations leave, in their last buffer, the running sum they found plus the expert's term of the
    inputs they found. -/
theorem opsE1_sum (V : Vals) :
    (after (opsE1 (F := Ideal)) V (Proc.devRef .tc main_v47) : FVec Ideal S4096x2048 .f32)
      = addf (V (Proc.devRef .tc main_v24) : FVec Ideal S4096x2048 .f32)
          (term 1 slices_S4096x8_S4096x1_0_1 slices_S8x5632x2048_S1x5632x2048_1_0_0 slices_S8x2048x5632_S1x2048x5632_1_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE1]
  after_results_simp <;> rfl

theorem inputsE1 {V' V : Vals} (h : Inputs V' V) : Inputs (after (opsE1 (F := Ideal)) V') V where
  x := (opsE1_keep V' (by decide)).trans h.x
  i := (opsE1_keep V' (by decide)).trans h.i
  w := (opsE1_keep V' (by decide)).trans h.w
  w1 := (opsE1_keep V' (by decide)).trans h.w1
  w2 := (opsE1_keep V' (by decide)).trans h.w2
  w3 := (opsE1_keep V' (by decide)).trans h.w3
  idx := (opsE1_keep V' (by decide)).trans h.idx

/-- With the inputs intact, expert 1's operations add the expert's term of the ARGUMENTS onto the running sum. -/
theorem stepE1 {V' V : Vals} (h : Inputs V' V) :
    (after (opsE1 (F := Ideal)) V' (Proc.devRef .tc main_v47) : FVec Ideal S4096x2048 .f32)
      = addf (V' (Proc.devRef .tc main_v24) : FVec Ideal S4096x2048 .f32)
          (term 1 slices_S4096x8_S4096x1_0_1 slices_S8x5632x2048_S1x5632x2048_1_0_0 slices_S8x2048x5632_S1x2048x5632_1_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE1_sum, h.x, h.idx, h.w, h.w1, h.w2, h.w3]

/-- The buffers expert 2's operations write. -/
abbrev WE2 : List (Ref sig .tc) := [main_v48, main_v49, main_v50, main_v51, main_call2_v0, main_call2_v1, main_call2_cst, main_call2_v2, main_call2_v3, main_call2_cst_0, main_call2_v4, main_call2_v5, main_v52, main_v53, main_v54, main_v55, main_v56, main_v57, main_v58, main_v59, main_v60, main_v61, main_v62, main_v63, main_v64, main_v65, main_v66, main_v67, main_v68, main_v69, main_v70]

theorem opsE2_writes : (opsE2 (F := Ideal)).Forall fun op => op.writes ⊆ (WE2.map (Proc.devRef (τ := τ) .tc)).toFinset :=
  ⟨writes_sub_of_mem (y := main_v48) rfl (by decide),
    writes_sub_of_mem (y := main_v49) rfl (by decide),
    writes_sub_of_mem (y := main_v50) rfl (by decide),
    writes_sub_of_mem (y := main_v51) rfl (by decide),
    writes_sub_of_mem (y := main_call2_v0) rfl (by decide),
    writes_sub_of_mem (y := main_call2_v1) rfl (by decide),
    writes_sub_of_mem (y := main_call2_cst) rfl (by decide),
    writes_sub_of_mem (y := main_call2_v2) rfl (by decide),
    writes_sub_of_mem (y := main_call2_v3) rfl (by decide),
    writes_sub_of_mem (y := main_call2_cst_0) rfl (by decide),
    writes_sub_of_mem (y := main_call2_v4) rfl (by decide),
    writes_sub_of_mem (y := main_call2_v5) rfl (by decide),
    writes_sub_of_mem (y := main_v52) rfl (by decide),
    writes_sub_of_mem (y := main_v53) rfl (by decide),
    writes_sub_of_mem (y := main_v54) rfl (by decide),
    writes_sub_of_mem (y := main_v55) rfl (by decide),
    writes_sub_of_mem (y := main_v56) rfl (by decide),
    writes_sub_of_mem (y := main_v57) rfl (by decide),
    writes_sub_of_mem (y := main_v58) rfl (by decide),
    writes_sub_of_mem (y := main_v59) rfl (by decide),
    writes_sub_of_mem (y := main_v60) rfl (by decide),
    writes_sub_of_mem (y := main_v61) rfl (by decide),
    writes_sub_of_mem (y := main_v62) rfl (by decide),
    writes_sub_of_mem (y := main_v63) rfl (by decide),
    writes_sub_of_mem (y := main_v64) rfl (by decide),
    writes_sub_of_mem (y := main_v65) rfl (by decide),
    writes_sub_of_mem (y := main_v66) rfl (by decide),
    writes_sub_of_mem (y := main_v67) rfl (by decide),
    writes_sub_of_mem (y := main_v68) rfl (by decide),
    writes_sub_of_mem (y := main_v69) rfl (by decide),
    writes_sub_of_mem (y := main_v70) rfl (by decide)⟩

/-- A buffer expert 2's operations do not write keeps its contents. -/
theorem opsE2_keep (V : Vals) {r : Ref sig .tc} (h : r ∉ WE2) :
    after (opsE2 (F := Ideal)) V (Proc.devRef .tc r) = V (Proc.devRef .tc r) :=
  after_of_writes_sub opsE2 V opsE2_writes h

set_option maxRecDepth 8192 in
/-- Expert 2's operations leave, in their last buffer, the running sum they found plus the expert's term of the
    inputs they found. -/
theorem opsE2_sum (V : Vals) :
    (after (opsE2 (F := Ideal)) V (Proc.devRef .tc main_v70) : FVec Ideal S4096x2048 .f32)
      = addf (V (Proc.devRef .tc main_v47) : FVec Ideal S4096x2048 .f32)
          (term 2 slices_S4096x8_S4096x1_0_2 slices_S8x5632x2048_S1x5632x2048_2_0_0 slices_S8x2048x5632_S1x2048x5632_2_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE2]
  after_results_simp <;> rfl

theorem inputsE2 {V' V : Vals} (h : Inputs V' V) : Inputs (after (opsE2 (F := Ideal)) V') V where
  x := (opsE2_keep V' (by decide)).trans h.x
  i := (opsE2_keep V' (by decide)).trans h.i
  w := (opsE2_keep V' (by decide)).trans h.w
  w1 := (opsE2_keep V' (by decide)).trans h.w1
  w2 := (opsE2_keep V' (by decide)).trans h.w2
  w3 := (opsE2_keep V' (by decide)).trans h.w3
  idx := (opsE2_keep V' (by decide)).trans h.idx

/-- With the inputs intact, expert 2's operations add the expert's term of the ARGUMENTS onto the running sum. -/
theorem stepE2 {V' V : Vals} (h : Inputs V' V) :
    (after (opsE2 (F := Ideal)) V' (Proc.devRef .tc main_v70) : FVec Ideal S4096x2048 .f32)
      = addf (V' (Proc.devRef .tc main_v47) : FVec Ideal S4096x2048 .f32)
          (term 2 slices_S4096x8_S4096x1_0_2 slices_S8x5632x2048_S1x5632x2048_2_0_0 slices_S8x2048x5632_S1x2048x5632_2_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE2_sum, h.x, h.idx, h.w, h.w1, h.w2, h.w3]

/-- The buffers expert 3's operations write. -/
abbrev WE3 : List (Ref sig .tc) := [main_v71, main_v72, main_v73, main_v74, main_call3_v0, main_call3_v1, main_call3_cst, main_call3_v2, main_call3_v3, main_call3_cst_0, main_call3_v4, main_call3_v5, main_v75, main_v76, main_v77, main_v78, main_v79, main_v80, main_v81, main_v82, main_v83, main_v84, main_v85, main_v86, main_v87, main_v88, main_v89, main_v90, main_v91, main_v92, main_v93]

theorem opsE3_writes : (opsE3 (F := Ideal)).Forall fun op => op.writes ⊆ (WE3.map (Proc.devRef (τ := τ) .tc)).toFinset :=
  ⟨writes_sub_of_mem (y := main_v71) rfl (by decide),
    writes_sub_of_mem (y := main_v72) rfl (by decide),
    writes_sub_of_mem (y := main_v73) rfl (by decide),
    writes_sub_of_mem (y := main_v74) rfl (by decide),
    writes_sub_of_mem (y := main_call3_v0) rfl (by decide),
    writes_sub_of_mem (y := main_call3_v1) rfl (by decide),
    writes_sub_of_mem (y := main_call3_cst) rfl (by decide),
    writes_sub_of_mem (y := main_call3_v2) rfl (by decide),
    writes_sub_of_mem (y := main_call3_v3) rfl (by decide),
    writes_sub_of_mem (y := main_call3_cst_0) rfl (by decide),
    writes_sub_of_mem (y := main_call3_v4) rfl (by decide),
    writes_sub_of_mem (y := main_call3_v5) rfl (by decide),
    writes_sub_of_mem (y := main_v75) rfl (by decide),
    writes_sub_of_mem (y := main_v76) rfl (by decide),
    writes_sub_of_mem (y := main_v77) rfl (by decide),
    writes_sub_of_mem (y := main_v78) rfl (by decide),
    writes_sub_of_mem (y := main_v79) rfl (by decide),
    writes_sub_of_mem (y := main_v80) rfl (by decide),
    writes_sub_of_mem (y := main_v81) rfl (by decide),
    writes_sub_of_mem (y := main_v82) rfl (by decide),
    writes_sub_of_mem (y := main_v83) rfl (by decide),
    writes_sub_of_mem (y := main_v84) rfl (by decide),
    writes_sub_of_mem (y := main_v85) rfl (by decide),
    writes_sub_of_mem (y := main_v86) rfl (by decide),
    writes_sub_of_mem (y := main_v87) rfl (by decide),
    writes_sub_of_mem (y := main_v88) rfl (by decide),
    writes_sub_of_mem (y := main_v89) rfl (by decide),
    writes_sub_of_mem (y := main_v90) rfl (by decide),
    writes_sub_of_mem (y := main_v91) rfl (by decide),
    writes_sub_of_mem (y := main_v92) rfl (by decide),
    writes_sub_of_mem (y := main_v93) rfl (by decide)⟩

/-- A buffer expert 3's operations do not write keeps its contents. -/
theorem opsE3_keep (V : Vals) {r : Ref sig .tc} (h : r ∉ WE3) :
    after (opsE3 (F := Ideal)) V (Proc.devRef .tc r) = V (Proc.devRef .tc r) :=
  after_of_writes_sub opsE3 V opsE3_writes h

set_option maxRecDepth 8192 in
/-- Expert 3's operations leave, in their last buffer, the running sum they found plus the expert's term of the
    inputs they found. -/
theorem opsE3_sum (V : Vals) :
    (after (opsE3 (F := Ideal)) V (Proc.devRef .tc main_v93) : FVec Ideal S4096x2048 .f32)
      = addf (V (Proc.devRef .tc main_v70) : FVec Ideal S4096x2048 .f32)
          (term 3 slices_S4096x8_S4096x1_0_3 slices_S8x5632x2048_S1x5632x2048_3_0_0 slices_S8x2048x5632_S1x2048x5632_3_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE3]
  after_results_simp <;> rfl

theorem inputsE3 {V' V : Vals} (h : Inputs V' V) : Inputs (after (opsE3 (F := Ideal)) V') V where
  x := (opsE3_keep V' (by decide)).trans h.x
  i := (opsE3_keep V' (by decide)).trans h.i
  w := (opsE3_keep V' (by decide)).trans h.w
  w1 := (opsE3_keep V' (by decide)).trans h.w1
  w2 := (opsE3_keep V' (by decide)).trans h.w2
  w3 := (opsE3_keep V' (by decide)).trans h.w3
  idx := (opsE3_keep V' (by decide)).trans h.idx

/-- With the inputs intact, expert 3's operations add the expert's term of the ARGUMENTS onto the running sum. -/
theorem stepE3 {V' V : Vals} (h : Inputs V' V) :
    (after (opsE3 (F := Ideal)) V' (Proc.devRef .tc main_v93) : FVec Ideal S4096x2048 .f32)
      = addf (V' (Proc.devRef .tc main_v70) : FVec Ideal S4096x2048 .f32)
          (term 3 slices_S4096x8_S4096x1_0_3 slices_S8x5632x2048_S1x5632x2048_3_0_0 slices_S8x2048x5632_S1x2048x5632_3_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE3_sum, h.x, h.idx, h.w, h.w1, h.w2, h.w3]

/-- The buffers expert 4's operations write. -/
abbrev WE4 : List (Ref sig .tc) := [main_v94, main_v95, main_v96, main_v97, main_call4_v0, main_call4_v1, main_call4_cst, main_call4_v2, main_call4_v3, main_call4_cst_0, main_call4_v4, main_call4_v5, main_v98, main_v99, main_v100, main_v101, main_v102, main_v103, main_v104, main_v105, main_v106, main_v107, main_v108, main_v109, main_v110, main_v111, main_v112, main_v113, main_v114, main_v115, main_v116]

theorem opsE4_writes : (opsE4 (F := Ideal)).Forall fun op => op.writes ⊆ (WE4.map (Proc.devRef (τ := τ) .tc)).toFinset :=
  ⟨writes_sub_of_mem (y := main_v94) rfl (by decide),
    writes_sub_of_mem (y := main_v95) rfl (by decide),
    writes_sub_of_mem (y := main_v96) rfl (by decide),
    writes_sub_of_mem (y := main_v97) rfl (by decide),
    writes_sub_of_mem (y := main_call4_v0) rfl (by decide),
    writes_sub_of_mem (y := main_call4_v1) rfl (by decide),
    writes_sub_of_mem (y := main_call4_cst) rfl (by decide),
    writes_sub_of_mem (y := main_call4_v2) rfl (by decide),
    writes_sub_of_mem (y := main_call4_v3) rfl (by decide),
    writes_sub_of_mem (y := main_call4_cst_0) rfl (by decide),
    writes_sub_of_mem (y := main_call4_v4) rfl (by decide),
    writes_sub_of_mem (y := main_call4_v5) rfl (by decide),
    writes_sub_of_mem (y := main_v98) rfl (by decide),
    writes_sub_of_mem (y := main_v99) rfl (by decide),
    writes_sub_of_mem (y := main_v100) rfl (by decide),
    writes_sub_of_mem (y := main_v101) rfl (by decide),
    writes_sub_of_mem (y := main_v102) rfl (by decide),
    writes_sub_of_mem (y := main_v103) rfl (by decide),
    writes_sub_of_mem (y := main_v104) rfl (by decide),
    writes_sub_of_mem (y := main_v105) rfl (by decide),
    writes_sub_of_mem (y := main_v106) rfl (by decide),
    writes_sub_of_mem (y := main_v107) rfl (by decide),
    writes_sub_of_mem (y := main_v108) rfl (by decide),
    writes_sub_of_mem (y := main_v109) rfl (by decide),
    writes_sub_of_mem (y := main_v110) rfl (by decide),
    writes_sub_of_mem (y := main_v111) rfl (by decide),
    writes_sub_of_mem (y := main_v112) rfl (by decide),
    writes_sub_of_mem (y := main_v113) rfl (by decide),
    writes_sub_of_mem (y := main_v114) rfl (by decide),
    writes_sub_of_mem (y := main_v115) rfl (by decide),
    writes_sub_of_mem (y := main_v116) rfl (by decide)⟩

/-- A buffer expert 4's operations do not write keeps its contents. -/
theorem opsE4_keep (V : Vals) {r : Ref sig .tc} (h : r ∉ WE4) :
    after (opsE4 (F := Ideal)) V (Proc.devRef .tc r) = V (Proc.devRef .tc r) :=
  after_of_writes_sub opsE4 V opsE4_writes h

set_option maxRecDepth 8192 in
/-- Expert 4's operations leave, in their last buffer, the running sum they found plus the expert's term of the
    inputs they found. -/
theorem opsE4_sum (V : Vals) :
    (after (opsE4 (F := Ideal)) V (Proc.devRef .tc main_v116) : FVec Ideal S4096x2048 .f32)
      = addf (V (Proc.devRef .tc main_v93) : FVec Ideal S4096x2048 .f32)
          (term 4 slices_S4096x8_S4096x1_0_4 slices_S8x5632x2048_S1x5632x2048_4_0_0 slices_S8x2048x5632_S1x2048x5632_4_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE4]
  after_results_simp <;> rfl

theorem inputsE4 {V' V : Vals} (h : Inputs V' V) : Inputs (after (opsE4 (F := Ideal)) V') V where
  x := (opsE4_keep V' (by decide)).trans h.x
  i := (opsE4_keep V' (by decide)).trans h.i
  w := (opsE4_keep V' (by decide)).trans h.w
  w1 := (opsE4_keep V' (by decide)).trans h.w1
  w2 := (opsE4_keep V' (by decide)).trans h.w2
  w3 := (opsE4_keep V' (by decide)).trans h.w3
  idx := (opsE4_keep V' (by decide)).trans h.idx

/-- With the inputs intact, expert 4's operations add the expert's term of the ARGUMENTS onto the running sum. -/
theorem stepE4 {V' V : Vals} (h : Inputs V' V) :
    (after (opsE4 (F := Ideal)) V' (Proc.devRef .tc main_v116) : FVec Ideal S4096x2048 .f32)
      = addf (V' (Proc.devRef .tc main_v93) : FVec Ideal S4096x2048 .f32)
          (term 4 slices_S4096x8_S4096x1_0_4 slices_S8x5632x2048_S1x5632x2048_4_0_0 slices_S8x2048x5632_S1x2048x5632_4_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE4_sum, h.x, h.idx, h.w, h.w1, h.w2, h.w3]

/-- The buffers expert 5's operations write. -/
abbrev WE5 : List (Ref sig .tc) := [main_v117, main_v118, main_v119, main_v120, main_call5_v0, main_call5_v1, main_call5_cst, main_call5_v2, main_call5_v3, main_call5_cst_0, main_call5_v4, main_call5_v5, main_v121, main_v122, main_v123, main_v124, main_v125, main_v126, main_v127, main_v128, main_v129, main_v130, main_v131, main_v132, main_v133, main_v134, main_v135, main_v136, main_v137, main_v138, main_v139]

theorem opsE5_writes : (opsE5 (F := Ideal)).Forall fun op => op.writes ⊆ (WE5.map (Proc.devRef (τ := τ) .tc)).toFinset :=
  ⟨writes_sub_of_mem (y := main_v117) rfl (by decide),
    writes_sub_of_mem (y := main_v118) rfl (by decide),
    writes_sub_of_mem (y := main_v119) rfl (by decide),
    writes_sub_of_mem (y := main_v120) rfl (by decide),
    writes_sub_of_mem (y := main_call5_v0) rfl (by decide),
    writes_sub_of_mem (y := main_call5_v1) rfl (by decide),
    writes_sub_of_mem (y := main_call5_cst) rfl (by decide),
    writes_sub_of_mem (y := main_call5_v2) rfl (by decide),
    writes_sub_of_mem (y := main_call5_v3) rfl (by decide),
    writes_sub_of_mem (y := main_call5_cst_0) rfl (by decide),
    writes_sub_of_mem (y := main_call5_v4) rfl (by decide),
    writes_sub_of_mem (y := main_call5_v5) rfl (by decide),
    writes_sub_of_mem (y := main_v121) rfl (by decide),
    writes_sub_of_mem (y := main_v122) rfl (by decide),
    writes_sub_of_mem (y := main_v123) rfl (by decide),
    writes_sub_of_mem (y := main_v124) rfl (by decide),
    writes_sub_of_mem (y := main_v125) rfl (by decide),
    writes_sub_of_mem (y := main_v126) rfl (by decide),
    writes_sub_of_mem (y := main_v127) rfl (by decide),
    writes_sub_of_mem (y := main_v128) rfl (by decide),
    writes_sub_of_mem (y := main_v129) rfl (by decide),
    writes_sub_of_mem (y := main_v130) rfl (by decide),
    writes_sub_of_mem (y := main_v131) rfl (by decide),
    writes_sub_of_mem (y := main_v132) rfl (by decide),
    writes_sub_of_mem (y := main_v133) rfl (by decide),
    writes_sub_of_mem (y := main_v134) rfl (by decide),
    writes_sub_of_mem (y := main_v135) rfl (by decide),
    writes_sub_of_mem (y := main_v136) rfl (by decide),
    writes_sub_of_mem (y := main_v137) rfl (by decide),
    writes_sub_of_mem (y := main_v138) rfl (by decide),
    writes_sub_of_mem (y := main_v139) rfl (by decide)⟩

/-- A buffer expert 5's operations do not write keeps its contents. -/
theorem opsE5_keep (V : Vals) {r : Ref sig .tc} (h : r ∉ WE5) :
    after (opsE5 (F := Ideal)) V (Proc.devRef .tc r) = V (Proc.devRef .tc r) :=
  after_of_writes_sub opsE5 V opsE5_writes h

set_option maxRecDepth 8192 in
/-- Expert 5's operations leave, in their last buffer, the running sum they found plus the expert's term of the
    inputs they found. -/
theorem opsE5_sum (V : Vals) :
    (after (opsE5 (F := Ideal)) V (Proc.devRef .tc main_v139) : FVec Ideal S4096x2048 .f32)
      = addf (V (Proc.devRef .tc main_v116) : FVec Ideal S4096x2048 .f32)
          (term 5 slices_S4096x8_S4096x1_0_5 slices_S8x5632x2048_S1x5632x2048_5_0_0 slices_S8x2048x5632_S1x2048x5632_5_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE5]
  after_results_simp <;> rfl

theorem inputsE5 {V' V : Vals} (h : Inputs V' V) : Inputs (after (opsE5 (F := Ideal)) V') V where
  x := (opsE5_keep V' (by decide)).trans h.x
  i := (opsE5_keep V' (by decide)).trans h.i
  w := (opsE5_keep V' (by decide)).trans h.w
  w1 := (opsE5_keep V' (by decide)).trans h.w1
  w2 := (opsE5_keep V' (by decide)).trans h.w2
  w3 := (opsE5_keep V' (by decide)).trans h.w3
  idx := (opsE5_keep V' (by decide)).trans h.idx

/-- With the inputs intact, expert 5's operations add the expert's term of the ARGUMENTS onto the running sum. -/
theorem stepE5 {V' V : Vals} (h : Inputs V' V) :
    (after (opsE5 (F := Ideal)) V' (Proc.devRef .tc main_v139) : FVec Ideal S4096x2048 .f32)
      = addf (V' (Proc.devRef .tc main_v116) : FVec Ideal S4096x2048 .f32)
          (term 5 slices_S4096x8_S4096x1_0_5 slices_S8x5632x2048_S1x5632x2048_5_0_0 slices_S8x2048x5632_S1x2048x5632_5_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE5_sum, h.x, h.idx, h.w, h.w1, h.w2, h.w3]

/-- The buffers expert 6's operations write. -/
abbrev WE6 : List (Ref sig .tc) := [main_v140, main_v141, main_v142, main_v143, main_call6_v0, main_call6_v1, main_call6_cst, main_call6_v2, main_call6_v3, main_call6_cst_0, main_call6_v4, main_call6_v5, main_v144, main_v145, main_v146, main_v147, main_v148, main_v149, main_v150, main_v151, main_v152, main_v153, main_v154, main_v155, main_v156, main_v157, main_v158, main_v159, main_v160, main_v161, main_v162]

theorem opsE6_writes : (opsE6 (F := Ideal)).Forall fun op => op.writes ⊆ (WE6.map (Proc.devRef (τ := τ) .tc)).toFinset :=
  ⟨writes_sub_of_mem (y := main_v140) rfl (by decide),
    writes_sub_of_mem (y := main_v141) rfl (by decide),
    writes_sub_of_mem (y := main_v142) rfl (by decide),
    writes_sub_of_mem (y := main_v143) rfl (by decide),
    writes_sub_of_mem (y := main_call6_v0) rfl (by decide),
    writes_sub_of_mem (y := main_call6_v1) rfl (by decide),
    writes_sub_of_mem (y := main_call6_cst) rfl (by decide),
    writes_sub_of_mem (y := main_call6_v2) rfl (by decide),
    writes_sub_of_mem (y := main_call6_v3) rfl (by decide),
    writes_sub_of_mem (y := main_call6_cst_0) rfl (by decide),
    writes_sub_of_mem (y := main_call6_v4) rfl (by decide),
    writes_sub_of_mem (y := main_call6_v5) rfl (by decide),
    writes_sub_of_mem (y := main_v144) rfl (by decide),
    writes_sub_of_mem (y := main_v145) rfl (by decide),
    writes_sub_of_mem (y := main_v146) rfl (by decide),
    writes_sub_of_mem (y := main_v147) rfl (by decide),
    writes_sub_of_mem (y := main_v148) rfl (by decide),
    writes_sub_of_mem (y := main_v149) rfl (by decide),
    writes_sub_of_mem (y := main_v150) rfl (by decide),
    writes_sub_of_mem (y := main_v151) rfl (by decide),
    writes_sub_of_mem (y := main_v152) rfl (by decide),
    writes_sub_of_mem (y := main_v153) rfl (by decide),
    writes_sub_of_mem (y := main_v154) rfl (by decide),
    writes_sub_of_mem (y := main_v155) rfl (by decide),
    writes_sub_of_mem (y := main_v156) rfl (by decide),
    writes_sub_of_mem (y := main_v157) rfl (by decide),
    writes_sub_of_mem (y := main_v158) rfl (by decide),
    writes_sub_of_mem (y := main_v159) rfl (by decide),
    writes_sub_of_mem (y := main_v160) rfl (by decide),
    writes_sub_of_mem (y := main_v161) rfl (by decide),
    writes_sub_of_mem (y := main_v162) rfl (by decide)⟩

/-- A buffer expert 6's operations do not write keeps its contents. -/
theorem opsE6_keep (V : Vals) {r : Ref sig .tc} (h : r ∉ WE6) :
    after (opsE6 (F := Ideal)) V (Proc.devRef .tc r) = V (Proc.devRef .tc r) :=
  after_of_writes_sub opsE6 V opsE6_writes h

set_option maxRecDepth 8192 in
/-- Expert 6's operations leave, in their last buffer, the running sum they found plus the expert's term of the
    inputs they found. -/
theorem opsE6_sum (V : Vals) :
    (after (opsE6 (F := Ideal)) V (Proc.devRef .tc main_v162) : FVec Ideal S4096x2048 .f32)
      = addf (V (Proc.devRef .tc main_v139) : FVec Ideal S4096x2048 .f32)
          (term 6 slices_S4096x8_S4096x1_0_6 slices_S8x5632x2048_S1x5632x2048_6_0_0 slices_S8x2048x5632_S1x2048x5632_6_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE6]
  after_results_simp <;> rfl

theorem inputsE6 {V' V : Vals} (h : Inputs V' V) : Inputs (after (opsE6 (F := Ideal)) V') V where
  x := (opsE6_keep V' (by decide)).trans h.x
  i := (opsE6_keep V' (by decide)).trans h.i
  w := (opsE6_keep V' (by decide)).trans h.w
  w1 := (opsE6_keep V' (by decide)).trans h.w1
  w2 := (opsE6_keep V' (by decide)).trans h.w2
  w3 := (opsE6_keep V' (by decide)).trans h.w3
  idx := (opsE6_keep V' (by decide)).trans h.idx

/-- With the inputs intact, expert 6's operations add the expert's term of the ARGUMENTS onto the running sum. -/
theorem stepE6 {V' V : Vals} (h : Inputs V' V) :
    (after (opsE6 (F := Ideal)) V' (Proc.devRef .tc main_v162) : FVec Ideal S4096x2048 .f32)
      = addf (V' (Proc.devRef .tc main_v139) : FVec Ideal S4096x2048 .f32)
          (term 6 slices_S4096x8_S4096x1_0_6 slices_S8x5632x2048_S1x5632x2048_6_0_0 slices_S8x2048x5632_S1x2048x5632_6_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE6_sum, h.x, h.idx, h.w, h.w1, h.w2, h.w3]

/-- The buffers expert 7's operations write. -/
abbrev WE7 : List (Ref sig .tc) := [main_v163, main_v164, main_v165, main_v166, main_call7_v0, main_call7_v1, main_call7_cst, main_call7_v2, main_call7_v3, main_call7_cst_0, main_call7_v4, main_call7_v5, main_v167, main_v168, main_v169, main_v170, main_v171, main_v172, main_v173, main_v174, main_v175, main_v176, main_v177, main_v178, main_v179, main_v180, main_v181, main_v182, main_v183, main_v184, main_v185]

theorem opsE7_writes : (opsE7 (F := Ideal)).Forall fun op => op.writes ⊆ (WE7.map (Proc.devRef (τ := τ) .tc)).toFinset :=
  ⟨writes_sub_of_mem (y := main_v163) rfl (by decide),
    writes_sub_of_mem (y := main_v164) rfl (by decide),
    writes_sub_of_mem (y := main_v165) rfl (by decide),
    writes_sub_of_mem (y := main_v166) rfl (by decide),
    writes_sub_of_mem (y := main_call7_v0) rfl (by decide),
    writes_sub_of_mem (y := main_call7_v1) rfl (by decide),
    writes_sub_of_mem (y := main_call7_cst) rfl (by decide),
    writes_sub_of_mem (y := main_call7_v2) rfl (by decide),
    writes_sub_of_mem (y := main_call7_v3) rfl (by decide),
    writes_sub_of_mem (y := main_call7_cst_0) rfl (by decide),
    writes_sub_of_mem (y := main_call7_v4) rfl (by decide),
    writes_sub_of_mem (y := main_call7_v5) rfl (by decide),
    writes_sub_of_mem (y := main_v167) rfl (by decide),
    writes_sub_of_mem (y := main_v168) rfl (by decide),
    writes_sub_of_mem (y := main_v169) rfl (by decide),
    writes_sub_of_mem (y := main_v170) rfl (by decide),
    writes_sub_of_mem (y := main_v171) rfl (by decide),
    writes_sub_of_mem (y := main_v172) rfl (by decide),
    writes_sub_of_mem (y := main_v173) rfl (by decide),
    writes_sub_of_mem (y := main_v174) rfl (by decide),
    writes_sub_of_mem (y := main_v175) rfl (by decide),
    writes_sub_of_mem (y := main_v176) rfl (by decide),
    writes_sub_of_mem (y := main_v177) rfl (by decide),
    writes_sub_of_mem (y := main_v178) rfl (by decide),
    writes_sub_of_mem (y := main_v179) rfl (by decide),
    writes_sub_of_mem (y := main_v180) rfl (by decide),
    writes_sub_of_mem (y := main_v181) rfl (by decide),
    writes_sub_of_mem (y := main_v182) rfl (by decide),
    writes_sub_of_mem (y := main_v183) rfl (by decide),
    writes_sub_of_mem (y := main_v184) rfl (by decide),
    writes_sub_of_mem (y := main_v185) rfl (by decide)⟩

/-- A buffer expert 7's operations do not write keeps its contents. -/
theorem opsE7_keep (V : Vals) {r : Ref sig .tc} (h : r ∉ WE7) :
    after (opsE7 (F := Ideal)) V (Proc.devRef .tc r) = V (Proc.devRef .tc r) :=
  after_of_writes_sub opsE7 V opsE7_writes h

set_option maxRecDepth 8192 in
/-- Expert 7's operations leave, in their last buffer, the running sum they found plus the expert's term of the
    inputs they found. -/
theorem opsE7_sum (V : Vals) :
    (after (opsE7 (F := Ideal)) V (Proc.devRef .tc main_v185) : FVec Ideal S4096x2048 .f32)
      = addf (V (Proc.devRef .tc main_v162) : FVec Ideal S4096x2048 .f32)
          (term 7 slices_S4096x8_S4096x1_0_7 slices_S8x5632x2048_S1x5632x2048_7_0_0 slices_S8x2048x5632_S1x2048x5632_7_0_0
            (V (Proc.devRef .tc main_arg0)) (V (Proc.devRef .tc main_v0)) (V (Proc.devRef .tc main_arg2))
            (V (Proc.devRef .tc main_arg3)) (V (Proc.devRef .tc main_arg4)) (V (Proc.devRef .tc main_arg5))) := by
  simp only [opsE7]
  after_results_simp <;> rfl

theorem inputsE7 {V' V : Vals} (h : Inputs V' V) : Inputs (after (opsE7 (F := Ideal)) V') V where
  x := (opsE7_keep V' (by decide)).trans h.x
  i := (opsE7_keep V' (by decide)).trans h.i
  w := (opsE7_keep V' (by decide)).trans h.w
  w1 := (opsE7_keep V' (by decide)).trans h.w1
  w2 := (opsE7_keep V' (by decide)).trans h.w2
  w3 := (opsE7_keep V' (by decide)).trans h.w3
  idx := (opsE7_keep V' (by decide)).trans h.idx

/-- With the inputs intact, expert 7's operations add the expert's term of the ARGUMENTS onto the running sum. -/
theorem stepE7 {V' V : Vals} (h : Inputs V' V) :
    (after (opsE7 (F := Ideal)) V' (Proc.devRef .tc main_v185) : FVec Ideal S4096x2048 .f32)
      = addf (V' (Proc.devRef .tc main_v162) : FVec Ideal S4096x2048 .f32)
          (term 7 slices_S4096x8_S4096x1_0_7 slices_S8x5632x2048_S1x5632x2048_7_0_0 slices_S8x2048x5632_S1x2048x5632_7_0_0
            (V (Proc.devRef .tc main_arg0)) (sitofp (F := Ideal) .f32 (V (Proc.devRef .tc main_arg1) : IVec S4096x8 32)) (V (Proc.devRef .tc main_arg2))
            (V (Proc.devRef .tc main_arg3)) (V (Proc.devRef .tc main_arg4)) (V (Proc.devRef .tc main_arg5))) := by
  rw [opsE7_sum, h.x, h.idx, h.w, h.w1, h.w2, h.w3]

/-! ## The whole line -/

/-- After all 251 operations the six arguments are as they were (and the routing indices are there as floats). -/
theorem after_ops_inputs (V : Vals) : Inputs (after (ops (F := Ideal)) V) V := by
  simp only [ops, after_append]
  exact inputsE7 (inputsE6 (inputsE5 (inputsE4 (inputsE3 (inputsE2 (inputsE1 (inputsE0 (inputs0 V))))))))

/-- After all 251 operations the last buffer holds the reference's result of the six arguments: the eight experts'
    terms added one after the other onto zero. -/
theorem after_ops_result (V : Vals) :
    (after (ops (F := Ideal)) V (Proc.devRef .tc main_v185) : FVec Ideal S4096x2048 .f32)
      = result (V (Proc.devRef .tc main_arg0)) (sitofp (F := Ideal) .f32 (V (Proc.devRef .tc main_arg1) : IVec S4096x8 32)) (V (Proc.devRef .tc main_arg2))
          (V (Proc.devRef .tc main_arg3)) (V (Proc.devRef .tc main_arg4)) (V (Proc.devRef .tc main_arg5)) := by
  have g0 := inputs0 V
  have g1 := inputsE0 g0
  have g2 := inputsE1 g1
  have g3 := inputsE2 g2
  have g4 := inputsE3 g3
  have g5 := inputsE4 g4
  have g6 := inputsE5 g5
  have g7 := inputsE6 g6
  simp only [ops, after_append]
  rw [stepE7 g7, stepE6 g6, stepE5 g5, stepE4 g4, stepE3 g3, stepE2 g2, stepE1 g1, stepE0 g0, ops0_zeros]
  rfl

end Cert.RefResult

end
-- ==== Proof.RefMain.lean ====
/-
  The reference program as a line of operations: the facts about the line itself.

  The reference's @main is a straight line of 251 host operations. This module proves what running such a line
  needs to know about it: that the program is exactly the operations run in order; that every operation reads and
  writes only buffers of the program; that no operation allocates, so each determines its results; and that the
  program's signature scopes no buffer and no semaphore. The operations are handled in their natural groups (the
  three preparing ones, then thirty-one per expert) so that each statement is about a short list, and the
  statements about the whole line are assembled from those.
-/
import proofs.«161697_j70901320122868_2_alg».proof.Proof.RefOps

noncomputable section

namespace Cert.RefResult

open Cert.ReferenceIdeal Cert.ReferenceIdeal.Gen Idealize.ShloMosaic Idealize.ShloMosaic.TcCoe Idealize.SL.Sem Idealize.ShloMosaic.StableHlo

variable {F : FTy → Type} [FloatOps F]

/-! ## The program is its operations run in order -/

set_option maxRecDepth 8192 in
set_option maxHeartbeats 4000000 in
/-- @main, on any device, is its 251 operations run one after the other: each statement of the program is one
    operation's step (a called function's statements standing in the call's place), and the line ends in the return. -/
theorem main_eq (c : Dev nD) : main (F := F) c = seq ops := rfl

/-! ## The signature scopes nothing -/

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

/-! ## Every operation names only buffers of the program, list by list -/

theorem ops0_sub : (ops0 : List (HloOp τ sig (Elt F))).Forall fun op => op.bufs ⊆ tcRefs τ sig :=
  ⟨unary_bufs_sub .., nullary_bufs_sub .., unary_bufs_sub ..⟩
theorem opsE0_sub : (opsE0 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
theorem opsE1_sub : (opsE1 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
theorem opsE2_sub : (opsE2 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
theorem opsE3_sub : (opsE3 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
theorem opsE4_sub : (opsE4 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
theorem opsE5_sub : (opsE5 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
theorem opsE6_sub : (opsE6 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩
theorem opsE7_sub : (opsE7 : List (HloOp τ sig (Elt F))).Forall fun op => op.bufs ⊆ tcRefs τ sig :=
  ⟨unary_bufs_sub .., reshape_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub ..⟩

/-- Every one of the 251 operations names only buffers of the program. -/
theorem ops_sub : (ops : List (HloOp τ sig (Elt F))).Forall fun op => op.bufs ⊆ tcRefs τ sig :=
  List.forall_append.2 ⟨List.forall_append.2 ⟨List.forall_append.2 ⟨List.forall_append.2 ⟨List.forall_append.2 ⟨List.forall_append.2
    ⟨List.forall_append.2 ⟨List.forall_append.2 ⟨ops0_sub, opsE0_sub⟩, opsE1_sub⟩, opsE2_sub⟩, opsE3_sub⟩, opsE4_sub⟩, opsE5_sub⟩,
    opsE6_sub⟩, opsE7_sub⟩

/-! ## Every operation determines its results, list by list -/

/-- Two lines of operations that each determine their results, run one after the other, still do. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

theorem ops0_fresh : ∀ op ∈ (ops0 : List (HloOp τ sig (Elt F))), op.fresh = ∅ := by
  intro op h
  (repeat (cases h with | head => rfl | tail _ h => ?_))
  exact nomatch h
theorem opsE0_fresh : ∀ op ∈ (opsE0 : List (HloOp τ sig (Elt F))), op.fresh = ∅ := by
  intro op h
  (repeat (cases h with | head => rfl | tail _ h => ?_))
  exact nomatch h
theorem opsE1_fresh : ∀ op ∈ (opsE1 : List (HloOp τ sig (Elt F))), op.fresh = ∅ := by
  intro op h
  (repeat (cases h with | head => rfl | tail _ h => ?_))
  exact nomatch h
theorem opsE2_fresh : ∀ op ∈ (opsE2 : List (HloOp τ sig (Elt F))), op.fresh = ∅ := by
  intro op h
  (repeat (cases h with | head => rfl | tail _ h => ?_))
  exact nomatch h
theorem opsE3_fresh : ∀ op ∈ (opsE3 : List (HloOp τ sig (Elt F))), op.fresh = ∅ := by
  intro op h
  (repeat (cases h with | head => rfl | tail _ h => ?_))
  exact nomatch h
theorem opsE4_fresh : ∀ op ∈ (opsE4 : List (HloOp τ sig (Elt F))), op.fresh = ∅ := by
  intro op h
  (repeat (cases h with | head => rfl | tail _ h => ?_))
  exact nomatch h
theorem opsE5_fresh : ∀ op ∈ (opsE5 : List (HloOp τ sig (Elt F))), op.fresh = ∅ := by
  intro op h
  (repeat (cases h with | head => rfl | tail _ h => ?_))
  exact nomatch h
theorem opsE6_fresh : ∀ op ∈ (opsE6 : List (HloOp τ sig (Elt F))), op.fresh = ∅ := by
  intro op h
  (repeat (cases h with | head => rfl | tail _ h => ?_))
  exact nomatch h
theorem opsE7_fresh : ∀ op ∈ (opsE7 : List (HloOp τ sig (Elt F))), op.fresh = ∅ := by
  intro op h
  (repeat (cases h with | head => rfl | tail _ h => ?_))
  exact nomatch h

/-- Every one of the 251 operations determines its results: none allocates. -/
theorem ops_fresh : ∀ op ∈ (ops : List (HloOp τ sig (Elt F))), op.fresh = ∅ :=
  fresh_append (fresh_append (fresh_append (fresh_append (fresh_append (fresh_append (fresh_append (fresh_append
    ops0_fresh opsE0_fresh) opsE1_fresh) opsE2_fresh) opsE3_fresh) opsE4_fresh) opsE5_fresh) opsE6_fresh) opsE7_fresh

end Cert.RefResult

end
-- ==== Proof.RefRunHand.lean ====
/-
  The reference program's run, read back as the result of its six arguments.

  On every device, from any memory with zero counters, every weakly fair execution of the reference's @main
  terminates; its result buffer then holds the eight experts' terms of the arguments' launch contents, added one
  after the other onto zero, and the six arguments are unchanged. The program is a straight line of host operations,
  so its run is the fold of the operations' results over the launch contents, computed expert by expert.
-/
import proofs.«161697_j70901320122868_2_alg».proof.Proof.RefAfter
import proofs.«161697_j70901320122868_2_alg».proof.Proof.RefMain

noncomputable section

namespace Cert.RefResult

open Cert.ReferenceIdeal Cert.ReferenceIdeal.Gen Idealize.ShloMosaic Idealize.ShloMosaic.TcCoe Idealize.SL.Sem Idealize.ShloMosaic.StableHlo

set_option maxRecDepth 8192 in
/-- On every device, at the ideal values, from any memory with zero counters: every weakly fair execution of @main
    terminates with the result buffer at `result` of the arguments' launch contents and the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v185)
          = result (m ((c.tc : Thread nD τ).loc main_arg0)) (sitofp .f32 (m ((c.tc : Thread nD τ).loc main_arg1))) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v185).trans (after_ops_result (launchContents m c)),
       (h c main_arg0).trans (after_ops_inputs (launchContents m c)).x,
       (h c main_arg1).trans (after_ops_inputs (launchContents m c)).i,
       (h c main_arg2).trans (after_ops_inputs (launchContents m c)).w,
       (h c main_arg3).trans (after_ops_inputs (launchContents m c)).w1,
       (h c main_arg4).trans (after_ops_inputs (launchContents m c)).w2,
       (h c main_arg5).trans (after_ops_inputs (launchContents m c)).w3⟩)
    (run_seq scopedRefs_eq scopedSems_eq defs main (fun _ => ops) main_eq (fun _ => ops_sub) m ρ (fun _ => ops_fresh))

end Cert.RefResult

end
-- ==== Proof.lean ====
/-
  The certificate's claims for a dense mixture of eight gated feed-forward experts.

  Both programs compute, at token `t` and output coordinate `d`,

      out t d = ∑ e < 8, gate t e · ∑ k < 5632, silu (∑ j, x t j · w1 e k j) · (∑ j, x t j · w3 e k j) · w2 e d k .

  The kernel accumulates it over a grid of token blocks, experts and blocks of the hidden axis `k`, with the gate
  (the weight where the routing entry is positive, zero elsewhere) multiplied into every summand; the reference forms
  each expert's whole sum, multiplies it by the weight times the routing entry, and adds the eight results onto zero.
  At the ideal instance the kernel's result array is the blocked arrangement of these sums (the kernel's value, read off
  its generated run by the fold over each token block's 352 grid points) and the reference's is the nested one (its
  run, expert by expert, each expert's term read at an index); under the precondition — every float input finite, every routing
  entry 0 or 1 — the two gates coincide and every partial sum is a real number, so the two arrangements are one real
  number (the specification module: the gate distributes over the sum, the blocks re-index the hidden axis).
  The frames are the programs' generated runs with the results dropped; the idealization rewrote no operation.
-/
import proofs.«161697_j70901320122868_2_alg».proof.Defs
import proofs.«161697_j70901320122868_2_alg».proof.Proof.Gen.Kernel.Frame
import proofs.«161697_j70901320122868_2_alg».proof.Proof.Gen.KernelIdeal.Value
import proofs.«161697_j70901320122868_2_alg».proof.Proof.Gen.Pre_finite_inputs
import proofs.«161697_j70901320122868_2_alg».proof.Proof.Bridge
import proofs.«161697_j70901320122868_2_alg».proof.Proof.RefRunHand
import Idealize.ShloMosaic.Adequacy
import Idealize.ShloMosaic.Init

noncomputable section

namespace Cert.Proof

open Idealize.ShloMosaic Idealize.SL.Sem

/-- The idealized kernel runs and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, the result dropped. -/
theorem frame_ReferenceIdeal : frame_ReferenceIdeal := fun m ρ _ =>
  (θ_run Cert.ReferenceIdeal.defs _ _).mono (fun _ h c => (h c).2) (Cert.RefResult.run' m ρ)

/-- From memories agreeing on the arguments, of which the precondition holds, both programs end with the same result
    array: at every token and output coordinate the kernel's blocked arrangement and the reference's nested one are
    the same extended real. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.RefResult.run' m' ρ')
  rw [(h c).1]
  funext i
  obtain ⟨t, d, rfl⟩ : ∃ (t : Fin 4096) (d : Fin 2048), i = ValueIdx.ix2 t d := ⟨i 0, i 1, ValueIdx.eq_ix2 i⟩
  obtain ⟨hx, hw, hw1, hw2, hw3, hidx⟩ := Cert.PreFacts.of_pre _ _ _ _ _ _ (hpre c)
  rw [(hagree c).1, (hagree c).2.1, (hagree c).2.2.1, (hagree c).2.2.2.1, (hagree c).2.2.2.2.1, (hagree c).2.2.2.2.2]
  rw [Cert.RefResult.result_apply]
  exact ((Cert.KernelIdeal.Result.G5_eq_blocked m c t d).trans
    (Cert.Bridge.arrangements_agree _ _ _ _ _ _ hx hw hw1 hw2 hw3 hidx t d)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
